-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v122)) (v1 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S64 .f32) (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_v48 main_v49 main_v50

def fn_part1 {F : FTy → Type} [FloatOps F] (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S1600000 .f32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : IVec S2x1600000 32) (main_arg15 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1000x100x64 : Shape := ⟨3, ![1000, 100, 64]⟩
abbrev S1000x100 : Shape := ⟨2, ![1000, 100]⟩

abbrev nBuf : Space → Nat
  | .hbm => 176
  | .vmem => 57
  | .smem => 0
  | _ => 0

abbrev hbmTy0_0 (i : Nat) : BufTy := match i % 128 with
  | 0 => ⟨S100000x128, .f32⟩
  | 1 => ⟨S1600000, .f32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S2x1600000, .i32⟩
  | 15 => ⟨S100000, .i32⟩
  | 16 => ⟨S1x1600000, .i32⟩
  | 17 => ⟨S1600000, .i32⟩
  | 18 => ⟨S1x1600000, .i32⟩
  | 19 => ⟨S1600000, .i32⟩
  | 20 => ⟨S100000, .i32⟩
  | 21 => ⟨S1700000, .i32⟩
  | 22 => ⟨S1700000, .i32⟩
  | 23 => ⟨S_, .f32⟩
  | 24 => ⟨S100000, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .i1⟩
  | 36 => ⟨S_, .f32⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x1, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S1x64, .f32⟩
  | 92 => ⟨S1x64, .f32⟩
  | 93 => ⟨S_, .f32⟩
  | 94 => ⟨S1x64, .f32⟩
  | 95 => ⟨S1x64, .f32⟩
  | 96 => ⟨S1x64, .f32⟩
  | 97 => ⟨S1x64, .f32⟩
  | 98 => ⟨S1x64, .f32⟩
  | 99 => ⟨S1x64, .f32⟩
  | 100 => ⟨S100000x64, .f32⟩
  | 101 => ⟨S100000x64, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x64, .f32⟩
  | 111 => ⟨S1700000x1, .f32⟩
  | 112 => ⟨S1700000x64, .f32⟩
  | 113 => ⟨S1700000x64, .f32⟩
  | 114 => ⟨S_, .f32⟩
  | 115 => ⟨S100000x64, .f32⟩
  | 116 => ⟨S1700000x1, .i32⟩
  | 117 => ⟨S100000x64, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S100000x128, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S1x64, .f32⟩
  | 8 => ⟨S100000x64, .f32⟩
  | 9 => ⟨S100000x64, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x64, .f32⟩
  | 19 => ⟨S1700000x1, .f32⟩
  | 20 => ⟨S1700000x64, .f32⟩
  | 21 => ⟨S1700000x64, .f32⟩
  | 22 => ⟨S_, .f32⟩
  | 23 => ⟨S100000x64, .f32⟩
  | 24 => ⟨S1700000x1, .i32⟩
  | 25 => ⟨S100000x64, .f32⟩
  | 26 => ⟨S1x64, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S_, .f32⟩
  | 33 => ⟨S1x64, .f32⟩
  | 34 => ⟨S1x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S1x64, .f32⟩
  | 41 => ⟨S1x64, .f32⟩
  | 42 => ⟨S1x64, .f32⟩
  | 43 => ⟨S1x64, .f32⟩
  | 44 => ⟨S100000x64, .f32⟩
  | 45 => ⟨S1000x100x64, .f32⟩
  | 46 => ⟨S_, .f32⟩
  | 47 => ⟨S1000x100, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S10000x64, .f32⟩
  | .local _ .vmem, ⟨30, _⟩ => ⟨S10000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S10000x64, .f32⟩
  | .local _ .vmem, ⟨56, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_c_9 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50_0 : Ref sig .tc := ⟨.hbm, 83, rfl⟩
abbrev main_v50_1 : Ref sig .tc := ⟨.hbm, 84, rfl⟩
abbrev main_cst_11 : Ref sig .tc := ⟨.hbm, 85, rfl⟩
abbrev main_v51 : Ref sig .tc := ⟨.hbm, 86, rfl⟩
abbrev main_v52 : Ref sig .tc := ⟨.hbm, 87, rfl⟩
abbrev main_cst_12 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_13 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_14 : Ref sig .tc := ⟨.hbm, 102, rfl⟩
abbrev main_v65 : Ref sig .tc := ⟨.hbm, 103, rfl⟩
abbrev main_v66 : Ref sig .tc := ⟨.hbm, 104, rfl⟩
abbrev main_c_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_16 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79_0 : Ref sig .tc := ⟨.hbm, 119, rfl⟩
abbrev main_v79_1 : Ref sig .tc := ⟨.hbm, 120, rfl⟩
abbrev main_cst_17 : Ref sig .tc := ⟨.hbm, 121, rfl⟩
abbrev main_v80 : Ref sig .tc := ⟨.hbm, 122, rfl⟩
abbrev main_v81 : Ref sig .tc := ⟨.hbm, 123, rfl⟩
abbrev main_cst_18 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_19 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_20 : Ref sig .tc := ⟨.hbm, 138, rfl⟩
abbrev main_v94 : Ref sig .tc := ⟨.hbm, 139, rfl⟩
abbrev main_v95 : Ref sig .tc := ⟨.hbm, 140, rfl⟩
abbrev main_c_21 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_22 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108_0 : Ref sig .tc := ⟨.hbm, 155, rfl⟩
abbrev main_v108_1 : Ref sig .tc := ⟨.hbm, 156, rfl⟩
abbrev main_cst_23 : Ref sig .tc := ⟨.hbm, 157, rfl⟩
abbrev main_v109 : Ref sig .tc := ⟨.hbm, 158, rfl⟩
abbrev main_v110 : Ref sig .tc := ⟨.hbm, 159, rfl⟩
abbrev main_cst_24 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_25 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_26 : Ref sig .tc := ⟨.hbm, 174, rfl⟩
abbrev main_v123 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  shapeCasts_S100000x64_S1000x100x64 : S100000x64.ShapeCasts S1000x100x64
  bcast_S_S1000x100 : S_.BroadcastsInDim S1000x100 (![] : Fin 0 → Fin S1000x100.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v92) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v92) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v106) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108_0) S1x64.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v108_1) S1x64.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v106) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v118) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v110) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v117) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v119) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v120) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v121) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1000x100x64 : Shape := ⟨3, ![1000, 100, 64]⟩
abbrev S1000x100 : Shape := ⟨2, ![1000, 100]⟩

abbrev nBuf : Space → Nat
  | .hbm => 269
  | .vmem => 0
  | .smem => 0
  | _ => 0

abbrev hbmTy0_0 (i : Nat) : BufTy := match i % 128 with
  | 0 => ⟨S100000x128, .f32⟩
  | 1 => ⟨S1600000, .f32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S2x1600000, .i32⟩
  | 15 => ⟨S100000, .i32⟩
  | 16 => ⟨S1x1600000, .i32⟩
  | 17 => ⟨S1600000, .i32⟩
  | 18 => ⟨S1x1600000, .i32⟩
  | 19 => ⟨S1600000, .i32⟩
  | 20 => ⟨S100000, .i32⟩
  | 21 => ⟨S1700000, .i32⟩
  | 22 => ⟨S1700000, .i32⟩
  | 23 => ⟨S_, .f32⟩
  | 24 => ⟨S100000, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .i1⟩
  | 36 => ⟨S_, .f32⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x1, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S100000x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x64, .f32⟩
  | 14 => ⟨S1700000x1, .f32⟩
  | 15 => ⟨S1700000x64, .f32⟩
  | 16 => ⟨S1700000x64, .f32⟩
  | 17 => ⟨S_, .f32⟩
  | 18 => ⟨S100000x64, .f32⟩
  | 19 => ⟨S1700000x1, .i32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S64, .f32⟩
  | 26 => ⟨S_, .f32⟩
  | 27 => ⟨S64, .f32⟩
  | 28 => ⟨S64, .f32⟩
  | 29 => ⟨S_, .i32⟩
  | 30 => ⟨S_, .f32⟩
  | 31 => ⟨S64, .f32⟩
  | 32 => ⟨S1x64, .f32⟩
  | 33 => ⟨S_, .f32⟩
  | 34 => ⟨S1x64, .f32⟩
  | 35 => ⟨S1x64, .f32⟩
  | 36 => ⟨S100000x64, .f32⟩
  | 37 => ⟨S100000x64, .f32⟩
  | 38 => ⟨S100000x64, .f32⟩
  | 39 => ⟨S_, .f32⟩
  | 40 => ⟨S_, .f32⟩
  | 41 => ⟨S_, .f32⟩
  | 42 => ⟨S_, .f32⟩
  | 43 => ⟨S64, .f32⟩
  | 44 => ⟨S64, .f32⟩
  | 45 => ⟨S64, .f32⟩
  | 46 => ⟨S_, .f32⟩
  | 47 => ⟨S_, .i1⟩
  | 48 => ⟨S_, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S64, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x64, .f32⟩
  | 81 => ⟨S1700000x1, .f32⟩
  | 82 => ⟨S1700000x64, .f32⟩
  | 83 => ⟨S1700000x64, .f32⟩
  | 84 => ⟨S_, .f32⟩
  | 85 => ⟨S100000x64, .f32⟩
  | 86 => ⟨S1700000x1, .i32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S100000x64, .f32⟩
  | 104 => ⟨S100000x64, .f32⟩
  | 105 => ⟨S100000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S64, .f32⟩
  | _ => ⟨S100000x128, .f32⟩

abbrev hbmTy0_2 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S1000x100x64, .f32⟩
  | 11 => ⟨S_, .f32⟩
  | 12 => ⟨S1000x100, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_c_9 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_c_13 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_14 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_call3_cst : Ref sig .tc := ⟨.hbm, 129, rfl⟩
abbrev main_call3_v0 : Ref sig .tc := ⟨.hbm, 130, rfl⟩
abbrev main_v71 : Ref sig .tc := ⟨.hbm, 131, rfl⟩
abbrev main_v72 : Ref sig .tc := ⟨.hbm, 132, rfl⟩
abbrev main_c_15 : Ref sig .tc := ⟨.hbm, 133, rfl⟩
abbrev main_v73 : Ref sig .tc := ⟨.hbm, 134, rfl⟩
abbrev main_v74 : Ref sig .tc := ⟨.hbm, 135, rfl⟩
abbrev main_c_16 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_17 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_cst_18 : Ref sig .tc := ⟨.hbm, 152, rfl⟩
abbrev main_v89 : Ref sig .tc := ⟨.hbm, 153, rfl⟩
abbrev main_cst_19 : Ref sig .tc := ⟨.hbm, 154, rfl⟩
abbrev main_v90 : Ref sig .tc := ⟨.hbm, 155, rfl⟩
abbrev main_v91 : Ref sig .tc := ⟨.hbm, 156, rfl⟩
abbrev main_c_20 : Ref sig .tc := ⟨.hbm, 157, rfl⟩
abbrev main_call4_cst : Ref sig .tc := ⟨.hbm, 158, rfl⟩
abbrev main_call4_v0 : Ref sig .tc := ⟨.hbm, 159, rfl⟩
abbrev main_call4_v1 : Ref sig .tc := ⟨.hbm, 160, rfl⟩
abbrev main_call4_cst_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_cst_1 : Ref sig .tc := ⟨.hbm, 168, rfl⟩
abbrev main_call4_v8 : Ref sig .tc := ⟨.hbm, 169, rfl⟩
abbrev main_call4_cst_2 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_cst_3 : Ref sig .tc := ⟨.hbm, 174, rfl⟩
abbrev main_call4_v12 : Ref sig .tc := ⟨.hbm, 175, rfl⟩
abbrev main_call4_cst_4 : Ref sig .tc := ⟨.hbm, 176, rfl⟩
abbrev main_call4_call0_v0 : Ref sig .tc := ⟨.hbm, 177, rfl⟩
abbrev main_call4_call0_v1 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_cst_21 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_call5_cst : Ref sig .tc := ⟨.hbm, 196, rfl⟩
abbrev main_call5_v0 : Ref sig .tc := ⟨.hbm, 197, rfl⟩
abbrev main_v108 : Ref sig .tc := ⟨.hbm, 198, rfl⟩
abbrev main_v109 : Ref sig .tc := ⟨.hbm, 199, rfl⟩
abbrev main_c_22 : Ref sig .tc := ⟨.hbm, 200, rfl⟩
abbrev main_v110 : Ref sig .tc := ⟨.hbm, 201, rfl⟩
abbrev main_v111 : Ref sig .tc := ⟨.hbm, 202, rfl⟩
abbrev main_c_23 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_cst_24 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_cst_25 : Ref sig .tc := ⟨.hbm, 219, rfl⟩
abbrev main_v126 : Ref sig .tc := ⟨.hbm, 220, rfl⟩
abbrev main_cst_26 : Ref sig .tc := ⟨.hbm, 221, rfl⟩
abbrev main_v127 : Ref sig .tc := ⟨.hbm, 222, rfl⟩
abbrev main_v128 : Ref sig .tc := ⟨.hbm, 223, rfl⟩
abbrev main_c_27 : Ref sig .tc := ⟨.hbm, 224, rfl⟩
abbrev main_call6_cst : Ref sig .tc := ⟨.hbm, 225, rfl⟩
abbrev main_call6_v0 : Ref sig .tc := ⟨.hbm, 226, rfl⟩
abbrev main_call6_v1 : Ref sig .tc := ⟨.hbm, 227, rfl⟩
abbrev main_call6_cst_0 : Ref sig .tc := ⟨.hbm, 228, rfl⟩
abbrev main_call6_v2 : Ref sig .tc := ⟨.hbm, 229, rfl⟩
abbrev main_call6_v3 : Ref sig .tc := ⟨.hbm, 230, rfl⟩
abbrev main_call6_v4 : Ref sig .tc := ⟨.hbm, 231, rfl⟩
abbrev main_call6_v5 : Ref sig .tc := ⟨.hbm, 232, rfl⟩
abbrev main_call6_v6 : Ref sig .tc := ⟨.hbm, 233, rfl⟩
abbrev main_call6_v7 : Ref sig .tc := ⟨.hbm, 234, rfl⟩
abbrev main_call6_cst_1 : Ref sig .tc := ⟨.hbm, 235, rfl⟩
abbrev main_call6_v8 : Ref sig .tc := ⟨.hbm, 236, rfl⟩
abbrev main_call6_cst_2 : Ref sig .tc := ⟨.hbm, 237, rfl⟩
abbrev main_call6_v9 : Ref sig .tc := ⟨.hbm, 238, rfl⟩
abbrev main_call6_v10 : Ref sig .tc := ⟨.hbm, 239, rfl⟩
abbrev main_call6_v11 : Ref sig .tc := ⟨.hbm, 240, rfl⟩
abbrev main_call6_cst_3 : Ref sig .tc := ⟨.hbm, 241, rfl⟩
abbrev main_call6_v12 : Ref sig .tc := ⟨.hbm, 242, rfl⟩
abbrev main_call6_cst_4 : Ref sig .tc := ⟨.hbm, 243, rfl⟩
abbrev main_call6_call0_v0 : Ref sig .tc := ⟨.hbm, 244, rfl⟩
abbrev main_call6_call0_v1 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_cst_28 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_v144 : Ref sig .tc := ⟨.hbm, 262, rfl⟩
abbrev main_call7_cst : Ref sig .tc := ⟨.hbm, 263, rfl⟩
abbrev main_call7_v0 : Ref sig .tc := ⟨.hbm, 264, rfl⟩
abbrev main_v145 : Ref sig .tc := ⟨.hbm, 265, rfl⟩
abbrev main_v146 : Ref sig .tc := ⟨.hbm, 266, rfl⟩
abbrev main_cst_29 : Ref sig .tc := ⟨.hbm, 267, rfl⟩
abbrev main_v147 : Ref sig .tc := ⟨.hbm, 268, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  shapeCasts_S100000x64_S1000x100x64 : S100000x64.ShapeCasts S1000x100x64
  bcast_S_S1000x100 : S_.BroadcastsInDim S1000x100 (![] : Fin 0 → Fin S1000x100.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
import proofs.«148580_j42640435315163_1_alg».proof.Proof.Gen.KernelIdeal.Frame

/-! The kernel program's run with its two results named: every weakly fair execution of @main terminates without a
fault, the arguments end as launched, and each result buffer ends at the contents the fold of @main's segments
leaves there (`Gen.W21`: host stretches applied in order, each pallas_call's arrays at what its write-backs leave).
The launch is the frame's, with the last thread state read at the result buffers as well. -/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_values : θ_run defs (onTc (τ := τ) (main (F := F))) ⟨m, fun _ => 0, ρ⟩ (fun r => ∀ c : Dev nD,
      r.2.mem ((c.tc : Thread nD τ).loc main_v122) = W21 m ρ c (Proc.devRef .tc main_v122)
      ∧ r.2.mem ((c.tc : Thread nD τ).loc main_v123) = W21 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v122 (by decide)), h c _ (mem_uc main_v123 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c)⟩)

end Cert.KernelIdeal.KRun

end
-- ==== Proof.KHost.lean ====
import proofs.«148580_j42640435315163_1_alg».proof.KernelIdeal
import Idealize.ShloMosaic.PureOps.Ideal

/-! The host operations of the kernel's program between its pallas_calls, named as functions of their operands
(extended reals; integer tables as words).

The edge list is the given table's two rows with one self loop per node appended; an edge's weight is the given
weight, a self loop's is one. `deg` adds the weights arriving at each node, `dis` is `deg^(-1/2)` where
`deg > 0` and zero elsewhere, an edge's coefficient is `dis(source) · weight · dis(destination)` (negative
entries wrapped by the node count before the lookups), and one layer's aggregation gathers the rows of the
features at the wrapped sources, scales each by its edge's coefficient and adds it into the row of its
destination, starting from zeros. -/

noncomputable section

namespace Cert.KernelIdeal.KHost

open Idealize.ShloMosaic Cert.KernelIdeal Cert.KernelIdeal.Facts₀ Cert.KernelIdeal.Facts

variable [Cert.KernelIdeal.Facts]

/-- Sources: row 0 of the edge table, then the nodes themselves. -/
def srcK (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩]
    concatenates_S1600000_S100000_S1700000_d0

/-- Destinations: row 1 of the edge table, then the nodes themselves. -/
def dstK (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩]
    concatenates_S1600000_S100000_S1700000_d0

/-- Weights: the given ones, then a one per self loop. -/
def wfK (ew : FVec Ideal S1600000 .f32) : FVec Ideal S1700000 .f32 :=
  concatenate S1700000 0
    [⟨S1600000, ew⟩,
      ⟨S100000, broadcastInDim S100000 ![] bcast_S_S100000 (constant (F := Ideal) S_ .f32 0x3F800000#32)⟩]
    concatenates_S1600000_S100000_S1700000_d0

/-- The weights arriving at each node, added up from zero. -/
def degK (dst : IVec S1700000 32) (wf : FVec Ideal S1700000 .f32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst) wf

/-- `deg^(-1/2)` where `deg > 0`, zero elsewhere (the inner selection keeps the root's argument positive). -/
def disK (deg : FVec Ideal S100000 .f32) : FVec Ideal S100000 .f32 :=
  select
    (cmpf .ogt deg (broadcastInDim S100000 ![] bcast_S_S100000 (constant (F := Ideal) S_ .f32 0x00000000#32)))
    (Host.rsqrt (F := Ideal)
      (select
        (cmpf .ogt deg (broadcastInDim S100000 ![] bcast_S_S100000 (constant (F := Ideal) S_ .f32 0x00000000#32)))
        deg
        (broadcastInDim S100000 ![] bcast_S_S100000 (constant (F := Ideal) S_ .f32 0x3F800000#32))))
    (broadcastInDim S100000 ![] bcast_S_S100000 (constant (F := Ideal) S_ .f32 0x00000000#32))

/-- A table of node numbers as a column of lookup positions, a negative entry moved up by the node count. -/
def wrapK (idx : IVec S1700000 32) : IVec S1700000x1 32 :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- An edge's coefficient: `dis(source) · weight · dis(destination)`. -/
def normK (dis : FVec Ideal S100000 .f32) (src dst : IVec S1700000 32) (wf : FVec Ideal S1700000 .f32) :
    FVec Ideal S1700000 .f32 :=
  mulf (mulf (Host.gather gather_S100000_S1700000x1_S1700000_n_0_n_n_0_1_1 dis (wrapK src)) wf)
    (Host.gather gather_S100000_S1700000x1_S1700000_n_0_n_n_0_1_1 dis (wrapK dst))

/-- One layer's aggregation of the features `H`. -/
def aggK (src dst : IVec S1700000 32) (nrm : FVec Ideal S1700000 .f32) (H : FVec Ideal S100000x64 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (Host.gather gather_S100000x64_S1700000x1_S1700000x64_1_0_n_n_0_1_164 H (wrapK src))
      (broadcastInDim S1700000x64 ![0, 1] bcast_S1700000x1_S1700000x64_0_1
        (broadcastInDim S1700000x1 ![0] bcast_S1700000_S1700000x1_0 nrm)))

/-- The coefficient of every edge from the two inputs that describe the graph. -/
def coefK (ew : FVec Ideal S1600000 .f32) (ei : IVec S2x1600000 32) : FVec Ideal S1700000 .f32 :=
  normK (disK (degK (dstK ei) (wfK ew))) (srcK ei) (dstK ei) (wfK ew)

end Cert.KernelIdeal.KHost

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
import Idealize.ShloMosaic.PureOps.Ideal
import Idealize.ShloMosaic.Lib.ValueIdx
import proofs.«148580_j42640435315163_1_alg».proof.Proof.LibDense

/-! One graph-convolution layer followed by a batch normalisation and a rectifier, as whole-array
functions on the extended reals.

A layer takes the aggregated features `A` (`M` rows, `N` columns), adds the one-row bias `b` to every
row (`Y = A + b`), takes per column the sum and the sum of squares over the `M` rows, divides by the
count `n` to get the mean `μ` and a variance, and returns `max (g · (Y − μ) · rsqrt (var + ε) + β) 0`.
Two variances are in play: `E[y²] − μ²` (one pass over the rows) and `E[(y − μ)²]` (two passes). -/

noncomputable section

namespace Cert.GcnBn

open Idealize.ShloMosaic Idealize.ShloMosaic.ValueIdx Cert.Dense

variable {M N : ℕ}

/-- The entry of a one-row array in the column of the index `i`. -/
abbrev at0 (r : Mat 1 N) (i : (⟨2, ![M, N]⟩ : Shape).Idx) : EReal := r (ix2 (0 : Fin 1) (c1 i))

/-- A one-row bias added to every row. -/
def addRow (A : Mat M N) (b : Mat 1 N) : Mat M N := fun i => A i + at0 b i

/-- Per column, the sum over the rows. -/
def colSum (Y : Mat M N) : Mat 1 N := fun i => ∑ p : Fin M, Y (ix2 p (c1 i))

/-- Per column, the sum of the squares over the rows. -/
def colSumSq (Y : Mat M N) : Mat 1 N := fun i => ∑ p : Fin M, Y (ix2 p (c1 i)) * Y (ix2 p (c1 i))

/-- Per column, the mean over the rows: the sum divided by the count `n`. -/
def mean (n : EReal) (Y : Mat M N) : Mat 1 N := fun i => Ideal.div (colSum Y i) n

/-- The one-pass variance `E[y²] − μ²`. -/
def varOne (n : EReal) (Y : Mat M N) : Mat 1 N :=
  fun i => Ideal.div (colSumSq Y i) n - mean n Y i * mean n Y i

/-- The two-pass variance `E[(y − μ)²]`. -/
def varTwo (n : EReal) (Y : Mat M N) : Mat 1 N :=
  fun i => Ideal.div (∑ p : Fin M, (Y (ix2 p (c1 i)) - mean n Y i) * (Y (ix2 p (c1 i)) - mean n Y i)) n

/-- The reciprocal standard deviation `rsqrt (var + ε)`, per column. -/
def invStd (e : EReal) (v : Mat 1 N) : Mat 1 N := fun i => Ideal.rsqrt (v i + e)

/-- Normalise by one-row statistics, scale by `g`, shift by `β`, rectify. -/
def bnRelu (Y : Mat M N) (mu inv g be : Mat 1 N) : Mat M N :=
  fun i => max (at0 g i * (Y i - at0 mu i) * at0 inv i + at0 be i) 0

theorem addRow_apply (A : Mat M N) (b : Mat 1 N) (p : Fin M) (q : Fin N) :
    addRow A b (ix2 p q) = A (ix2 p q) + b (ix2 (0 : Fin 1) q) := rfl

theorem colSum_apply (Y : Mat M N) (u : Fin 1) (q : Fin N) : colSum Y (ix2 u q) = ∑ p : Fin M, Y (ix2 p q) := rfl

theorem colSumSq_apply (Y : Mat M N) (u : Fin 1) (q : Fin N) :
    colSumSq Y (ix2 u q) = ∑ p : Fin M, Y (ix2 p q) * Y (ix2 p q) := rfl

theorem bnRelu_apply (Y : Mat M N) (mu inv g be : Mat 1 N) (p : Fin M) (q : Fin N) :
    bnRelu Y mu inv g be (ix2 p q)
      = max (g (ix2 (0 : Fin 1) q) * (Y (ix2 p q) - mu (ix2 (0 : Fin 1) q)) * inv (ix2 (0 : Fin 1) q)
          + be (ix2 (0 : Fin 1) q)) 0 := rfl

end Cert.GcnBn

end
-- ==== Proof.KStretch1.lean ====
import proofs.«148580_j42640435315163_1_alg».proof.Proof.Gen.KernelIdeal.Launch
import proofs.«148580_j42640435315163_1_alg».proof.Proof.KHost
import proofs.«148580_j42640435315163_1_alg».proof.Proof.Spec
import Idealize.ShloMosaic.Lib.StableHlo.Run

/-! The host lines around the first layer's pallas_calls, each stretch read over an arbitrary valuation of the
buffers: the aggregation and the bias row before the statistics call; the mean, the one-pass variance, the
reciprocal deviation and the three parameter rows before the normalising call. -/

noncomputable section

namespace Cert.KernelIdeal.KStretch

open Idealize.ShloMosaic Idealize.ShloMosaic.TcCoe Idealize.SL.Sem Idealize.ShloMosaic.StableHlo
open Cert.KernelIdeal Cert.KernelIdeal.Gen Cert.KernelIdeal.KHost Cert.Dense Cert.GcnBn

/-- The count of rows, as the program's float word. -/
abbrev nW : EReal := Ideal.ofBits .f32 0x47C35000#32
/-- The variance's offset, as the program's float word. -/
abbrev epsW : EReal := Ideal.ofBits .f32 0x3727C5AC#32

set_option maxHeartbeats 1000000 in
theorem h1_agg (V : Valuation τ sig (Elt Ideal)) :
    after (hostOps1 (F := Ideal)) V (main_v48 : DevRef τ sig)
      = aggK (V (main_v5 : DevRef τ sig)) (V (main_v6 : DevRef τ sig)) (V (main_v34 : DevRef τ sig))
          (V (main_v35 : DevRef τ sig)) := by
  after_results_simp
  rfl

theorem h1_brow (V : Valuation τ sig (Elt Ideal)) :
    after (hostOps1 (F := Ideal)) V (main_v49 : DevRef τ sig)
      = shapeCast S1x64 (V (main_arg3 : DevRef τ sig)) shapeCasts_S64_S1x64 := by
  after_results_simp
  rfl

theorem h2_mean (V : Valuation τ sig (Elt Ideal)) (Y : Mat 100000 64)
    (hs : V (main_v50_0 : DevRef τ sig) = colSum Y) :
    after (hostOps2 (F := Ideal)) V (main_v52 : DevRef τ sig) = mean nW Y := by
  after_results_simp
  rw [hs]
  rfl

theorem h2_inv (V : Valuation τ sig (Elt Ideal)) (Y : Mat 100000 64)
    (hs : V (main_v50_0 : DevRef τ sig) = colSum Y) (hq : V (main_v50_1 : DevRef τ sig) = colSumSq Y) :
    after (hostOps2 (F := Ideal)) V (main_v59 : DevRef τ sig) = invStd epsW (varOne nW Y) := by
  after_results_simp
  rw [hs, hq]
  rfl

theorem h2_b (V : Valuation τ sig (Elt Ideal)) :
    after (hostOps2 (F := Ideal)) V (main_v60 : DevRef τ sig)
      = shapeCast S1x64 (V (main_arg3 : DevRef τ sig)) shapeCasts_S64_S1x64 := by
  after_results_simp
  rfl

theorem h2_g (V : Valuation τ sig (Elt Ideal)) :
    after (hostOps2 (F := Ideal)) V (main_v61 : DevRef τ sig)
      = shapeCast S1x64 (V (main_arg4 : DevRef τ sig)) shapeCasts_S64_S1x64 := by
  after_results_simp
  rfl

theorem h2_be (V : Valuation τ sig (Elt Ideal)) :
    after (hostOps2 (F := Ideal)) V (main_v62 : DevRef τ sig)
      = shapeCast S1x64 (V (main_arg5 : DevRef τ sig)) shapeCasts_S64_S1x64 := by
  after_results_simp
  rfl

end Cert.KernelIdeal.KStretch

end
-- ==== Proof.RegionMatmul.lean ====
/-
  The three feature-transform regions of the idealized kernel, each read as ONE function of whole arrays, on the extended
  reals, for arbitrary contents of the buffers at the region's entry.

  Each region runs over ten grid points; point `t` loads rows `10000 t … 10000 t + 9999` of the left array and the whole
  right array, multiplies them (the roundings to bf16 are the identity on the extended reals and the accumulator starts
  at zero, so the product is the plain sum over the contracted index) and writes the result back to the same rows of the
  output array. Row `p` of a block product depends on row `p` of the left operand only, so every block written back is
  the restriction of the product of the two whole arrays, and the ten row blocks cover the output array: row `p` lies in
  block `p / 10000`. Hence the output array ends holding the matrix product of the two input arrays.
-/
import proofs.«148580_j42640435315163_1_alg».proof.Proof.Gen.KernelIdeal.Frame
import proofs.«148580_j42640435315163_1_alg».proof.Proof.LibDense
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic Idealize.ShloMosaic.ValueIdx

variable (V : (c : Dev nD) → (b : Ref sig .tc) → Buf (Elt Ideal) ((c : Thread nD τ).loc b)) (c : Dev nD)

/-- The zero offsets of a whole-shape rectangle of rank 2, however spelt. -/
theorem matmul_zero_off : (![0, 0] : Fin 2 → Nat) = fun _ => 0 := funext fun a => by fin_cases a <;> rfl

/-- A block of rows of a matrix product: if `X0` is the rows `off … off + R - 1` of `A` and `X1` is `B`, then
    `X0 X1` at `(r, q)` is `A B` at `(off + r, q)`. -/
theorem mm_block {R M K N : ℕ} (A : Cert.Dense.Mat M K) (B : Cert.Dense.Mat K N) (X0 : Cert.Dense.Mat R K) (X1 : Cert.Dense.Mat K N)
    (j : (⟨2, ![R, N]⟩ : Shape).Idx) (i : (⟨2, ![M, N]⟩ : Shape).Idx) (off : ℕ)
    (hi0 : (i 0).val = off + (j 0).val) (hi1 : (i 1).val = (j 1).val)
    (h0 : ∀ (y : (⟨2, ![R, K]⟩ : Shape).Idx) (z : (⟨2, ![M, K]⟩ : Shape).Idx),
      (z 0).val = off + (y 0).val → (z 1).val = (y 1).val → X0 y = A z)
    (h1 : X1 = B) : Cert.Dense.mm X0 X1 j = Cert.Dense.mm A B i := by
  subst h1
  have e1 : Cert.Dense.c1 j = Cert.Dense.c1 i := Fin.ext hi1.symm
  show ∑ k : Fin K, X0 (ix2 (Cert.Dense.c0 j) k) * X1 (ix2 k (Cert.Dense.c1 j))
      = ∑ k : Fin K, A (ix2 (Cert.Dense.c0 i) k) * X1 (ix2 k (Cert.Dense.c1 i))
  refine Finset.sum_congr rfl fun k _ => ?_
  rw [h0 (ix2 (Cert.Dense.c0 j) k) (ix2 (Cert.Dense.c0 i) k) hi0 rfl, e1]

/-! ## Region 0: the first layer's feature transform -/

/-- The body's payload is the matrix product of its two loaded blocks: the roundings to bf16 are the identity on the
    extended reals and the accumulator starts at zero. -/
theorem pay0 (x0 : Vec Ideal S10000x128 .f32) (x1 : Vec Ideal S128x64 .f32) :
    k0_pay1 x0 x1 = Cert.Dense.mm x0 x1 := by
  unfold k0_pay1
  exact Cert.Dense.matmul_zero_eq_mm dot_S10000x128_S128x64_S10000x64_1_0_0_1_n_n rfl rfl rfl rfl rfl rfl none _ _

/-- The index maps over the grid: the left operand's and the output's block index is the point itself along the rows,
    zero along the columns; the right operand's is zero on both axes. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1000000 in
/-- What point `t` writes back is rows `10000 t … 10000 t + 9999` of the matrix product of the region's two arrays:
    the left block is those rows of the left array, the right block is the whole right array. -/
theorem flushed0_eq (t : Fin cfg0.N) :
    (dat0 (F := Ideal) V c).flushed 2 t = ((cfg0.win 2).blk t).view.read (Elt Ideal)
      (Cert.Dense.mm (V c (Pipeline.arrRef spec0 0) : S100000x128.Idx → EReal) (V c (Pipeline.arrRef spec0 1) : S128x64.Idx → EReal)) := by
  show (cfg0.win 2).cut (grid0.coords t) ((dat0 (F := Ideal) V c).after 2 t) = _
  rw [after0_2]
  unfold out0_2
  rw [View.canon_unit_zero matmul_zero_off]
  simp only [View.ld_unit_zero (S := S10000x128) matmul_zero_off, View.ld_unit_zero (S := S128x64) matmul_zero_off]
  rw [pay0]
  obtain ⟨e0, e1, e2, e3, e4, e5⟩ := idx_facts0 t
  funext j
  show Cert.Dense.mm (iblk0 V c 0 t) (iblk0 V c 1 t) j
      = Cert.Dense.mm (V c (Pipeline.arrRef spec0 0) : S100000x128.Idx → EReal) (V c (Pipeline.arrRef spec0 1) : S128x64.Idx → EReal)
          (((cfg0.win 2).blk t).view.emb j)
  refine mm_block _ _ _ _ j _ (t.val * 10000) ?_ ?_ ?_ ?_
  · show win0_2.index t (0 : Fin 2) * 10000 + 1 * (j 0).val = _
    rw [e4]; omega
  · show win0_2.index t (1 : Fin 2) * 64 + 1 * (j 1).val = _
    rw [e5]; omega
  · intro y z hz0 hz1
    show (V c (Pipeline.arrRef spec0 0) : S100000x128.Idx → EReal) (((cfg0.win 0).blk t).view.emb y) = _
    refine congrArg (V c (Pipeline.arrRef spec0 0) : S100000x128.Idx → EReal) ?_
    funext a; apply Fin.ext
    match a with
    | ⟨0, _⟩ => show win0_0.index t (0 : Fin 2) * 10000 + 1 * (y 0).val = (z 0).val; rw [e0, hz0]; omega
    | ⟨1, _⟩ => show win0_0.index t (1 : Fin 2) * 128 + 1 * (y 1).val = (z 1).val; rw [e1, hz1]; omega
  · funext y
    show (V c (Pipeline.arrRef spec0 1) : S128x64.Idx → EReal) (((cfg0.win 1).blk t).view.emb y) = _
    refine congrArg (V c (Pipeline.arrRef spec0 1) : S128x64.Idx → EReal) ?_
    funext a; apply Fin.ext
    match a with
    | ⟨0, _⟩ => show win0_1.index t (0 : Fin 2) * 128 + 1 * (y 0).val = (y 0).val; rw [e2]; omega
    | ⟨1, _⟩ => show win0_1.index t (1 : Fin 2) * 64 + 1 * (y 1).val = (y 1).val; rw [e3]; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Every row of the output array is in some point's block: row `p` is in point `p / 10000`'s. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000
              rw [e4]; show (i 0).val / 10000 * 10000 ≤ (i 0).val ∧ (i 0).val < (i 0).val / 10000 * 10000 + 10000; omega
  | ⟨1, _⟩ => show win0_2.index t (1 : Fin 2) * 64 ≤ (i 1).val ∧ (i 1).val < win0_2.index t (1 : Fin 2) * 64 + 64
              rw [e5]; omega

/-- The output array of region 0 after the region is the matrix product of the region's two input arrays as it
    finds them: entry `(p, q)` is `∑ k, left (p, k) · right (k, q)`. -/
theorem arr0_2 :
    ((dat0 (F := Ideal) V c).arrAt 2 cfg0.N : S100000x64.Idx → EReal)
      = Cert.Dense.mm (V c (Pipeline.arrRef spec0 0) : S100000x128.Idx → EReal) (V c (Pipeline.arrRef spec0 1) : S128x64.Idx → EReal) :=
  (dat0 (F := Ideal) V c).arrAt_eq_of_cover 2 _ (fun t _ => flushed0_eq V c t) (cover0)

/-! ## Region 3: the second layer's feature transform -/

/-- The body's payload is the matrix product of its two loaded blocks: the roundings to bf16 are the identity on the
    extended reals, the cast to the same shape changes nothing, and the accumulator starts at zero. -/
theorem pay3 (x0 : Vec Ideal S10000x64 .f32) (x1 : Vec Ideal S64x64 .f32) :
    k3_pay1 x0 x1 = Cert.Dense.mm x0 x1 := by
  unfold k3_pay1
  simp only [shapeCast_self]
  exact Cert.Dense.matmul_zero_eq_mm dot_S10000x64_S64x64_S10000x64_1_0_0_1_n_n rfl rfl rfl rfl rfl rfl none _ _

/-- The index maps over the grid: the left operand's and the output's block index is the point itself along the rows,
    zero along the columns; the right operand's is zero on both axes. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1000000 in
/-- What point `t` writes back is rows `10000 t … 10000 t + 9999` of the matrix product of the region's two arrays:
    the left block is those rows of the left array, the right block is the whole right array. -/
theorem flushed3_eq (t : Fin cfg3.N) :
    (dat3 (F := Ideal) V c).flushed 2 t = ((cfg3.win 2).blk t).view.read (Elt Ideal)
      (Cert.Dense.mm (V c (Pipeline.arrRef spec3 0) : S100000x64.Idx → EReal) (V c (Pipeline.arrRef spec3 1) : S64x64.Idx → EReal)) := by
  show (cfg3.win 2).cut (grid3.coords t) ((dat3 (F := Ideal) V c).after 2 t) = _
  rw [after3_2]
  unfold out3_2
  rw [View.canon_unit_zero matmul_zero_off]
  simp only [View.ld_unit_zero (S := S10000x64) matmul_zero_off, View.ld_unit_zero (S := S64x64) matmul_zero_off]
  rw [pay3]
  obtain ⟨e0, e1, e2, e3, e4, e5⟩ := idx_facts3 t
  funext j
  show Cert.Dense.mm (iblk3 V c 0 t) (iblk3 V c 1 t) j
      = Cert.Dense.mm (V c (Pipeline.arrRef spec3 0) : S100000x64.Idx → EReal) (V c (Pipeline.arrRef spec3 1) : S64x64.Idx → EReal)
          (((cfg3.win 2).blk t).view.emb j)
  refine mm_block _ _ _ _ j _ (t.val * 10000) ?_ ?_ ?_ ?_
  · show win3_2.index t (0 : Fin 2) * 10000 + 1 * (j 0).val = _
    rw [e4]; omega
  · show win3_2.index t (1 : Fin 2) * 64 + 1 * (j 1).val = _
    rw [e5]; omega
  · intro y z hz0 hz1
    show (V c (Pipeline.arrRef spec3 0) : S100000x64.Idx → EReal) (((cfg3.win 0).blk t).view.emb y) = _
    refine congrArg (V c (Pipeline.arrRef spec3 0) : S100000x64.Idx → EReal) ?_
    funext a; apply Fin.ext
    match a with
    | ⟨0, _⟩ => show win3_0.index t (0 : Fin 2) * 10000 + 1 * (y 0).val = (z 0).val; rw [e0, hz0]; omega
    | ⟨1, _⟩ => show win3_0.index t (1 : Fin 2) * 64 + 1 * (y 1).val = (z 1).val; rw [e1, hz1]; omega
  · funext y
    show (V c (Pipeline.arrRef spec3 1) : S64x64.Idx → EReal) (((cfg3.win 1).blk t).view.emb y) = _
    refine congrArg (V c (Pipeline.arrRef spec3 1) : S64x64.Idx → EReal) ?_
    funext a; apply Fin.ext
    match a with
    | ⟨0, _⟩ => show win3_1.index t (0 : Fin 2) * 64 + 1 * (y 0).val = (y 0).val; rw [e2]; omega
    | ⟨1, _⟩ => show win3_1.index t (1 : Fin 2) * 64 + 1 * (y 1).val = (y 1).val; rw [e3]; omega

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v64).slice (win3_2.rect t)).set ↔ _
  rw [View.set_slice_whole, Rect.mem_set_unit]
  exact Iff.rfl

/-- Every row of the output array is in some point's block: row `p` is in point `p / 10000`'s. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e0, e1, e2, e3, e4, e5⟩ := idx_facts3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000
              rw [e4]; show (i 0).val / 10000 * 10000 ≤ (i 0).val ∧ (i 0).val < (i 0).val / 10000 * 10000 + 10000; omega
  | ⟨1, _⟩ => show win3_2.index t (1 : Fin 2) * 64 ≤ (i 1).val ∧ (i 1).val < win3_2.index t (1 : Fin 2) * 64 + 64
              rw [e5]; omega

/-- The output array of region 3 after the region is the matrix product of the region's two input arrays as it
    finds them: entry `(p, q)` is `∑ k, left (p, k) · right (k, q)`. -/
theorem arr3_2 :
    ((dat3 (F := Ideal) V c).arrAt 2 cfg3.N : S100000x64.Idx → EReal)
      = Cert.Dense.mm (V c (Pipeline.arrRef spec3 0) : S100000x64.Idx → EReal) (V c (Pipeline.arrRef spec3 1) : S64x64.Idx → EReal) :=
  (dat3 (F := Ideal) V c).arrAt_eq_of_cover 2 _ (fun t _ => flushed3_eq V c t) (cover3)

/-! ## Region 6: the third layer's feature transform -/

/-- The body's payload is the matrix product of its two loaded blocks: the roundings to bf16 are the identity on the
    extended reals, the cast to the same shape changes nothing, and the accumulator starts at zero. -/
theorem pay6 (x0 : Vec Ideal S10000x64 .f32) (x1 : Vec Ideal S64x64 .f32) :
    k6_pay1 x0 x1 = Cert.Dense.mm x0 x1 := by
  unfold k6_pay1
  simp only [shapeCast_self]
  exact Cert.Dense.matmul_zero_eq_mm dot_S10000x64_S64x64_S10000x64_1_0_0_1_n_n rfl rfl rfl rfl rfl rfl none _ _

/-- The index maps over the grid: the left operand's and the output's block index is the point itself along the rows,
    zero along the columns; the right operand's is zero on both axes. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 1000000 in
/-- What point `t` writes back is rows `10000 t … 10000 t + 9999` of the matrix product of the region's two arrays:
    the left block is those rows of the left array, the right block is the whole right array. -/
theorem flushed6_eq (t : Fin cfg6.N) :
    (dat6 (F := Ideal) V c).flushed 2 t = ((cfg6.win 2).blk t).view.read (Elt Ideal)
      (Cert.Dense.mm (V c (Pipeline.arrRef spec6 0) : S100000x64.Idx → EReal) (V c (Pipeline.arrRef spec6 1) : S64x64.Idx → EReal)) := by
  show (cfg6.win 2).cut (grid6.coords t) ((dat6 (F := Ideal) V c).after 2 t) = _
  rw [after6_2]
  unfold out6_2
  rw [View.canon_unit_zero matmul_zero_off]
  simp only [View.ld_unit_zero (S := S10000x64) matmul_zero_off, View.ld_unit_zero (S := S64x64) matmul_zero_off]
  rw [pay6]
  obtain ⟨e0, e1, e2, e3, e4, e5⟩ := idx_facts6 t
  funext j
  show Cert.Dense.mm (iblk6 V c 0 t) (iblk6 V c 1 t) j
      = Cert.Dense.mm (V c (Pipeline.arrRef spec6 0) : S100000x64.Idx → EReal) (V c (Pipeline.arrRef spec6 1) : S64x64.Idx → EReal)
          (((cfg6.win 2).blk t).view.emb j)
  refine mm_block _ _ _ _ j _ (t.val * 10000) ?_ ?_ ?_ ?_
  · show win6_2.index t (0 : Fin 2) * 10000 + 1 * (j 0).val = _
    rw [e4]; omega
  · show win6_2.index t (1 : Fin 2) * 64 + 1 * (j 1).val = _
    rw [e5]; omega
  · intro y z hz0 hz1
    show (V c (Pipeline.arrRef spec6 0) : S100000x64.Idx → EReal) (((cfg6.win 0).blk t).view.emb y) = _
    refine congrArg (V c (Pipeline.arrRef spec6 0) : S100000x64.Idx → EReal) ?_
    funext a; apply Fin.ext
    match a with
    | ⟨0, _⟩ => show win6_0.index t (0 : Fin 2) * 10000 + 1 * (y 0).val = (z 0).val; rw [e0, hz0]; omega
    | ⟨1, _⟩ => show win6_0.index t (1 : Fin 2) * 64 + 1 * (y 1).val = (z 1).val; rw [e1, hz1]; omega
  · funext y
    show (V c (Pipeline.arrRef spec6 1) : S64x64.Idx → EReal) (((cfg6.win 1).blk t).view.emb y) = _
    refine congrArg (V c (Pipeline.arrRef spec6 1) : S64x64.Idx → EReal) ?_
    funext a; apply Fin.ext
    match a with
    | ⟨0, _⟩ => show win6_1.index t (0 : Fin 2) * 64 + 1 * (y 0).val = (y 0).val; rw [e2]; omega
    | ⟨1, _⟩ => show win6_1.index t (1 : Fin 2) * 64 + 1 * (y 1).val = (y 1).val; rw [e3]; omega

/-- An index of the output array is in point `t`'s block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v93).slice (win6_2.rect t)).set ↔ _
  rw [View.set_slice_whole, Rect.mem_set_unit]
  exact Iff.rfl

/-- Every row of the output array is in some point's block: row `p` is in point `p / 10000`'s. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 10 := N_6
  let t : Fin cfg6.N := ⟨(i 0).val / 10000, by rw [hN]; omega⟩
  obtain ⟨e0, e1, e2, e3, e4, e5⟩ := idx_facts6 t
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000
              rw [e4]; show (i 0).val / 10000 * 10000 ≤ (i 0).val ∧ (i 0).val < (i 0).val / 10000 * 10000 + 10000; omega
  | ⟨1, _⟩ => show win6_2.index t (1 : Fin 2) * 64 ≤ (i 1).val ∧ (i 1).val < win6_2.index t (1 : Fin 2) * 64 + 64
              rw [e5]; omega

/-- The output array of region 6 after the region is the matrix product of the region's two input arrays as it
    finds them: entry `(p, q)` is `∑ k, left (p, k) · right (k, q)`. -/
theorem arr6_2 :
    ((dat6 (F := Ideal) V c).arrAt 2 cfg6.N : S100000x64.Idx → EReal)
      = Cert.Dense.mm (V c (Pipeline.arrRef spec6 0) : S100000x64.Idx → EReal) (V c (Pipeline.arrRef spec6 1) : S64x64.Idx → EReal) :=
  (dat6 (F := Ideal) V c).arrAt_eq_of_cover 2 _ (fun t _ => flushed6_eq V c t) (cover6)

end Cert.KernelIdeal.RegionValue

end
-- ==== Proof.LibCarriedRow.lean ====
/-
  A row of running totals carried in a buffer, read back: general lemmas.

  Stores that each cover their whole buffer: a load of the whole buffer after such stores reads the value of the
  LAST one, whatever came before (`readCov_cons_unit_zero`; the library has the one-store case).

  A `[1, 1, c]` row kept in a buffer and used as a vector `[c]` or as a `[1, c]` row: the three shape casts read at
  an index (`cast_11c_c`, `cast_c_11c`, `cast_11c_1c`).

  On the extended reals, the sum of an `[n, c]` array along its FIRST axis reads, at column `d`, the sum over the
  `n` rows of the column's entries (`colSum_apply`): the column totals of a block of rows.

  All at any extents.
-/
import Idealize.ShloMosaic.Lib.Pipeline.Value
import Idealize.ShloMosaic.Lib.ValueIdx
import Idealize.ShloMosaic.PureOps.Ideal.Laws

noncomputable section

open scoped BigOperators

namespace Cert.CarriedRow

open Idealize.ShloMosaic Idealize.ShloMosaic.ValueIdx

section stores
variable {Val : EltTy → Type} {S : Shape} {e : EltTy}

/-- A load of the whole buffer, after stores of which the LAST covers the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]
end stores

section layout
variable {α : Type}

/-- A `[1, 1, c]` row read as a vector. -/
theorem cast_11c_c {c : ℕ} (x : (⟨3, ![1, 1, c]⟩ : Shape).Idx → α) (h : (⟨3, ![1, 1, c]⟩ : Shape).ShapeCasts ⟨1, ![c]⟩)
    (d : Fin c) : shapeCast ⟨1, ![c]⟩ x h (ix1 d) = x (ix3 (0 : Fin 1) (0 : Fin 1) d) :=
  shapeCast_apply x h _ _ (by
    rw [Shape.rowMajor_val_three, Shape.rowMajor_val_one]
    show (0 * 1 + 0) * c + d.val = d.val
    simp)

/-- A vector read as a `[1, 1, c]` row. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, c]` row read as a `[1, c]` row. -/
theorem cast_11c_1c {c : ℕ} (x : (⟨3, ![1, 1, c]⟩ : Shape).Idx → α) (h : (⟨3, ![1, 1, c]⟩ : Shape).ShapeCasts ⟨2, ![1, c]⟩)
    (u : Fin 1) (d : Fin c) : shapeCast ⟨2, ![1, c]⟩ x h (ix2 u d) = x (ix3 (0 : Fin 1) (0 : Fin 1) d) :=
  shapeCast_apply x h _ _ (by
    have hu : u.val = 0 := by omega
    rw [Shape.rowMajor_val_three, Shape.rowMajor_val_two]
    show (0 * 1 + 0) * c + d.val = u.val * c + d.val
    simp [hu])
end layout

/-- The sum of an `[n, c]` array along its first axis reads, at column `d`, the sum of the column's entries. -/
theorem colSum_apply {n c : ℕ} (src : FVec Ideal ⟨2, ![n, c]⟩ .f32)
    (h : (⟨2, ![n, c]⟩ : Shape).Reduces [0] ⟨1, ![c]⟩) (hφ : FKind.Formats .f32)
    (hacc : (0x00000000#32 : BitVec 32) = 0x00000000#32) (d : Fin c) :
    multiReduction .add [0] ⟨1, ![c]⟩ src 0x00000000#32 h hφ hacc (ix1 d) = ∑ p : Fin n, src (ix2 p d) := by
  refine (Ideal.multiReduction_add_single src 0x00000000#32 h hφ hacc (ix1 d)).trans ?_
  refine Finset.sum_congr rfl fun k _ => congrArg src (funext fun ax => Fin.ext ?_)
  match ax with
  | ⟨0, _⟩ => rfl
  | ⟨1, _⟩ => rfl

end Cert.CarriedRow

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibMeanAffine.lean ====
import Mathlib.Data.EReal.Inv
import Mathlib.Algebra.BigOperators.Group.Finset.Basic
import Idealize.ShloMosaic.PureOps.Ideal

/-!
# The mean of affine images is the affine image of the mean

A graph layer averages, over the finite nonempty set `H` of edges arriving at a node, the messages of their
source nodes.  Applying the affine map `row ↦ (∑ l, row l · W l) + b` to every message before averaging gives
the same value as averaging the raw rows and applying the affine map once afterwards:

  `(∑_{e∈H} ((∑_l x e l · W l) + b)) / |H| = (∑_l ((∑_{e∈H} x e l) / |H|) · W l) + b`,

because `∑_{e∈H} ((∑_l x e l · W l) + b) = (∑_l (∑_{e∈H} x e l) · W l) + |H| · b` and `|H| ≥ 1`, so that
`max(|H|, 1) = |H| ≠ 0`.  On the extended reals distributivity fails at the infinities, so the data enter as
coercions of real numbers; every expression is then the coercion of a real expression and the identity is
proved over `ℝ`.  The quotient is the total quotient `Ideal.div`, which off a zero divisor is multiplication
by the inverse.
-/

noncomputable section

namespace Cert.MeanAffine

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a sum of ones over `H` is the cardinality of `H`. -/
theorem count_eq {ε : Type*} (H : Finset ε) :
    (0 : EReal) + ∑ _e ∈ H, (1 : EReal) = ((H.card : ℝ) : EReal) := by
  rw [zero_add, ← EReal.coe_one, ← coe_sum, Finset.sum_const, nsmul_eq_mul, mul_one]

/-- A nonempty set has at least one element, so clamping its cardinality below by one changes nothing. -/
theorem max_count {ε : Type*} {H : Finset ε} (hH : H.Nonempty) :
    max ((H.card : ℝ) : EReal) 1 = ((H.card : ℝ) : EReal) := by
  apply max_eq_left
  have h1 : (1 : ℝ) ≤ (H.card : ℝ) := by exact_mod_cast Finset.one_le_card.mpr hH
  exact_mod_cast h1

/-- A family of extended reals none of which is infinite is the coercion of a family of reals. -/
theorem exists_real {ι : Type*} (f : ι → EReal) (h : ∀ i, f i ≠ ⊤ ∧ f i ≠ ⊥) :
    ∃ r : ι → ℝ, ∀ i, f i = (r i : EReal) :=
  ⟨fun i => (f i).toReal, fun i => (EReal.coe_toReal (h i).1 (h i).2).symm⟩

/-- The identity over the reals: dividing the sum of the affine images by `c = |H|` is the affine image of the
    sums divided by `c`. -/
theorem real_mean_affine {ε : Type*} {n : ℕ} (H : Finset ε) (hc : (H.card : ℝ) ≠ 0)
    (x : ε → Fin n → ℝ) (W : Fin n → ℝ) (b : ℝ) :
    (∑ e ∈ H, ((∑ l : Fin n, x e l * W l) + b)) * (1 / (H.card : ℝ))
      = (∑ l : Fin n, (∑ e ∈ H, x e l) * (1 / (H.card : ℝ)) * W l) + b := by
  rw [Finset.sum_add_distrib, Finset.sum_const, nsmul_eq_mul, Finset.sum_comm, add_mul]
  congr 1
  · rw [Finset.sum_mul]
    refine Finset.sum_congr rfl fun l _ => ?_
    rw [← Finset.sum_mul]
    ring
  · field_simp

/-- The mean over a nonempty edge set of the affine images of real rows equals the affine image of the
    mean row, with the total quotient and the count clamped below by one. -/
theorem mean_affine {ε : Type*} {n : ℕ} (H : Finset ε) (hH : H.Nonempty) (x : ε → Fin n → ℝ)
    (W : Fin n → ℝ) (b : ℝ) :
    Ideal.div ((0 : EReal) + ∑ e ∈ H, ((∑ l : Fin n, (x e l : EReal) * (W l : EReal)) + (b : EReal)))
        (max ((0 : EReal) + ∑ _e ∈ H, (1 : EReal)) 1)
      = (∑ l : Fin n, Ideal.div ((0 : EReal) + ∑ e ∈ H, (x e l : EReal))
          (max ((0 : EReal) + ∑ _e ∈ H, (1 : EReal)) 1) * (W l : EReal)) + (b : EReal) := by
  have hc : (H.card : ℝ) ≠ 0 := by exact_mod_cast (Finset.card_pos.mpr hH).ne'
  rw [count_eq, max_count hH]
  simp only [Ideal.div_coe hc, zero_add, ← EReal.coe_mul, ← coe_sum, ← EReal.coe_add]
  rw [real_mean_affine H hc]

/-- The same identity with the edge set given as the edges of a finite type that satisfy a predicate. -/
theorem mean_affine_filter {ε : Type*} {n : ℕ} [Fintype ε] [DecidableEq ε] (P : ε → Prop) [DecidablePred P]
    (hP : (Finset.univ.filter P).Nonempty) (x : ε → Fin n → ℝ) (W : Fin n → ℝ) (b : ℝ) :
    Ideal.div ((0 : EReal) + ∑ e ∈ Finset.univ.filter P,
          ((∑ l : Fin n, (x e l : EReal) * (W l : EReal)) + (b : EReal)))
        (max ((0 : EReal) + ∑ _e ∈ Finset.univ.filter P, (1 : EReal)) 1)
      = (∑ l : Fin n, Ideal.div ((0 : EReal) + ∑ e ∈ Finset.univ.filter P, (x e l : EReal))
          (max ((0 : EReal) + ∑ _e ∈ Finset.univ.filter P, (1 : EReal)) 1) * (W l : EReal)) + (b : EReal) :=
  mean_affine (Finset.univ.filter P) hP x W b

end Cert.MeanAffine
-- ==== Proof.LibGcnStats.lean ====
/-
  The algebra on the extended reals that joins two ways of writing a normalised graph convolution followed by
  batch statistics.

  First half. With `c = 1/√deg` the reciprocal square root of a node's degree `deg = 1 + (number of arriving edges)`,
  one program computes `c · (∑ₑ t e · d e + h · c) + b` and the other `∑ₑ t e · (d e · c) + h · (1/deg) + b`. They agree
  because `c` is a nonnegative finite number — for such a factor multiplication distributes over any sum of extended
  reals — and `c · c = 1/deg`. No finiteness of the messages `t e` or of `h` is needed.

  Second half. The mean of `N = A·B` numbers summed block by block is the mean of all of them, and the one-pass
  variance `max (E[y²] − μ², 0)` equals the two-pass variance `E[(y − μ)²]` when every `y` is a real number: both
  are coercions of real expressions, `∑ (y − μ)² = ∑ y² − N μ²` for `μ = (∑ y)/N`, and the common value is nonnegative.
-/
import Idealize.ShloMosaic.PureOps.Ideal
import Idealize.ShloMosaic.PureOps.Ideal.Laws
import proofs.«148580_j42640435315163_1_alg».proof.Proof.LibFoldSum
import proofs.«148580_j42640435315163_1_alg».proof.Proof.LibMeanAffine

noncomputable section

namespace Cert.GcnStats

open Idealize.ShloMosaic

/-! ### Extended reals that are real numbers -/

/-- An extended real that is the coercion of a real number. -/
def IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem isReal_zero : IsReal 0 := ⟨0, EReal.coe_zero.symm⟩

theorem isReal_one : IsReal 1 := ⟨1, EReal.coe_one.symm⟩

theorem isReal_coe (r : ℝ) : IsReal (r : EReal) := ⟨r, rfl⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ### Two literals -/

/-- The pattern of `1.0` denotes the number one. -/
theorem ofBits_one : Ideal.ofBits .f32 0x3F800000#32 = (1 : EReal) := by
  simp [Ideal.ofBits, Ideal.ieee, -EReal.coe_mul]; norm_num

/-- The pattern of `100000.0`: exponent field 143, significand `2^23 + 0x435000 = 12800000`, and
    `12800000 · 2^(143 − 127 − 23) = 100000`. -/
theorem ofBits_1e5 : Ideal.ofBits .f32 0x47C35000#32 = ((100000 : ℝ) : EReal) := by
  simp [Ideal.ofBits, Ideal.ieee, -EReal.coe_mul]; norm_num

/-! ### The degree normalisation -/

/-- The degree `1 + (number of arriving edges)` is a positive real, so its reciprocal square root `c` is a nonnegative
    real number, `1/deg` is a real number, and `c · c = 1/deg`. -/
theorem deg_facts {ι : Type*} (S : Finset ι) (deg : EReal) (hdeg : deg = (0 + ∑ _e ∈ S, (1 : EReal)) + 1) :
    0 ≤ Ideal.rsqrt deg ∧ Ideal.rsqrt deg ≠ ⊤ ∧ IsReal (Ideal.rsqrt deg) ∧ IsReal (Ideal.div 1 deg) ∧
      Ideal.rsqrt deg * Ideal.rsqrt deg = Ideal.div 1 deg := by
  have hd : deg = (((S.card : ℝ) + 1 : ℝ) : EReal) := by
    rw [hdeg, Cert.MeanAffine.count_eq, EReal.coe_add, EReal.coe_one]
  have hpos : (0 : ℝ) < (S.card : ℝ) + 1 := by positivity
  have hrs : Ideal.rsqrt deg = (((Real.sqrt ((S.card : ℝ) + 1))⁻¹ : ℝ) : EReal) := by
    rw [hd, Ideal.rsqrt_coe, if_neg (not_lt.mpr hpos.le), if_neg hpos.ne']
  have hdv : Ideal.div 1 deg = ((1 / ((S.card : ℝ) + 1) : ℝ) : EReal) := by
    rw [hd, Ideal.div_coe hpos.ne', one_mul]
  refine ⟨?_, ?_, ?_, ?_, ?_⟩
  · rw [hrs]
    exact_mod_cast inv_nonneg.mpr (Real.sqrt_nonneg _)
  · rw [hrs]
    exact EReal.coe_ne_top _
  · rw [hrs]
    exact ⟨_, rfl⟩
  · rw [hdv]
    exact ⟨_, rfl⟩
  · rw [hrs, hdv, ← EReal.coe_mul]
    congr 1
    rw [← mul_inv, Real.mul_self_sqrt hpos.le, one_div]

/-- A nonnegative finite factor distributes over a finite sum of extended reals. -/
theorem mul_sum {ι : Type*} (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- One entry of the layer: the factor `c`, common to the edges arriving at the node, taken into the sum over those
    edges and into the self term, where `c · c = r`. -/
theorem y_entry {ι : Type*} (S : Finset ι) (c r : EReal) (h0 : 0 ≤ c) (ht : c ≠ ⊤) (hr : c * c = r)
    (t dS dG : ι → EReal) (hG : ∀ e ∈ S, dG e = c) (hp bq : EReal) :
    c * ((0 + ∑ e ∈ S, t e * dS e) + hp * c) + bq
      = ((0 + ∑ e ∈ S, t e * (dS e * dG e)) + hp * r) + bq := by
  rw [EReal.left_distrib_of_nonneg_of_ne_top h0 ht, zero_add, zero_add, mul_sum S c h0 ht, ← hr,
    mul_left_comm c hp c]
  congr 2
  refine Finset.sum_congr rfl fun e he => ?_
  rw [hG e he, mul_left_comm, mul_comm c (dS e)]

/-! ### Batch statistics from per-block partial sums -/

/-- A sum over the `N = A·B` rows is the sum over the `A` blocks of `B` consecutive rows of each block's sum, the row
    `r` of block `t` being row `B·t + r`. -/
theorem sum_by_blocks {A B N : ℕ} (hN : N = A * B) (blk : Fin A → Fin B → Fin N)
    (hblk : ∀ t r, (blk t r).val = B * t.val + r.val) (f : Fin N → EReal) :
    ∑ p : Fin N, f p = ∑ t : Fin A, ∑ r : Fin B, f (blk t r) := by
  rw [Cert.FoldSum.sum_blocks hN f]
  refine Finset.sum_congr rfl fun t _ => Finset.sum_congr rfl fun r _ => congrArg f (Fin.ext ?_)
  exact (hblk t r).symm

/-- The mean taken from per-block partial sums is the mean over all rows. -/
theorem mean_blocks {A B N : ℕ} (hN : N = A * B) (blk : Fin A → Fin B → Fin N)
    (hblk : ∀ t r, (blk t r).val = B * t.val + r.val) (y : Fin N → EReal) (n : EReal) :
    Ideal.div (0 + ∑ t : Fin A, (0 + ∑ r : Fin B, y (blk t r))) n = Ideal.div (0 + ∑ p : Fin N, y p) n := by
  rw [sum_by_blocks hN blk hblk y]
  simp only [zero_add]

/-- Over the reals, with `μ = (∑ z)/N`: `(∑ z²)/N − μ² = (∑ (z − μ)²)/N`. -/
theorem real_var {N : ℕ} (hpos : 0 < N) (z : Fin N → ℝ) (m : ℝ) (hm : m = (∑ p : Fin N, z p) * (1 / (N : ℝ))) :
    (∑ p : Fin N, z p * z p) * (1 / (N : ℝ)) - m * m = (∑ p : Fin N, (z p - m) * (z p - m)) * (1 / (N : ℝ)) := by
  have hN : (N : ℝ) ≠ 0 := by exact_mod_cast hpos.ne'
  have hs : ∑ p : Fin N, z p = (N : ℝ) * m := by rw [hm]; field_simp
  have h : ∀ p, (z p - m) * (z p - m) = z p * z p - 2 * m * z p + m * m := fun p => by ring
  simp only [h, Finset.sum_add_distrib, Finset.sum_sub_distrib, ← Finset.mul_sum, Finset.sum_const,
    Finset.card_univ, Fintype.card_fin, nsmul_eq_mul]
  rw [hs]
  field_simp
  ring

/-- The one-pass variance from per-block partial sums of squares, clamped below by zero, is the two-pass variance,
    when every entry is a real number. -/
theorem var_onepass {A B N : ℕ} (hN : N = A * B) (hpos : 0 < N) (blk : Fin A → Fin B → Fin N)
    (hblk : ∀ t r, (blk t r).val = B * t.val + r.val) (y : Fin N → EReal) (hy : ∀ p, IsReal (y p))
    (n : EReal) (hn : n = ((N : ℝ) : EReal)) (mu : EReal) (hmu : mu = Ideal.div (0 + ∑ p : Fin N, y p) n) :
    max (Ideal.div (0 + ∑ t : Fin A, (0 + ∑ r : Fin B, y (blk t r) * y (blk t r))) n - mu * mu) 0
      = Ideal.div (0 + ∑ p : Fin N, (y p - mu) * (y p - mu)) n := by
  have hNr : (N : ℝ) ≠ 0 := by exact_mod_cast hpos.ne'
  choose z hz using hy
  have hmu' : mu = (((∑ p : Fin N, z p) * (1 / (N : ℝ)) : ℝ) : EReal) := by
    rw [hmu, hn, Ideal.div_coe hNr, zero_add]
    simp only [hz, ← Cert.MeanAffine.coe_sum, ← EReal.coe_mul]
  have hL : (0 + ∑ t : Fin A, (0 + ∑ r : Fin B, y (blk t r) * y (blk t r)))
      = ((∑ p : Fin N, z p * z p : ℝ) : EReal) := by
    simp only [zero_add]
    rw [← sum_by_blocks hN blk hblk (fun p => y p * y p)]
    simp only [hz, ← EReal.coe_mul, ← Cert.MeanAffine.coe_sum]
  rw [hL, hn, Ideal.div_coe hNr, Ideal.div_coe hNr, hmu', zero_add]
  simp only [hz, ← EReal.coe_mul, ← EReal.coe_sub, ← Cert.MeanAffine.coe_sum]
  rw [real_var hpos z _ rfl]
  apply max_eq_left
  have h0 : (0 : ℝ) ≤ (∑ p : Fin N, (z p - (∑ p : Fin N, z p) * (1 / (N : ℝ))) * (z p - (∑ p : Fin N, z p) * (1 / (N : ℝ))))
      * (1 / (N : ℝ)) :=
    mul_nonneg (Finset.sum_nonneg fun p _ => mul_self_nonneg _) (by positivity)
  exact_mod_cast h0

/-- A real number divided by a nonzero real number is a real number. -/
theorem isReal_div_coe {a : EReal} (ha : IsReal a) {N : ℝ} (hN : N ≠ 0) : IsReal (Ideal.div a (N : EReal)) := by
  rw [Ideal.div_coe hN]
  exact ha.mul (isReal_coe _)

/-- The reciprocal square root of a positive real number is a real number. -/
theorem isReal_rsqrt_pos {a : EReal} (ha : IsReal a) (hpos : 0 < a) : IsReal (Ideal.rsqrt a) := by
  obtain ⟨x, rfl⟩ := ha
  have hx : 0 < x := by exact_mod_cast hpos
  rw [Ideal.rsqrt_coe, if_neg (not_lt.mpr hx.le), if_neg hx.ne']
  exact ⟨_, rfl⟩

end Cert.GcnStats

end
-- ==== Proof.LibAccCols.lean ====
/-
  Column totals carried from block to block, on the extended reals, at any extents.

  A one-row array `acc` and an `[n, c]` block `Y`: the vector unit adds to `acc` the sum of `Y` along its first axis,
  laid out as one row.  Read at column `q` this is `acc q + ∑ₚ Y (p, q)` (`row_plus_colSum`).

  A quantity that is `0 + P 0` at the first point and at every later point `n` is its value at `n − 1` plus `P n` is,
  at point `n`, the sum of `P 0 … P n` (`fold_eq_sum`).  When `P n` is the total of a summand `g` over the `B`
  consecutive rows `B·n … B·n + B − 1` of an array of `A·B` rows, the value at the last point `A − 1` is the total of
  `g` over all the rows (`carried_total`).  Only commutativity and associativity of addition are used, so nothing has
  to be finite.  `zero_offsets` is the spelling fact every whole-buffer access at literal zero offsets needs.
-/
import proofs.«148580_j42640435315163_1_alg».proof.Proof.LibDense
import proofs.«148580_j42640435315163_1_alg».proof.Proof.LibCarriedRow
import proofs.«148580_j42640435315163_1_alg».proof.Proof.LibGcnStats

noncomputable section

open scoped BigOperators

namespace Cert.AccCols

open Idealize.ShloMosaic Idealize.ShloMosaic.ValueIdx Cert.Dense

/-- The zero offsets of a rank-2 access, spelt as a literal vector, are the constant zero function. -/
theorem zero_offsets : (![0, 0] : Fin 2 → Nat) = fun _ => 0 := funext fun a => by fin_cases a <;> rfl

/-- A carried row plus the sum of a block along its first axis, read at a column: `acc q + ∑ₚ Y (p, q)`. -/
theorem row_plus_colSum {n c : ℕ} (acc : Mat 1 c) (Y : Mat n c)
    (hc : (⟨2, ![1, c]⟩ : Shape).ShapeCasts ⟨2, ![1, c]⟩)
    (hr : (⟨2, ![n, c]⟩ : Shape).Reduces [0] ⟨1, ![c]⟩) (hφ : FKind.Formats .f32)
    (hacc : (0x00000000#32 : BitVec 32) = 0x00000000#32)
    (h1 : (⟨1, ![c]⟩ : Shape).ShapeCasts ⟨2, ![1, c]⟩) (u : Fin 1) (q : Fin c) :
    addf (F := Ideal) (φ := .f32) (s := ⟨2, ![1, c]⟩) (shapeCast ⟨2, ![1, c]⟩ acc hc)
        (shapeCast ⟨2, ![1, c]⟩
          (multiReduction (F := Ideal) .add [0] ⟨1, ![c]⟩ (Y : FVec Ideal ⟨2, ![n, c]⟩ .f32) 0x00000000#32 hr hφ hacc) h1)
        (ix2 u q)
      = acc (ix2 u q) + ∑ p : Fin n, Y (ix2 p q) := by
  show shapeCast ⟨2, ![1, c]⟩ acc hc (ix2 u q)
      + shapeCast ⟨2, ![1, c]⟩
          (multiReduction (F := Ideal) .add [0] ⟨1, ![c]⟩ (Y : FVec Ideal ⟨2, ![n, c]⟩ .f32) 0x00000000#32 hr hφ hacc) h1
          (ix2 u q) = _
  rw [shapeCast_self, shapeCast_a_1a_apply, Cert.CarriedRow.colSum_apply]

/-- A quantity that starts at `0 + P 0` and at each later point adds that point's `P` to what the point before left is
    the sum of `P` over the points so far. -/
theorem fold_eq_sum {M : Type*} [AddCommMonoid M] {A : ℕ} (f P : (n : ℕ) → n < A → M)
    (h0 : ∀ h : 0 < A, f 0 h = 0 + P 0 h)
    (hs : ∀ (n : ℕ) (h : n + 1 < A), f (n + 1) h = f n (Nat.lt_of_succ_lt h) + P (n + 1) h) :
    ∀ (n : ℕ) (h : n < A), f n h = ∑ k : Fin (n + 1), P k.val (lt_of_le_of_lt (Nat.lt_succ_iff.mp k.isLt) h)
  | 0, h => by
    rw [h0 h, zero_add]
    exact (Fin.sum_univ_one
      (fun k : Fin (0 + 1) => P k.val (lt_of_le_of_lt (Nat.lt_succ_iff.mp k.isLt) h))).symm
  | n + 1, h => by
    rw [hs n h, fold_eq_sum f P h0 hs n (Nat.lt_of_succ_lt h)]
    exact (Fin.sum_univ_castSucc
      (fun k : Fin (n + 1 + 1) => P k.val (lt_of_le_of_lt (Nat.lt_succ_iff.mp k.isLt) h))).symm

/-- The carried total after the last of `A` blocks of `B` consecutive rows is the total over all `A·B` rows. -/
theorem carried_total {A B N : ℕ} (hN : N = A * B) (g : Fin N → EReal)
    (row : (n : ℕ) → n < A → Fin B → Fin N) (hrow : ∀ n h r, (row n h r).val = B * n + r.val)
    (f : (n : ℕ) → n < A → EReal)
    (h0 : ∀ h : 0 < A, f 0 h = 0 + ∑ r : Fin B, g (row 0 h r))
    (hs : ∀ (n : ℕ) (h : n + 1 < A), f (n + 1) h = f n (Nat.lt_of_succ_lt h) + ∑ r : Fin B, g (row (n + 1) h r))
    (n : ℕ) (h : n < A) (hlast : n + 1 = A) : f n h = ∑ p : Fin N, g p := by
  rw [fold_eq_sum f (fun n h => ∑ r : Fin B, g (row n h r)) h0 hs n h]
  subst hlast
  exact (Cert.GcnStats.sum_by_blocks hN (fun t r => row t.val t.isLt r) (fun t r => hrow _ _ r) g).symm

end Cert.AccCols

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«148580_j42640435315163_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.RegionStats1.lean ====
/-
  The batch-statistics call of layer one on the extended reals, for any contents of the buffers when the call starts.

  The call walks the 100000 rows of the feature array X in ten blocks of 10000 rows. Its two outputs are one-row arrays
  whose block never moves, so each is carried from grid point to grid point and written back once, after the last
  point. At the first point both rows are set to zero; every point then adds to the first row the column sums of its
  block of Y = X + b (the bias row b added to every row) and to the second row the column sums of the squares of that
  block. So after point t the first row holds, at column q, zero plus the sum of Y(p, q) over the rows p of blocks
  0 … t, and after the last point the sum over all 100000 rows; likewise the squares. Only 0 + x = x and the
  commutativity and associativity of addition are used, so nothing has to be finite.
-/
import proofs.«148580_j42640435315163_1_alg».proof.Proof.Gen.KernelIdeal.Frame
import proofs.«148580_j42640435315163_1_alg».proof.Proof.Spec
import proofs.«148580_j42640435315163_1_alg».proof.Proof.LibCarriedRow
import proofs.«148580_j42640435315163_1_alg».proof.Proof.LibAccCols
import proofs.«148580_j42640435315163_1_alg».proof.Proof.LibBiasRow
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)
open Cert.Dense (Mat)

namespace Stats1

/-! ## What each control case leaves in the two one-row outputs -/

section cases
variable {F : FTy → Type} [FloatOps F]

/-- The literal zero offsets of a whole-buffer access. -/
theorem hz1 : (![0, 0] : Fin 2 → Nat) = fun _ => 0 := funext fun a => by fin_cases a <;> rfl

/-- A later point leaves in the first output the carried row plus the column sums of its biased block. -/
theorem out1_B_2_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz1]
  simp only [View.readAt_eq_ld, h1.read_unread, h2.read_unread, h3.read_unread,
    View.ld_unit_zero (S := S10000x64) hz1, View.ld_unit_zero (S := S1x64) hz1]

/-- A later point leaves in the second output the carried row plus the column sums of the squares of its biased block. -/
theorem out1_B_3_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz1]
  simp only [View.readAt_eq_ld, h1.read_unread, h2.read_unread, h4.read_unread,
    View.ld_unit_zero (S := S10000x64) hz1, View.ld_unit_zero (S := S1x64) hz1]

/-- The first point stores the zero row, reads it back, and leaves it plus the column sums of its biased block. -/
theorem out1_A_2_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) hz1, View.readCov_unit_zero (S := S1x64) _ hz1]
  simp only [View.readAt_eq_ld, h1.read_unread, h2.read_unread,
    View.ld_unit_zero (S := S10000x64) hz1, View.ld_unit_zero (S := S1x64) hz1]

/-- The first point likewise leaves in the second output the zero row plus the column sums of the squares. -/
theorem out1_A_3_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) hz1, View.readCov_unit_zero (S := S1x64) _ hz1]
  simp only [View.readAt_eq_ld, h1.read_unread, h2.read_unread,
    View.ld_unit_zero (S := S10000x64) hz1, View.ld_unit_zero (S := S1x64) hz1]

variable (V : (c : Dev nD) → (b : Ref sig .tc) → Buf (Elt F) ((c : Thread nD τ).loc b)) (c : Dev nD)

/-- The two rows after the first point. -/
theorem outs1_first (t : Fin cfg1.N) (h0 : t.val % 10 = 0) :
    outsAt1 V c t.val t.isLt
      = (k1_pay4 (iblk1 V c 0 t) (iblk1 V c 1 t) k1_pay1, k1_pay5 (iblk1 V c 0 t) (iblk1 V c 1 t) k1_pay2) := by
  rw [outsAt1_A V c t h0]
  exact Prod.ext
    (out1_A_2_eq c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))
    (out1_A_3_eq c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))

/-- The two rows after a later point, from the rows the point before left. -/
theorem outs1_later (t : Fin cfg1.N) (h0 : ¬t.val % 10 = 0) :
    outsAt1 V c t.val t.isLt
      = (k1_pay4 (iblk1 V c 0 t) (iblk1 V c 1 t) (outsAt1 V c (t.val - 1) (Nat.lt_of_le_of_lt (Nat.sub_le _ _) t.isLt)).1,
         k1_pay5 (iblk1 V c 0 t) (iblk1 V c 1 t) (outsAt1 V c (t.val - 1) (Nat.lt_of_le_of_lt (Nat.sub_le _ _) t.isLt)).2) := by
  rw [outsAt1_B V c t h0]
  exact Prod.ext
    (out1_B_2_eq c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)
    (out1_B_3_eq c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)

/-! ## The arrays after the call: what the last point leaves -/

/-- The last grid point. -/
theorem last1_lt : 9 < cfg1.N := by rw [show cfg1.N = 10 from N_1]; decide

/-- The one write-back of the first output, after the last point, writes the carried row: the output's one block is
    the whole array. -/
theorem flushed1_2_eq (t : Fin cfg1.N) (hf : (cfg1.win 2).flush t = true) :
    (dat1 V c).flushed 2 t = ((cfg1.win 2).blk t).view.read (Elt F) (outsAt1 V c 9 last1_lt).1 := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v50_0.ty.shape.size a) = fun _ => 0 := funext fun a => by fin_cases a <;> decide
  exact (Memref.read_access_unit_zero (Elt F) main_v50_0 hz' (fun a => by rw [congrFun hz' a]; simp) (outsAt1 V c 9 last1_lt).1).symm

theorem flushed1_3_eq (t : Fin cfg1.N) (hf : (cfg1.win 3).flush t = true) :
    (dat1 V c).flushed 3 t = ((cfg1.win 3).blk t).view.read (Elt F) (outsAt1 V c 9 last1_lt).2 := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v50_1.ty.shape.size a) = fun _ => 0 := funext fun a => by fin_cases a <;> decide
  exact (Memref.read_access_unit_zero (Elt F) main_v50_1 hz' (fun a => by rw [congrFun hz' a]; simp) (outsAt1 V c 9 last1_lt).2).symm

/-- So the first output array ends holding the row carried out of the last point. -/
theorem final1_2 : (dat1 V c).arrAt 2 cfg1.N = (outsAt1 V c 9 last1_lt).1 :=
  (dat1 V c).arrAt_eq_of_cover 2 (outsAt1 V c 9 last1_lt).1 (flushed1_2_eq V c) fun i =>
    ⟨t1_9, (flush1_2 t1_9).mpr rfl, by
      show i ∈ ((View.whole main_v50_0).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 64 from by decide +kernel]; omega⟩

theorem final1_3 : (dat1 V c).arrAt 3 cfg1.N = (outsAt1 V c 9 last1_lt).2 :=
  (dat1 V c).arrAt_eq_of_cover 3 (outsAt1 V c 9 last1_lt).2 (flushed1_3_eq V c) fun i =>
    ⟨t1_9, (flush1_3 t1_9).mpr rfl, by
      show i ∈ ((View.whole main_v50_1).slice (win1_3.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 64 from by decide +kernel]; omega⟩

end cases

/-! ## The payloads on the extended reals, read at a column -/

/-- The biased block: the bias row added to every row. -/
theorem pay1_3_eq (x0 : Vec Ideal S10000x64 .f32) (x1 : Vec Ideal S1x64 .f32) :
    k1_pay3 (F := Ideal) x0 x1 = Cert.BiasRow.addRow x0 x1 := by
  unfold k1_pay3
  rw [shapeCast_self, shapeCast_self]
  exact Cert.BiasRow.vecAddRow x0 x1 _

/-- The rows the first point stores are zero. -/
theorem pay1_1_at (u : Fin 1) (q : Fin 64) : k1_pay1 (F := Ideal) (ix2 u q) = 0 := by
  unfold k1_pay1
  exact Ideal.ofBits_zero_f32

theorem pay1_2_at (u : Fin 1) (q : Fin 64) : k1_pay2 (F := Ideal) (ix2 u q) = 0 := by
  unfold k1_pay2
  exact Ideal.ofBits_zero_f32

/-- The first output's update at column q: the carried entry plus the block's column total. -/
theorem pay1_4_at (x0 : Vec Ideal S10000x64 .f32) (x1 acc : Vec Ideal S1x64 .f32) (u : Fin 1) (q : Fin 64) :
    k1_pay4 (F := Ideal) x0 x1 acc (ix2 u q)
      = acc (ix2 u q) + ∑ p : Fin 10000, (x0 (ix2 p q) + x1 (ix2 (0 : Fin 1) q)) := by
  unfold k1_pay4
  refine (Cert.AccCols.row_plus_colSum acc (k1_pay3 (F := Ideal) x0 x1) _ _ _ _ _ u q).trans ?_
  rw [pay1_3_eq]
  rfl

/-- The second output's update at column q: the carried entry plus the block's column total of squares. -/
theorem pay1_5_at (x0 : Vec Ideal S10000x64 .f32) (x1 acc : Vec Ideal S1x64 .f32) (u : Fin 1) (q : Fin 64) :
    k1_pay5 (F := Ideal) x0 x1 acc (ix2 u q)
      = acc (ix2 u q) + ∑ p : Fin 10000, (x0 (ix2 p q) + x1 (ix2 (0 : Fin 1) q)) * (x0 (ix2 p q) + x1 (ix2 (0 : Fin 1) q)) := by
  unfold k1_pay5
  refine (Cert.AccCols.row_plus_colSum acc (mulf (k1_pay3 (F := Ideal) x0 x1) (k1_pay3 (F := Ideal) x0 x1)) _ _ _ _ _ u q).trans ?_
  rw [pay1_3_eq]
  rfl

/-! ## The blocks a point stages, and the sum over the points -/

section run
variable (V : (c : Dev nD) → (b : Ref sig .tc) → Buf (Elt Ideal) ((c : Thread nD τ).loc b)) (c : Dev nD)

/-- The index maps over the grid: point t stages block t of the feature rows and the one block of the bias row. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Row r of the block point t stages is row 10000·t + r of the feature array. -/
theorem blk1_0_at (X : Mat 100000 64) (hX : V c (Pipeline.arrRef spec1 0) = X) (t : Fin cfg1.N) (r : Fin 10000) (q : Fin 64)
    (p : Fin 100000) (hp : p.val = 10000 * t.val + r.val) :
    (iblk1 V c 0 t : Vec Ideal S10000x64 .f32) (ix2 r q) = X (ix2 p q) := by
  subst hX
  show V c (Pipeline.arrRef spec1 0) (((cfg1.win 0).blk t).view.emb (ix2 r q)) = V c (Pipeline.arrRef spec1 0) (ix2 p q)
  refine congrArg _ (funext fun a => Fin.ext ?_)
  obtain ⟨e0, e1, -, -⟩ := idx1 t
  match a with
  | ⟨0, _⟩ => show win1_0.index t (0 : Fin 2) * 10000 + 1 * r.val = p.val; rw [e0, hp]; omega
  | ⟨1, _⟩ => show win1_0.index t (1 : Fin 2) * 64 + 1 * q.val = q.val; rw [e1]; omega

/-- Every point stages the whole bias row. -/
theorem blk1_1_at (B : Mat 1 64) (hB : V c (Pipeline.arrRef spec1 1) = B) (t : Fin cfg1.N) (q : Fin 64) :
    (iblk1 V c 1 t : Vec Ideal S1x64 .f32) (ix2 (0 : Fin 1) q) = B (ix2 (0 : Fin 1) q) := by
  subst hB
  show V c (Pipeline.arrRef spec1 1) (((cfg1.win 1).blk t).view.emb (ix2 (0 : Fin 1) q)) = V c (Pipeline.arrRef spec1 1) (ix2 (0 : Fin 1) q)
  refine congrArg _ (funext fun a => Fin.ext ?_)
  obtain ⟨-, -, e2, e3⟩ := idx1 t
  match a with
  | ⟨0, _⟩ => show win1_1.index t (0 : Fin 2) * 1 + 1 * 0 = 0; rw [e2]
  | ⟨1, _⟩ => show win1_1.index t (1 : Fin 2) * 64 + 1 * q.val = q.val; rw [e3]; omega

/-- Row r of block n, as a row of the whole array. -/
def rowOf1 (n : ℕ) (h : n < cfg1.N) (r : Fin 10000) : Fin 100000 :=
  ⟨10000 * n + r.val, by have hN : cfg1.N = 10 := N_1; have := r.isLt; omega⟩

/-- After the last point the first carried row holds, at column q, the sum of the biased features over all the rows. -/
theorem sum1_2 (X : Mat 100000 64) (B : Mat 1 64) (hX : V c (Pipeline.arrRef spec1 0) = X)
    (hB : V c (Pipeline.arrRef spec1 1) = B) (q : Fin 64) :
    ((outsAt1 (F := Ideal) V c 9 last1_lt).1 : Vec Ideal S1x64 .f32) (ix2 (0 : Fin 1) q)
      = ∑ p : Fin 100000, (X (ix2 p q) + B (ix2 (0 : Fin 1) q)) := by
  have hN : cfg1.N = 10 := N_1
  refine Cert.AccCols.carried_total (A := cfg1.N) (B := 10000) (N := 100000) (by omega)
    (fun p => X (ix2 p q) + B (ix2 (0 : Fin 1) q)) rowOf1 (fun _ _ _ => rfl)
    (fun n h => ((outsAt1 (F := Ideal) V c n h).1 : Vec Ideal S1x64 .f32) (ix2 (0 : Fin 1) q)) ?_ ?_ 9 last1_lt (by omega)
  · intro h
    show ((outsAt1 (F := Ideal) V c (⟨0, h⟩ : Fin cfg1.N).val (⟨0, h⟩ : Fin cfg1.N).isLt).1 : Vec Ideal S1x64 .f32) (ix2 (0 : Fin 1) q) = _
    rw [outs1_first V c ⟨0, h⟩ rfl]
    refine (pay1_4_at (iblk1 V c 0 ⟨0, h⟩) (iblk1 V c 1 ⟨0, h⟩) (k1_pay1 (F := Ideal)) 0 q).trans ?_
    rw [pay1_1_at]
    refine congrArg (0 + ·) (Finset.sum_congr rfl fun r _ => ?_)
    rw [blk1_0_at V c X hX ⟨0, h⟩ r q (rowOf1 0 h r) rfl, blk1_1_at V c B hB ⟨0, h⟩ q]
  · intro n h
    have hB' : ¬(⟨n + 1, h⟩ : Fin cfg1.N).val % 10 = 0 := by dsimp only; omega
    show ((outsAt1 (F := Ideal) V c (⟨n + 1, h⟩ : Fin cfg1.N).val (⟨n + 1, h⟩ : Fin cfg1.N).isLt).1 : Vec Ideal S1x64 .f32) (ix2 (0 : Fin 1) q) = _
    rw [outs1_later V c ⟨n + 1, h⟩ hB']
    refine (pay1_4_at (iblk1 V c 0 ⟨n + 1, h⟩) (iblk1 V c 1 ⟨n + 1, h⟩) _ 0 q).trans ?_
    refine congrArg₂ (· + ·) rfl (Finset.sum_congr rfl fun r _ => ?_)
    rw [blk1_0_at V c X hX ⟨n + 1, h⟩ r q (rowOf1 (n + 1) h r) rfl, blk1_1_at V c B hB ⟨n + 1, h⟩ q]

/-- After the last point the second carried row holds, at column q, the sum of the squares over all the rows. -/
theorem sum1_3 (X : Mat 100000 64) (B : Mat 1 64) (hX : V c (Pipeline.arrRef spec1 0) = X)
    (hB : V c (Pipeline.arrRef spec1 1) = B) (q : Fin 64) :
    ((outsAt1 (F := Ideal) V c 9 last1_lt).2 : Vec Ideal S1x64 .f32) (ix2 (0 : Fin 1) q)
      = ∑ p : Fin 100000, (X (ix2 p q) + B (ix2 (0 : Fin 1) q)) * (X (ix2 p q) + B (ix2 (0 : Fin 1) q)) := by
  have hN : cfg1.N = 10 := N_1
  refine Cert.AccCols.carried_total (A := cfg1.N) (B := 10000) (N := 100000) (by omega)
    (fun p => (X (ix2 p q) + B (ix2 (0 : Fin 1) q)) * (X (ix2 p q) + B (ix2 (0 : Fin 1) q))) rowOf1 (fun _ _ _ => rfl)
    (fun n h => ((outsAt1 (F := Ideal) V c n h).2 : Vec Ideal S1x64 .f32) (ix2 (0 : Fin 1) q)) ?_ ?_ 9 last1_lt (by omega)
  · intro h
    show ((outsAt1 (F := Ideal) V c (⟨0, h⟩ : Fin cfg1.N).val (⟨0, h⟩ : Fin cfg1.N).isLt).2 : Vec Ideal S1x64 .f32) (ix2 (0 : Fin 1) q) = _
    rw [outs1_first V c ⟨0, h⟩ rfl]
    refine (pay1_5_at (iblk1 V c 0 ⟨0, h⟩) (iblk1 V c 1 ⟨0, h⟩) (k1_pay2 (F := Ideal)) 0 q).trans ?_
    rw [pay1_2_at]
    refine congrArg (0 + ·) (Finset.sum_congr rfl fun r _ => ?_)
    rw [blk1_0_at V c X hX ⟨0, h⟩ r q (rowOf1 0 h r) rfl, blk1_1_at V c B hB ⟨0, h⟩ q]
  · intro n h
    have hB' : ¬(⟨n + 1, h⟩ : Fin cfg1.N).val % 10 = 0 := by dsimp only; omega
    show ((outsAt1 (F := Ideal) V c (⟨n + 1, h⟩ : Fin cfg1.N).val (⟨n + 1, h⟩ : Fin cfg1.N).isLt).2 : Vec Ideal S1x64 .f32) (ix2 (0 : Fin 1) q) = _
    rw [outs1_later V c ⟨n + 1, h⟩ hB']
    refine (pay1_5_at (iblk1 V c 0 ⟨n + 1, h⟩) (iblk1 V c 1 ⟨n + 1, h⟩) _ 0 q).trans ?_
    refine congrArg₂ (· + ·) rfl (Finset.sum_congr rfl fun r _ => ?_)
    rw [blk1_0_at V c X hX ⟨n + 1, h⟩ r q (rowOf1 (n + 1) h r) rfl, blk1_1_at V c B hB ⟨n + 1, h⟩ q]

end run

end Stats1

/-! ## The two output arrays after the call -/

section arrays
open Stats1
variable (V : (c : Dev nD) → (b : Ref sig .tc) → Buf (Elt Ideal) ((c : Thread nD τ).loc b)) (c : Dev nD)

/-- The first output array: per column, the sum over all 100000 rows of the biased features. -/
theorem arr1_2 : ((dat1 (F := Ideal) V c).arrAt 2 cfg1.N : S1x64.Idx → EReal)
    = Cert.GcnBn.colSum (Cert.GcnBn.addRow (V c (Pipeline.arrRef spec1 0) : S100000x64.Idx → EReal)
        (V c (Pipeline.arrRef spec1 1) : S1x64.Idx → EReal)) :=
  (final1_2 (F := Ideal) V c).trans (funext fun i => by
    obtain ⟨u, q, rfl⟩ : ∃ (u : Fin 1) (q : Fin 64), i = ix2 u q := ⟨i 0, i 1, eq_ix2 i⟩
    obtain rfl : u = 0 := Subsingleton.elim _ _
    exact sum1_2 V c _ _ rfl rfl q)

/-- The second output array: per column, the sum over all 100000 rows of the squares of the biased features. -/
theorem arr1_3 : ((dat1 (F := Ideal) V c).arrAt 3 cfg1.N : S1x64.Idx → EReal)
    = Cert.GcnBn.colSumSq (Cert.GcnBn.addRow (V c (Pipeline.arrRef spec1 0) : S100000x64.Idx → EReal)
        (V c (Pipeline.arrRef spec1 1) : S1x64.Idx → EReal)) :=
  (final1_3 (F := Ideal) V c).trans (funext fun i => by
    obtain ⟨u, q, rfl⟩ : ∃ (u : Fin 1) (q : Fin 64), i = ix2 u q := ⟨i 0, i 1, eq_ix2 i⟩
    obtain rfl : u = 0 := Subsingleton.elim _ _
    exact sum1_3 V c _ _ rfl rfl q)

end arrays

end Cert.KernelIdeal.RegionValue

end
-- ==== Proof.RegionStats4.lean ====
/-
  The batch-statistics call of layer two on the extended reals, for any contents of the buffers when the call starts.

  The call walks the 100000 rows of the feature array X in ten blocks of 10000 rows. Its two outputs are one-row arrays
  whose block never moves, so each is carried from grid point to grid point and written back once, after the last
  point. At the first point both rows are set to zero; every point then adds to the first row the column sums of its
  block of Y = X + b (the bias row b added to every row) and to the second row the column sums of the squares of that
  block. So after point t the first row holds, at column q, zero plus the sum of Y(p, q) over the rows p of blocks
  0 … t, and after the last point the sum over all 100000 rows; likewise the squares. Only 0 + x = x and the
  commutativity and associativity of addition are used, so nothing has to be finite.
-/
import proofs.«148580_j42640435315163_1_alg».proof.Proof.Gen.KernelIdeal.Frame
import proofs.«148580_j42640435315163_1_alg».proof.Proof.Spec
import proofs.«148580_j42640435315163_1_alg».proof.Proof.LibCarriedRow
import proofs.«148580_j42640435315163_1_alg».proof.Proof.LibAccCols
import proofs.«148580_j42640435315163_1_alg».proof.Proof.LibBiasRow
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)
open Cert.Dense (Mat)

namespace Stats4

/-! ## What each control case leaves in the two one-row outputs -/

section cases
variable {F : FTy → Type} [FloatOps F]

/-- The literal zero offsets of a whole-buffer access. -/
theorem hz4 : (![0, 0] : Fin 2 → Nat) = fun _ => 0 := funext fun a => by fin_cases a <;> rfl

/-- A later point leaves in the first output the carried row plus the column sums of its biased block. -/
theorem out4_B_2_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond4_0 i)
    (x0 : Vec F S10000x64 .f32) (x1 xo2 xo3 : Vec F S1x64 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero hz4]
  simp only [View.readAt_eq_ld, h1.read_unread, h2.read_unread, h3.read_unread,
    View.ld_unit_zero (S := S10000x64) hz4, View.ld_unit_zero (S := S1x64) hz4]

/-- A later point leaves in the second output the carried row plus the column sums of the squares of its biased block. -/
theorem out4_B_3_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond4_0 i)
    (x0 : Vec F S10000x64 .f32) (x1 xo2 xo3 : Vec F S1x64 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero hz4]
  simp only [View.readAt_eq_ld, h1.read_unread, h2.read_unread, h4.read_unread,
    View.ld_unit_zero (S := S10000x64) hz4, View.ld_unit_zero (S := S1x64) hz4]

/-- The first point stores the zero row, reads it back, and leaves it plus the column sums of its biased block. -/
theorem out4_A_2_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond4_0 i)
    (x0 : Vec F S10000x64 .f32) (x1 : Vec F S1x64 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x64) hz4, View.readCov_unit_zero (S := S1x64) _ hz4]
  simp only [View.readAt_eq_ld, h1.read_unread, h2.read_unread,
    View.ld_unit_zero (S := S10000x64) hz4, View.ld_unit_zero (S := S1x64) hz4]

/-- The first point likewise leaves in the second output the zero row plus the column sums of the squares. -/
theorem out4_A_3_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond4_0 i)
    (x0 : Vec F S10000x64 .f32) (x1 : Vec F S1x64 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x64) hz4, View.readCov_unit_zero (S := S1x64) _ hz4]
  simp only [View.readAt_eq_ld, h1.read_unread, h2.read_unread,
    View.ld_unit_zero (S := S10000x64) hz4, View.ld_unit_zero (S := S1x64) hz4]

variable (V : (c : Dev nD) → (b : Ref sig .tc) → Buf (Elt F) ((c : Thread nD τ).loc b)) (c : Dev nD)

/-- The two rows after the first point. -/
theorem outs4_first (t : Fin cfg4.N) (h0 : t.val % 10 = 0) :
    outsAt4 V c t.val t.isLt
      = (k4_pay4 (iblk4 V c 0 t) (iblk4 V c 1 t) k4_pay1, k4_pay5 (iblk4 V c 0 t) (iblk4 V c 1 t) k4_pay2) := by
  rw [outsAt4_A V c t h0]
  exact Prod.ext
    (out4_A_2_eq c (grid4.coords t) (ms4_0 t) (hs4_0 t) (ms4_1 t) (hs4_1 t) (ms4_2 t) (hs4_2 t) (ms4_3 t) (hs4_3 t)
      ((hcond4_0 t).mpr h0) (iblk4 V c 0 t) (iblk4 V c 1 t))
    (out4_A_3_eq c (grid4.coords t) (ms4_0 t) (hs4_0 t) (ms4_1 t) (hs4_1 t) (ms4_2 t) (hs4_2 t) (ms4_3 t) (hs4_3 t)
      ((hcond4_0 t).mpr h0) (iblk4 V c 0 t) (iblk4 V c 1 t))

/-- The two rows after a later point, from the rows the point before left. -/
theorem outs4_later (t : Fin cfg4.N) (h0 : ¬t.val % 10 = 0) :
    outsAt4 V c t.val t.isLt
      = (k4_pay4 (iblk4 V c 0 t) (iblk4 V c 1 t) (outsAt4 V c (t.val - 1) (Nat.lt_of_le_of_lt (Nat.sub_le _ _) t.isLt)).1,
         k4_pay5 (iblk4 V c 0 t) (iblk4 V c 1 t) (outsAt4 V c (t.val - 1) (Nat.lt_of_le_of_lt (Nat.sub_le _ _) t.isLt)).2) := by
  rw [outsAt4_B V c t h0]
  exact Prod.ext
    (out4_B_2_eq c (grid4.coords t) (ms4_0 t) (hs4_0 t) (ms4_1 t) (hs4_1 t) (ms4_2 t) (hs4_2 t) (ms4_3 t) (hs4_3 t)
      (fun h => h0 ((hcond4_0 t).mp h)) (iblk4 V c 0 t) (iblk4 V c 1 t)
      (outsAt4 V c (t.val - 1) (Nat.lt_of_le_of_lt (Nat.sub_le _ _) t.isLt)).1
      (outsAt4 V c (t.val - 1) (Nat.lt_of_le_of_lt (Nat.sub_le _ _) t.isLt)).2)
    (out4_B_3_eq c (grid4.coords t) (ms4_0 t) (hs4_0 t) (ms4_1 t) (hs4_1 t) (ms4_2 t) (hs4_2 t) (ms4_3 t) (hs4_3 t)
      (fun h => h0 ((hcond4_0 t).mp h)) (iblk4 V c 0 t) (iblk4 V c 1 t)
      (outsAt4 V c (t.val - 1) (Nat.lt_of_le_of_lt (Nat.sub_le _ _) t.isLt)).1
      (outsAt4 V c (t.val - 1) (Nat.lt_of_le_of_lt (Nat.sub_le _ _) t.isLt)).2)

/-! ## The arrays after the call: what the last point leaves -/

/-- The last grid point. -/
theorem last4_lt : 9 < cfg4.N := by rw [show cfg4.N = 10 from N_4]; decide

/-- The one write-back of the first output, after the last point, writes the carried row: the output's one block is
    the whole array. -/
theorem flushed4_2_eq (t : Fin cfg4.N) (hf : (cfg4.win 2).flush t = true) :
    (dat4 V c).flushed 2 t = ((cfg4.win 2).blk t).view.read (Elt F) (outsAt4 V c 9 last4_lt).1 := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v79_0.ty.shape.size a) = fun _ => 0 := funext fun a => by fin_cases a <;> decide
  exact (Memref.read_access_unit_zero (Elt F) main_v79_0 hz' (fun a => by rw [congrFun hz' a]; simp) (outsAt4 V c 9 last4_lt).1).symm

theorem flushed4_3_eq (t : Fin cfg4.N) (hf : (cfg4.win 3).flush t = true) :
    (dat4 V c).flushed 3 t = ((cfg4.win 3).blk t).view.read (Elt F) (outsAt4 V c 9 last4_lt).2 := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3]
  have hz' : (fun a => win4_3.index t4_9 a * main_v79_1.ty.shape.size a) = fun _ => 0 := funext fun a => by fin_cases a <;> decide
  exact (Memref.read_access_unit_zero (Elt F) main_v79_1 hz' (fun a => by rw [congrFun hz' a]; simp) (outsAt4 V c 9 last4_lt).2).symm

/-- So the first output array ends holding the row carried out of the last point. -/
theorem final4_2 : (dat4 V c).arrAt 2 cfg4.N = (outsAt4 V c 9 last4_lt).1 :=
  (dat4 V c).arrAt_eq_of_cover 2 (outsAt4 V c 9 last4_lt).1 (flushed4_2_eq V c) fun i =>
    ⟨t4_9, (flush4_2 t4_9).mpr rfl, by
      show i ∈ ((View.whole main_v79_0).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 64 from by decide +kernel]; omega⟩

theorem final4_3 : (dat4 V c).arrAt 3 cfg4.N = (outsAt4 V c 9 last4_lt).2 :=
  (dat4 V c).arrAt_eq_of_cover 3 (outsAt4 V c 9 last4_lt).2 (flushed4_3_eq V c) fun i =>
    ⟨t4_9, (flush4_3 t4_9).mpr rfl, by
      show i ∈ ((View.whole main_v79_1).slice (win4_3.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 64 from by decide +kernel]; omega⟩

end cases

/-! ## The payloads on the extended reals, read at a column -/

/-- The biased block: the bias row added to every row. -/
theorem pay4_3_eq (x0 : Vec Ideal S10000x64 .f32) (x1 : Vec Ideal S1x64 .f32) :
    k4_pay3 (F := Ideal) x0 x1 = Cert.BiasRow.addRow x0 x1 := by
  unfold k4_pay3
  rw [shapeCast_self, shapeCast_self]
  exact Cert.BiasRow.vecAddRow x0 x1 _

/-- The rows the first point stores are zero. -/
theorem pay4_1_at (u : Fin 1) (q : Fin 64) : k4_pay1 (F := Ideal) (ix2 u q) = 0 := by
  unfold k4_pay1
  exact Ideal.ofBits_zero_f32

theorem pay4_2_at (u : Fin 1) (q : Fin 64) : k4_pay2 (F := Ideal) (ix2 u q) = 0 := by
  unfold k4_pay2
  exact Ideal.ofBits_zero_f32

/-- The first output's update at column q: the carried entry plus the block's column total. -/
theorem pay4_4_at (x0 : Vec Ideal S10000x64 .f32) (x1 acc : Vec Ideal S1x64 .f32) (u : Fin 1) (q : Fin 64) :
    k4_pay4 (F := Ideal) x0 x1 acc (ix2 u q)
      = acc (ix2 u q) + ∑ p : Fin 10000, (x0 (ix2 p q) + x1 (ix2 (0 : Fin 1) q)) := by
  unfold k4_pay4
  refine (Cert.AccCols.row_plus_colSum acc (k4_pay3 (F := Ideal) x0 x1) _ _ _ _ _ u q).trans ?_
  rw [pay4_3_eq]
  rfl

/-- The second output's update at column q: the carried entry plus the block's column total of squares. -/
theorem pay4_5_at (x0 : Vec Ideal S10000x64 .f32) (x1 acc : Vec Ideal S1x64 .f32) (u : Fin 1) (q : Fin 64) :
    k4_pay5 (F := Ideal) x0 x1 acc (ix2 u q)
      = acc (ix2 u q) + ∑ p : Fin 10000, (x0 (ix2 p q) + x1 (ix2 (0 : Fin 1) q)) * (x0 (ix2 p q) + x1 (ix2 (0 : Fin 1) q)) := by
  unfold k4_pay5
  refine (Cert.AccCols.row_plus_colSum acc (mulf (k4_pay3 (F := Ideal) x0 x1) (k4_pay3 (F := Ideal) x0 x1)) _ _ _ _ _ u q).trans ?_
  rw [pay4_3_eq]
  rfl

/-! ## The blocks a point stages, and the sum over the points -/

section run
variable (V : (c : Dev nD) → (b : Ref sig .tc) → Buf (Elt Ideal) ((c : Thread nD τ).loc b)) (c : Dev nD)

/-- The index maps over the grid: point t stages block t of the feature rows and the one block of the bias row. -/
theorem idx4 : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- Row r of the block point t stages is row 10000·t + r of the feature array. -/
theorem blk4_0_at (X : Mat 100000 64) (hX : V c (Pipeline.arrRef spec4 0) = X) (t : Fin cfg4.N) (r : Fin 10000) (q : Fin 64)
    (p : Fin 100000) (hp : p.val = 10000 * t.val + r.val) :
    (iblk4 V c 0 t : Vec Ideal S10000x64 .f32) (ix2 r q) = X (ix2 p q) := by
  subst hX
  show V c (Pipeline.arrRef spec4 0) (((cfg4.win 0).blk t).view.emb (ix2 r q)) = V c (Pipeline.arrRef spec4 0) (ix2 p q)
  refine congrArg _ (funext fun a => Fin.ext ?_)
  obtain ⟨e0, e1, -, -⟩ := idx4 t
  match a with
  | ⟨0, _⟩ => show win4_0.index t (0 : Fin 2) * 10000 + 1 * r.val = p.val; rw [e0, hp]; omega
  | ⟨1, _⟩ => show win4_0.index t (1 : Fin 2) * 64 + 1 * q.val = q.val; rw [e1]; omega

/-- Every point stages the whole bias row. -/
theorem blk4_1_at (B : Mat 1 64) (hB : V c (Pipeline.arrRef spec4 1) = B) (t : Fin cfg4.N) (q : Fin 64) :
    (iblk4 V c 1 t : Vec Ideal S1x64 .f32) (ix2 (0 : Fin 1) q) = B (ix2 (0 : Fin 1) q) := by
  subst hB
  show V c (Pipeline.arrRef spec4 1) (((cfg4.win 1).blk t).view.emb (ix2 (0 : Fin 1) q)) = V c (Pipeline.arrRef spec4 1) (ix2 (0 : Fin 1) q)
  refine congrArg _ (funext fun a => Fin.ext ?_)
  obtain ⟨-, -, e2, e3⟩ := idx4 t
  match a with
  | ⟨0, _⟩ => show win4_1.index t (0 : Fin 2) * 1 + 1 * 0 = 0; rw [e2]
  | ⟨1, _⟩ => show win4_1.index t (1 : Fin 2) * 64 + 1 * q.val = q.val; rw [e3]; omega

/-- Row r of block n, as a row of the whole array. -/
def rowOf4 (n : ℕ) (h : n < cfg4.N) (r : Fin 10000) : Fin 100000 :=
  ⟨10000 * n + r.val, by have hN : cfg4.N = 10 := N_4; have := r.isLt; omega⟩

/-- After the last point the first carried row holds, at column q, the sum of the biased features over all the rows. -/
theorem sum4_2 (X : Mat 100000 64) (B : Mat 1 64) (hX : V c (Pipeline.arrRef spec4 0) = X)
    (hB : V c (Pipeline.arrRef spec4 1) = B) (q : Fin 64) :
    ((outsAt4 (F := Ideal) V c 9 last4_lt).1 : Vec Ideal S1x64 .f32) (ix2 (0 : Fin 1) q)
      = ∑ p : Fin 100000, (X (ix2 p q) + B (ix2 (0 : Fin 1) q)) := by
  have hN : cfg4.N = 10 := N_4
  refine Cert.AccCols.carried_total (A := cfg4.N) (B := 10000) (N := 100000) (by omega)
    (fun p => X (ix2 p q) + B (ix2 (0 : Fin 1) q)) rowOf4 (fun _ _ _ => rfl)
    (fun n h => ((outsAt4 (F := Ideal) V c n h).1 : Vec Ideal S1x64 .f32) (ix2 (0 : Fin 1) q)) ?_ ?_ 9 last4_lt (by omega)
  · intro h
    show ((outsAt4 (F := Ideal) V c (⟨0, h⟩ : Fin cfg4.N).val (⟨0, h⟩ : Fin cfg4.N).isLt).1 : Vec Ideal S1x64 .f32) (ix2 (0 : Fin 1) q) = _
    rw [outs4_first V c ⟨0, h⟩ rfl]
    refine (pay4_4_at (iblk4 V c 0 ⟨0, h⟩) (iblk4 V c 1 ⟨0, h⟩) (k4_pay1 (F := Ideal)) 0 q).trans ?_
    rw [pay4_1_at]
    refine congrArg (0 + ·) (Finset.sum_congr rfl fun r _ => ?_)
    rw [blk4_0_at V c X hX ⟨0, h⟩ r q (rowOf4 0 h r) rfl, blk4_1_at V c B hB ⟨0, h⟩ q]
  · intro n h
    have hB' : ¬(⟨n + 1, h⟩ : Fin cfg4.N).val % 10 = 0 := by dsimp only; omega
    show ((outsAt4 (F := Ideal) V c (⟨n + 1, h⟩ : Fin cfg4.N).val (⟨n + 1, h⟩ : Fin cfg4.N).isLt).1 : Vec Ideal S1x64 .f32) (ix2 (0 : Fin 1) q) = _
    rw [outs4_later V c ⟨n + 1, h⟩ hB']
    refine (pay4_4_at (iblk4 V c 0 ⟨n + 1, h⟩) (iblk4 V c 1 ⟨n + 1, h⟩) _ 0 q).trans ?_
    refine congrArg₂ (· + ·) rfl (Finset.sum_congr rfl fun r _ => ?_)
    rw [blk4_0_at V c X hX ⟨n + 1, h⟩ r q (rowOf4 (n + 1) h r) rfl, blk4_1_at V c B hB ⟨n + 1, h⟩ q]

/-- After the last point the second carried row holds, at column q, the sum of the squares over all the rows. -/
theorem sum4_3 (X : Mat 100000 64) (B : Mat 1 64) (hX : V c (Pipeline.arrRef spec4 0) = X)
    (hB : V c (Pipeline.arrRef spec4 1) = B) (q : Fin 64) :
    ((outsAt4 (F := Ideal) V c 9 last4_lt).2 : Vec Ideal S1x64 .f32) (ix2 (0 : Fin 1) q)
      = ∑ p : Fin 100000, (X (ix2 p q) + B (ix2 (0 : Fin 1) q)) * (X (ix2 p q) + B (ix2 (0 : Fin 1) q)) := by
  have hN : cfg4.N = 10 := N_4
  refine Cert.AccCols.carried_total (A := cfg4.N) (B := 10000) (N := 100000) (by omega)
    (fun p => (X (ix2 p q) + B (ix2 (0 : Fin 1) q)) * (X (ix2 p q) + B (ix2 (0 : Fin 1) q))) rowOf4 (fun _ _ _ => rfl)
    (fun n h => ((outsAt4 (F := Ideal) V c n h).2 : Vec Ideal S1x64 .f32) (ix2 (0 : Fin 1) q)) ?_ ?_ 9 last4_lt (by omega)
  · intro h
    show ((outsAt4 (F := Ideal) V c (⟨0, h⟩ : Fin cfg4.N).val (⟨0, h⟩ : Fin cfg4.N).isLt).2 : Vec Ideal S1x64 .f32) (ix2 (0 : Fin 1) q) = _
    rw [outs4_first V c ⟨0, h⟩ rfl]
    refine (pay4_5_at (iblk4 V c 0 ⟨0, h⟩) (iblk4 V c 1 ⟨0, h⟩) (k4_pay2 (F := Ideal)) 0 q).trans ?_
    rw [pay4_2_at]
    refine congrArg (0 + ·) (Finset.sum_congr rfl fun r _ => ?_)
    rw [blk4_0_at V c X hX ⟨0, h⟩ r q (rowOf4 0 h r) rfl, blk4_1_at V c B hB ⟨0, h⟩ q]
  · intro n h
    have hB' : ¬(⟨n + 1, h⟩ : Fin cfg4.N).val % 10 = 0 := by dsimp only; omega
    show ((outsAt4 (F := Ideal) V c (⟨n + 1, h⟩ : Fin cfg4.N).val (⟨n + 1, h⟩ : Fin cfg4.N).isLt).2 : Vec Ideal S1x64 .f32) (ix2 (0 : Fin 1) q) = _
    rw [outs4_later V c ⟨n + 1, h⟩ hB']
    refine (pay4_5_at (iblk4 V c 0 ⟨n + 1, h⟩) (iblk4 V c 1 ⟨n + 1, h⟩) _ 0 q).trans ?_
    refine congrArg₂ (· + ·) rfl (Finset.sum_congr rfl fun r _ => ?_)
    rw [blk4_0_at V c X hX ⟨n + 1, h⟩ r q (rowOf4 (n + 1) h r) rfl, blk4_1_at V c B hB ⟨n + 1, h⟩ q]

end run

end Stats4

/-! ## The two output arrays after the call -/

section arrays
open Stats4
variable (V : (c : Dev nD) → (b : Ref sig .tc) → Buf (Elt Ideal) ((c : Thread nD τ).loc b)) (c : Dev nD)

/-- The first output array: per column, the sum over all 100000 rows of the biased features. -/
theorem arr4_2 : ((dat4 (F := Ideal) V c).arrAt 2 cfg4.N : S1x64.Idx → EReal)
    = Cert.GcnBn.colSum (Cert.GcnBn.addRow (V c (Pipeline.arrRef spec4 0) : S100000x64.Idx → EReal)
        (V c (Pipeline.arrRef spec4 1) : S1x64.Idx → EReal)) :=
  (final4_2 (F := Ideal) V c).trans (funext fun i => by
    obtain ⟨u, q, rfl⟩ : ∃ (u : Fin 1) (q : Fin 64), i = ix2 u q := ⟨i 0, i 1, eq_ix2 i⟩
    obtain rfl : u = 0 := Subsingleton.elim _ _
    exact sum4_2 V c _ _ rfl rfl q)

/-- The second output array: per column, the sum over all 100000 rows of the squares of the biased features. -/
theorem arr4_3 : ((dat4 (F := Ideal) V c).arrAt 3 cfg4.N : S1x64.Idx → EReal)
    = Cert.GcnBn.colSumSq (Cert.GcnBn.addRow (V c (Pipeline.arrRef spec4 0) : S100000x64.Idx → EReal)
        (V c (Pipeline.arrRef spec4 1) : S1x64.Idx → EReal)) :=
  (final4_3 (F := Ideal) V c).trans (funext fun i => by
    obtain ⟨u, q, rfl⟩ : ∃ (u : Fin 1) (q : Fin 64), i = ix2 u q := ⟨i 0, i 1, eq_ix2 i⟩
    obtain rfl : u = 0 := Subsingleton.elim _ _
    exact sum4_3 V c _ _ rfl rfl q)

end arrays

end Cert.KernelIdeal.RegionValue

end
-- ==== Proof.RegionStats7.lean ====
/-
  The batch-statistics call of layer three on the extended reals, for any contents of the buffers when the call starts.

  The call walks the 100000 rows of the feature array X in ten blocks of 10000 rows. Its two outputs are one-row arrays
  whose block never moves, so each is carried from grid point to grid point and written back once, after the last
  point. At the first point both rows are set to zero; every point then adds to the first row the column sums of its
  block of Y = X + b (the bias row b added to every row) and to the second row the column sums of the squares of that
  block. So after point t the first row holds, at column q, zero plus the sum of Y(p, q) over the rows p of blocks
  0 … t, and after the last point the sum over all 100000 rows; likewise the squares. Only 0 + x = x and the
  commutativity and associativity of addition are used, so nothing has to be finite.
-/
import proofs.«148580_j42640435315163_1_alg».proof.Proof.Gen.KernelIdeal.Frame
import proofs.«148580_j42640435315163_1_alg».proof.Proof.Spec
import proofs.«148580_j42640435315163_1_alg».proof.Proof.LibCarriedRow
import proofs.«148580_j42640435315163_1_alg».proof.Proof.LibAccCols
import proofs.«148580_j42640435315163_1_alg».proof.Proof.LibBiasRow
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)
open Cert.Dense (Mat)

namespace Stats7

/-! ## What each control case leaves in the two one-row outputs -/

section cases
variable {F : FTy → Type} [FloatOps F]

/-- The literal zero offsets of a whole-buffer access. -/
theorem hz7 : (![0, 0] : Fin 2 → Nat) = fun _ => 0 := funext fun a => by fin_cases a <;> rfl

/-- A later point leaves in the first output the carried row plus the column sums of its biased block. -/
theorem out7_B_2_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond7_0 i)
    (x0 : Vec F S10000x64 .f32) (x1 xo2 xo3 : Vec F S1x64 .f32) :
    out7_B_2 c i a1 h1 a2 h2 a3 h3 a4 h4 hc x0 x1 xo2 xo3 = k7_pay4 x0 x1 xo2 := by
  unfold out7_B_2
  rw [View.read_writes_eq_canon _ _ _ (cover7_B_2 c i a1 h1 a2 h2 a3 h3 a4 h4 hc x0 x1 xo2 xo3)]
  unfold kernelRun7_B
  dsimp only
  rw [View.canon_unit_zero hz7]
  simp only [View.readAt_eq_ld, h1.read_unread, h2.read_unread, h3.read_unread,
    View.ld_unit_zero (S := S10000x64) hz7, View.ld_unit_zero (S := S1x64) hz7]

/-- A later point leaves in the second output the carried row plus the column sums of the squares of its biased block. -/
theorem out7_B_3_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond7_0 i)
    (x0 : Vec F S10000x64 .f32) (x1 xo2 xo3 : Vec F S1x64 .f32) :
    out7_B_3 c i a1 h1 a2 h2 a3 h3 a4 h4 hc x0 x1 xo2 xo3 = k7_pay5 x0 x1 xo3 := by
  unfold out7_B_3
  rw [View.read_writes_eq_canon _ _ _ (cover7_B_3 c i a1 h1 a2 h2 a3 h3 a4 h4 hc x0 x1 xo2 xo3)]
  unfold kernelRun7_B
  dsimp only
  rw [View.canon_unit_zero hz7]
  simp only [View.readAt_eq_ld, h1.read_unread, h2.read_unread, h4.read_unread,
    View.ld_unit_zero (S := S10000x64) hz7, View.ld_unit_zero (S := S1x64) hz7]

/-- The first point stores the zero row, reads it back, and leaves it plus the column sums of its biased block. -/
theorem out7_A_2_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond7_0 i)
    (x0 : Vec F S10000x64 .f32) (x1 : Vec F S1x64 .f32) :
    out7_A_2 c i a1 h1 a2 h2 a3 h3 a4 h4 hc x0 x1 = k7_pay4 x0 x1 k7_pay1 := by
  unfold out7_A_2
  rw [View.read_writes_eq_canon _ _ _ (cover7_A_2 c i a1 h1 a2 h2 a3 h3 a4 h4 hc x0 x1)]
  unfold kernelRun7_A
  dsimp only
  sl_unfold_words
  rw [View.canon_cons_unit_zero (S := S1x64) hz7, View.readCov_unit_zero (S := S1x64) _ hz7]
  simp only [View.readAt_eq_ld, h1.read_unread, h2.read_unread,
    View.ld_unit_zero (S := S10000x64) hz7, View.ld_unit_zero (S := S1x64) hz7]

/-- The first point likewise leaves in the second output the zero row plus the column sums of the squares. -/
theorem out7_A_3_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond7_0 i)
    (x0 : Vec F S10000x64 .f32) (x1 : Vec F S1x64 .f32) :
    out7_A_3 c i a1 h1 a2 h2 a3 h3 a4 h4 hc x0 x1 = k7_pay5 x0 x1 k7_pay2 := by
  unfold out7_A_3
  rw [View.read_writes_eq_canon _ _ _ (cover7_A_3 c i a1 h1 a2 h2 a3 h3 a4 h4 hc x0 x1)]
  unfold kernelRun7_A
  dsimp only
  sl_unfold_words
  rw [View.canon_cons_unit_zero (S := S1x64) hz7, View.readCov_unit_zero (S := S1x64) _ hz7]
  simp only [View.readAt_eq_ld, h1.read_unread, h2.read_unread,
    View.ld_unit_zero (S := S10000x64) hz7, View.ld_unit_zero (S := S1x64) hz7]

variable (V : (c : Dev nD) → (b : Ref sig .tc) → Buf (Elt F) ((c : Thread nD τ).loc b)) (c : Dev nD)

/-- The two rows after the first point. -/
theorem outs7_first (t : Fin cfg7.N) (h0 : t.val % 10 = 0) :
    outsAt7 V c t.val t.isLt
      = (k7_pay4 (iblk7 V c 0 t) (iblk7 V c 1 t) k7_pay1, k7_pay5 (iblk7 V c 0 t) (iblk7 V c 1 t) k7_pay2) := by
  rw [outsAt7_A V c t h0]
  exact Prod.ext
    (out7_A_2_eq c (grid7.coords t) (ms7_0 t) (hs7_0 t) (ms7_1 t) (hs7_1 t) (ms7_2 t) (hs7_2 t) (ms7_3 t) (hs7_3 t)
      ((hcond7_0 t).mpr h0) (iblk7 V c 0 t) (iblk7 V c 1 t))
    (out7_A_3_eq c (grid7.coords t) (ms7_0 t) (hs7_0 t) (ms7_1 t) (hs7_1 t) (ms7_2 t) (hs7_2 t) (ms7_3 t) (hs7_3 t)
      ((hcond7_0 t).mpr h0) (iblk7 V c 0 t) (iblk7 V c 1 t))

/-- The two rows after a later point, from the rows the point before left. -/
theorem outs7_later (t : Fin cfg7.N) (h0 : ¬t.val % 10 = 0) :
    outsAt7 V c t.val t.isLt
      = (k7_pay4 (iblk7 V c 0 t) (iblk7 V c 1 t) (outsAt7 V c (t.val - 1) (Nat.lt_of_le_of_lt (Nat.sub_le _ _) t.isLt)).1,
         k7_pay5 (iblk7 V c 0 t) (iblk7 V c 1 t) (outsAt7 V c (t.val - 1) (Nat.lt_of_le_of_lt (Nat.sub_le _ _) t.isLt)).2) := by
  rw [outsAt7_B V c t h0]
  exact Prod.ext
    (out7_B_2_eq c (grid7.coords t) (ms7_0 t) (hs7_0 t) (ms7_1 t) (hs7_1 t) (ms7_2 t) (hs7_2 t) (ms7_3 t) (hs7_3 t)
      (fun h => h0 ((hcond7_0 t).mp h)) (iblk7 V c 0 t) (iblk7 V c 1 t)
      (outsAt7 V c (t.val - 1) (Nat.lt_of_le_of_lt (Nat.sub_le _ _) t.isLt)).1
      (outsAt7 V c (t.val - 1) (Nat.lt_of_le_of_lt (Nat.sub_le _ _) t.isLt)).2)
    (out7_B_3_eq c (grid7.coords t) (ms7_0 t) (hs7_0 t) (ms7_1 t) (hs7_1 t) (ms7_2 t) (hs7_2 t) (ms7_3 t) (hs7_3 t)
      (fun h => h0 ((hcond7_0 t).mp h)) (iblk7 V c 0 t) (iblk7 V c 1 t)
      (outsAt7 V c (t.val - 1) (Nat.lt_of_le_of_lt (Nat.sub_le _ _) t.isLt)).1
      (outsAt7 V c (t.val - 1) (Nat.lt_of_le_of_lt (Nat.sub_le _ _) t.isLt)).2)

/-! ## The arrays after the call: what the last point leaves -/

/-- The last grid point. -/
theorem last7_lt : 9 < cfg7.N := by rw [show cfg7.N = 10 from N_7]; decide

/-- The one write-back of the first output, after the last point, writes the carried row: the output's one block is
    the whole array. -/
theorem flushed7_2_eq (t : Fin cfg7.N) (hf : (cfg7.win 2).flush t = true) :
    (dat7 V c).flushed 2 t = ((cfg7.win 2).blk t).view.read (Elt F) (outsAt7 V c 9 last7_lt).1 := by
  have hN : cfg7.N = 10 := N_7
  have h9 : t.val = 9 := by have := (flush7_2 t).mp hf; have := t.isLt; omega
  obtain rfl : t = t7_9 := Fin.ext h9
  show (cfg7.win 2).cut (grid7.coords t7_9) ((dat7 V c).after 2 t7_9) = _
  rw [after7_2]
  have hz' : (fun a => win7_2.index t7_9 a * main_v108_0.ty.shape.size a) = fun _ => 0 := funext fun a => by fin_cases a <;> decide
  exact (Memref.read_access_unit_zero (Elt F) main_v108_0 hz' (fun a => by rw [congrFun hz' a]; simp) (outsAt7 V c 9 last7_lt).1).symm

theorem flushed7_3_eq (t : Fin cfg7.N) (hf : (cfg7.win 3).flush t = true) :
    (dat7 V c).flushed 3 t = ((cfg7.win 3).blk t).view.read (Elt F) (outsAt7 V c 9 last7_lt).2 := by
  have hN : cfg7.N = 10 := N_7
  have h9 : t.val = 9 := by have := (flush7_3 t).mp hf; have := t.isLt; omega
  obtain rfl : t = t7_9 := Fin.ext h9
  show (cfg7.win 3).cut (grid7.coords t7_9) ((dat7 V c).after 3 t7_9) = _
  rw [after7_3]
  have hz' : (fun a => win7_3.index t7_9 a * main_v108_1.ty.shape.size a) = fun _ => 0 := funext fun a => by fin_cases a <;> decide
  exact (Memref.read_access_unit_zero (Elt F) main_v108_1 hz' (fun a => by rw [congrFun hz' a]; simp) (outsAt7 V c 9 last7_lt).2).symm

/-- So the first output array ends holding the row carried out of the last point. -/
theorem final7_2 : (dat7 V c).arrAt 2 cfg7.N = (outsAt7 V c 9 last7_lt).1 :=
  (dat7 V c).arrAt_eq_of_cover 2 (outsAt7 V c 9 last7_lt).1 (flushed7_2_eq V c) fun i =>
    ⟨t7_9, (flush7_2 t7_9).mpr rfl, by
      show i ∈ ((View.whole main_v108_0).slice (win7_2.rect t7_9)).set
      rw [View.set_slice_whole, Rect.mem_set_unit]
      intro a
      have h0 : (i 0 : Nat) < 1 := (i 0).isLt
      have h1 : (i 1 : Nat) < 64 := (i 1).isLt
      match a with
      | ⟨0, _⟩ => show win7_2.index t7_9 0 * win7_2.size 0 ≤ (i 0 : Nat) ∧ (i 0 : Nat) < win7_2.index t7_9 0 * win7_2.size 0 + win7_2.xsize (grid7.coords t7_9) 0
                  rw [show win7_2.index t7_9 0 * win7_2.size 0 = 0 from by decide +kernel, show win7_2.xsize (grid7.coords t7_9) 0 = 1 from by decide +kernel]; omega
      | ⟨1, _⟩ => show win7_2.index t7_9 1 * win7_2.size 1 ≤ (i 1 : Nat) ∧ (i 1 : Nat) < win7_2.index t7_9 1 * win7_2.size 1 + win7_2.xsize (grid7.coords t7_9) 1
                  rw [show win7_2.index t7_9 1 * win7_2.size 1 = 0 from by decide +kernel, show win7_2.xsize (grid7.coords t7_9) 1 = 64 from by decide +kernel]; omega⟩

theorem final7_3 : (dat7 V c).arrAt 3 cfg7.N = (outsAt7 V c 9 last7_lt).2 :=
  (dat7 V c).arrAt_eq_of_cover 3 (outsAt7 V c 9 last7_lt).2 (flushed7_3_eq V c) fun i =>
    ⟨t7_9, (flush7_3 t7_9).mpr rfl, by
      show i ∈ ((View.whole main_v108_1).slice (win7_3.rect t7_9)).set
      rw [View.set_slice_whole, Rect.mem_set_unit]
      intro a
      have h0 : (i 0 : Nat) < 1 := (i 0).isLt
      have h1 : (i 1 : Nat) < 64 := (i 1).isLt
      match a with
      | ⟨0, _⟩ => show win7_3.index t7_9 0 * win7_3.size 0 ≤ (i 0 : Nat) ∧ (i 0 : Nat) < win7_3.index t7_9 0 * win7_3.size 0 + win7_3.xsize (grid7.coords t7_9) 0
                  rw [show win7_3.index t7_9 0 * win7_3.size 0 = 0 from by decide +kernel, show win7_3.xsize (grid7.coords t7_9) 0 = 1 from by decide +kernel]; omega
      | ⟨1, _⟩ => show win7_3.index t7_9 1 * win7_3.size 1 ≤ (i 1 : Nat) ∧ (i 1 : Nat) < win7_3.index t7_9 1 * win7_3.size 1 + win7_3.xsize (grid7.coords t7_9) 1
                  rw [show win7_3.index t7_9 1 * win7_3.size 1 = 0 from by decide +kernel, show win7_3.xsize (grid7.coords t7_9) 1 = 64 from by decide +kernel]; omega⟩

end cases

/-! ## The payloads on the extended reals, read at a column -/

/-- The biased block: the bias row added to every row. -/
theorem pay7_3_eq (x0 : Vec Ideal S10000x64 .f32) (x1 : Vec Ideal S1x64 .f32) :
    k7_pay3 (F := Ideal) x0 x1 = Cert.BiasRow.addRow x0 x1 := by
  unfold k7_pay3
  rw [shapeCast_self, shapeCast_self]
  exact Cert.BiasRow.vecAddRow x0 x1 _

/-- The rows the first point stores are zero. -/
theorem pay7_1_at (u : Fin 1) (q : Fin 64) : k7_pay1 (F := Ideal) (ix2 u q) = 0 := by
  unfold k7_pay1
  exact Ideal.ofBits_zero_f32

theorem pay7_2_at (u : Fin 1) (q : Fin 64) : k7_pay2 (F := Ideal) (ix2 u q) = 0 := by
  unfold k7_pay2
  exact Ideal.ofBits_zero_f32

/-- The first output's update at column q: the carried entry plus the block's column total. -/
theorem pay7_4_at (x0 : Vec Ideal S10000x64 .f32) (x1 acc : Vec Ideal S1x64 .f32) (u : Fin 1) (q : Fin 64) :
    k7_pay4 (F := Ideal) x0 x1 acc (ix2 u q)
      = acc (ix2 u q) + ∑ p : Fin 10000, (x0 (ix2 p q) + x1 (ix2 (0 : Fin 1) q)) := by
  unfold k7_pay4
  refine (Cert.AccCols.row_plus_colSum acc (k7_pay3 (F := Ideal) x0 x1) _ _ _ _ _ u q).trans ?_
  rw [pay7_3_eq]
  rfl

/-- The second output's update at column q: the carried entry plus the block's column total of squares. -/
theorem pay7_5_at (x0 : Vec Ideal S10000x64 .f32) (x1 acc : Vec Ideal S1x64 .f32) (u : Fin 1) (q : Fin 64) :
    k7_pay5 (F := Ideal) x0 x1 acc (ix2 u q)
      = acc (ix2 u q) + ∑ p : Fin 10000, (x0 (ix2 p q) + x1 (ix2 (0 : Fin 1) q)) * (x0 (ix2 p q) + x1 (ix2 (0 : Fin 1) q)) := by
  unfold k7_pay5
  refine (Cert.AccCols.row_plus_colSum acc (mulf (k7_pay3 (F := Ideal) x0 x1) (k7_pay3 (F := Ideal) x0 x1)) _ _ _ _ _ u q).trans ?_
  rw [pay7_3_eq]
  rfl

/-! ## The blocks a point stages, and the sum over the points -/

section run
variable (V : (c : Dev nD) → (b : Ref sig .tc) → Buf (Elt Ideal) ((c : Thread nD τ).loc b)) (c : Dev nD)

/-- The index maps over the grid: point t stages block t of the feature rows and the one block of the bias row. -/
theorem idx7 : ∀ t : Fin cfg7.N, win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)

/-- Row r of the block point t stages is row 10000·t + r of the feature array. -/
theorem blk7_0_at (X : Mat 100000 64) (hX : V c (Pipeline.arrRef spec7 0) = X) (t : Fin cfg7.N) (r : Fin 10000) (q : Fin 64)
    (p : Fin 100000) (hp : p.val = 10000 * t.val + r.val) :
    (iblk7 V c 0 t : Vec Ideal S10000x64 .f32) (ix2 r q) = X (ix2 p q) := by
  subst hX
  show V c (Pipeline.arrRef spec7 0) (((cfg7.win 0).blk t).view.emb (ix2 r q)) = V c (Pipeline.arrRef spec7 0) (ix2 p q)
  refine congrArg _ (funext fun a => Fin.ext ?_)
  obtain ⟨e0, e1, -, -⟩ := idx7 t
  match a with
  | ⟨0, _⟩ => show win7_0.index t (0 : Fin 2) * 10000 + 1 * r.val = p.val; rw [e0, hp]; omega
  | ⟨1, _⟩ => show win7_0.index t (1 : Fin 2) * 64 + 1 * q.val = q.val; rw [e1]; omega

/-- Every point stages the whole bias row. -/
theorem blk7_1_at (B : Mat 1 64) (hB : V c (Pipeline.arrRef spec7 1) = B) (t : Fin cfg7.N) (q : Fin 64) :
    (iblk7 V c 1 t : Vec Ideal S1x64 .f32) (ix2 (0 : Fin 1) q) = B (ix2 (0 : Fin 1) q) := by
  subst hB
  show V c (Pipeline.arrRef spec7 1) (((cfg7.win 1).blk t).view.emb (ix2 (0 : Fin 1) q)) = V c (Pipeline.arrRef spec7 1) (ix2 (0 : Fin 1) q)
  refine congrArg _ (funext fun a => Fin.ext ?_)
  obtain ⟨-, -, e2, e3⟩ := idx7 t
  match a with
  | ⟨0, _⟩ => show win7_1.index t (0 : Fin 2) * 1 + 1 * 0 = 0; rw [e2]
  | ⟨1, _⟩ => show win7_1.index t (1 : Fin 2) * 64 + 1 * q.val = q.val; rw [e3]; omega

/-- Row r of block n, as a row of the whole array. -/
def rowOf7 (n : ℕ) (h : n < cfg7.N) (r : Fin 10000) : Fin 100000 :=
  ⟨10000 * n + r.val, by have hN : cfg7.N = 10 := N_7; have := r.isLt; omega⟩

/-- After the last point the first carried row holds, at column q, the sum of the biased features over all the rows. -/
theorem sum7_2 (X : Mat 100000 64) (B : Mat 1 64) (hX : V c (Pipeline.arrRef spec7 0) = X)
    (hB : V c (Pipeline.arrRef spec7 1) = B) (q : Fin 64) :
    ((outsAt7 (F := Ideal) V c 9 last7_lt).1 : Vec Ideal S1x64 .f32) (ix2 (0 : Fin 1) q)
      = ∑ p : Fin 100000, (X (ix2 p q) + B (ix2 (0 : Fin 1) q)) := by
  have hN : cfg7.N = 10 := N_7
  refine Cert.AccCols.carried_total (A := cfg7.N) (B := 10000) (N := 100000) (by omega)
    (fun p => X (ix2 p q) + B (ix2 (0 : Fin 1) q)) rowOf7 (fun _ _ _ => rfl)
    (fun n h => ((outsAt7 (F := Ideal) V c n h).1 : Vec Ideal S1x64 .f32) (ix2 (0 : Fin 1) q)) ?_ ?_ 9 last7_lt (by omega)
  · intro h
    show ((outsAt7 (F := Ideal) V c (⟨0, h⟩ : Fin cfg7.N).val (⟨0, h⟩ : Fin cfg7.N).isLt).1 : Vec Ideal S1x64 .f32) (ix2 (0 : Fin 1) q) = _
    rw [outs7_first V c ⟨0, h⟩ rfl]
    refine (pay7_4_at (iblk7 V c 0 ⟨0, h⟩) (iblk7 V c 1 ⟨0, h⟩) (k7_pay1 (F := Ideal)) 0 q).trans ?_
    rw [pay7_1_at]
    refine congrArg (0 + ·) (Finset.sum_congr rfl fun r _ => ?_)
    rw [blk7_0_at V c X hX ⟨0, h⟩ r q (rowOf7 0 h r) rfl, blk7_1_at V c B hB ⟨0, h⟩ q]
  · intro n h
    have hB' : ¬(⟨n + 1, h⟩ : Fin cfg7.N).val % 10 = 0 := by dsimp only; omega
    show ((outsAt7 (F := Ideal) V c (⟨n + 1, h⟩ : Fin cfg7.N).val (⟨n + 1, h⟩ : Fin cfg7.N).isLt).1 : Vec Ideal S1x64 .f32) (ix2 (0 : Fin 1) q) = _
    rw [outs7_later V c ⟨n + 1, h⟩ hB']
    refine (pay7_4_at (iblk7 V c 0 ⟨n + 1, h⟩) (iblk7 V c 1 ⟨n + 1, h⟩) _ 0 q).trans ?_
    refine congrArg₂ (· + ·) rfl (Finset.sum_congr rfl fun r _ => ?_)
    rw [blk7_0_at V c X hX ⟨n + 1, h⟩ r q (rowOf7 (n + 1) h r) rfl, blk7_1_at V c B hB ⟨n + 1, h⟩ q]

/-- After the last point the second carried row holds, at column q, the sum of the squares over all the rows. -/
theorem sum7_3 (X : Mat 100000 64) (B : Mat 1 64) (hX : V c (Pipeline.arrRef spec7 0) = X)
    (hB : V c (Pipeline.arrRef spec7 1) = B) (q : Fin 64) :
    ((outsAt7 (F := Ideal) V c 9 last7_lt).2 : Vec Ideal S1x64 .f32) (ix2 (0 : Fin 1) q)
      = ∑ p : Fin 100000, (X (ix2 p q) + B (ix2 (0 : Fin 1) q)) * (X (ix2 p q) + B (ix2 (0 : Fin 1) q)) := by
  have hN : cfg7.N = 10 := N_7
  refine Cert.AccCols.carried_total (A := cfg7.N) (B := 10000) (N := 100000) (by omega)
    (fun p => (X (ix2 p q) + B (ix2 (0 : Fin 1) q)) * (X (ix2 p q) + B (ix2 (0 : Fin 1) q))) rowOf7 (fun _ _ _ => rfl)
    (fun n h => ((outsAt7 (F := Ideal) V c n h).2 : Vec Ideal S1x64 .f32) (ix2 (0 : Fin 1) q)) ?_ ?_ 9 last7_lt (by omega)
  · intro h
    show ((outsAt7 (F := Ideal) V c (⟨0, h⟩ : Fin cfg7.N).val (⟨0, h⟩ : Fin cfg7.N).isLt).2 : Vec Ideal S1x64 .f32) (ix2 (0 : Fin 1) q) = _
    rw [outs7_first V c ⟨0, h⟩ rfl]
    refine (pay7_5_at (iblk7 V c 0 ⟨0, h⟩) (iblk7 V c 1 ⟨0, h⟩) (k7_pay2 (F := Ideal)) 0 q).trans ?_
    rw [pay7_2_at]
    refine congrArg (0 + ·) (Finset.sum_congr rfl fun r _ => ?_)
    rw [blk7_0_at V c X hX ⟨0, h⟩ r q (rowOf7 0 h r) rfl, blk7_1_at V c B hB ⟨0, h⟩ q]
  · intro n h
    have hB' : ¬(⟨n + 1, h⟩ : Fin cfg7.N).val % 10 = 0 := by dsimp only; omega
    show ((outsAt7 (F := Ideal) V c (⟨n + 1, h⟩ : Fin cfg7.N).val (⟨n + 1, h⟩ : Fin cfg7.N).isLt).2 : Vec Ideal S1x64 .f32) (ix2 (0 : Fin 1) q) = _
    rw [outs7_later V c ⟨n + 1, h⟩ hB']
    refine (pay7_5_at (iblk7 V c 0 ⟨n + 1, h⟩) (iblk7 V c 1 ⟨n + 1, h⟩) _ 0 q).trans ?_
    refine congrArg₂ (· + ·) rfl (Finset.sum_congr rfl fun r _ => ?_)
    rw [blk7_0_at V c X hX ⟨n + 1, h⟩ r q (rowOf7 (n + 1) h r) rfl, blk7_1_at V c B hB ⟨n + 1, h⟩ q]

end run

end Stats7

/-! ## The two output arrays after the call -/

section arrays
open Stats7
variable (V : (c : Dev nD) → (b : Ref sig .tc) → Buf (Elt Ideal) ((c : Thread nD τ).loc b)) (c : Dev nD)

/-- The first output array: per column, the sum over all 100000 rows of the biased features. -/
theorem arr7_2 : ((dat7 (F := Ideal) V c).arrAt 2 cfg7.N : S1x64.Idx → EReal)
    = Cert.GcnBn.colSum (Cert.GcnBn.addRow (V c (Pipeline.arrRef spec7 0) : S100000x64.Idx → EReal)
        (V c (Pipeline.arrRef spec7 1) : S1x64.Idx → EReal)) :=
  (final7_2 (F := Ideal) V c).trans (funext fun i => by
    obtain ⟨u, q, rfl⟩ : ∃ (u : Fin 1) (q : Fin 64), i = ix2 u q := ⟨i 0, i 1, eq_ix2 i⟩
    obtain rfl : u = 0 := Subsingleton.elim _ _
    exact sum7_2 V c _ _ rfl rfl q)

/-- The second output array: per column, the sum over all 100000 rows of the squares of the biased features. -/
theorem arr7_3 : ((dat7 (F := Ideal) V c).arrAt 3 cfg7.N : S1x64.Idx → EReal)
    = Cert.GcnBn.colSumSq (Cert.GcnBn.addRow (V c (Pipeline.arrRef spec7 0) : S100000x64.Idx → EReal)
        (V c (Pipeline.arrRef spec7 1) : S1x64.Idx → EReal)) :=
  (final7_3 (F := Ideal) V c).trans (funext fun i => by
    obtain ⟨u, q, rfl⟩ : ∃ (u : Fin 1) (q : Fin 64), i = ix2 u q := ⟨i 0, i 1, eq_ix2 i⟩
    obtain rfl : u = 0 := Subsingleton.elim _ _
    exact sum7_3 V c _ _ rfl rfl q)

end arrays

end Cert.KernelIdeal.RegionValue

end
-- ==== Proof.RegionStats.lean ====
/-
  The three batch-statistics calls (layers one, two and three) read as column sums on the extended reals: for each, the
  first output array is, per column, the sum over all rows of the biased features, and the second the sum of their squares.
-/
import proofs.«148580_j42640435315163_1_alg».proof.Proof.RegionStats1
import proofs.«148580_j42640435315163_1_alg».proof.Proof.RegionStats4
import proofs.«148580_j42640435315163_1_alg».proof.Proof.RegionStats7
-- ==== Proof.RegionNorm.lean ====
/-
  The three normalise-and-rectify regions of the idealized kernel, each read as ONE function of whole arrays, on the
  extended reals, for arbitrary contents of the buffers at the region's entry.

  Each region runs over ten grid points; point `t` loads rows `10000 t … 10000 t + 9999` of the feature array and five
  whole one-row arrays (bias, mean, reciprocal deviation, scale, shift), computes entry by entry
  `max (scale · ((x + bias) − mean) · recip + shift, 0)` — the product with the scale taken first — and writes the block
  back to the same rows of the output array. An entry of the result depends on the entry of the feature array at the same
  index and on its column's entry of each row, so every block written back is the restriction of one function of the
  whole arrays, and the ten row blocks cover the output array: row `p` lies in block `p / 10000`.
-/
import proofs.«148580_j42640435315163_1_alg».proof.Proof.Gen.KernelIdeal.Frame
import proofs.«148580_j42640435315163_1_alg».proof.Proof.LibDense
import proofs.«148580_j42640435315163_1_alg».proof.Proof.Spec
import Idealize.ShloMosaic.Lib.Pipeline.Value
import Idealize.ShloMosaic.Lib.ValueLayout
import Idealize.ShloMosaic.Lib.Tactic

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic Idealize.ShloMosaic.ValueIdx

variable (V : (c : Dev nD) → (b : Ref sig .tc) → Buf (Elt Ideal) ((c : Thread nD τ).loc b)) (c : Dev nD)

/-- The zero offsets of a whole-shape rectangle of rank 2, however spelt. -/
theorem norm_zero_off : (![0, 0] : Fin 2 → Nat) = fun _ => 0 := funext fun a => by fin_cases a <;> rfl

/-- The vector unit's spelling of the normalisation: each one-row operand broadcast along the rows, the operations
    entry by entry, and the maximum with a zero splat. -/
theorem vecBnRelu {M N : ℕ} (X : FVec Ideal ⟨2, ![M, N]⟩ .f32) (b g mu inv be : FVec Ideal ⟨2, ![1, N]⟩ .f32)
    (hb : (⟨2, ![1, N]⟩ : Shape).Broadcasts ⟨2, ![M, N]⟩) :
    maximumf (addf (mulf (mulf (broadcastTo ⟨2, ![M, N]⟩ g hb) (subf (addf X (broadcastTo ⟨2, ![M, N]⟩ b hb)) (broadcastTo ⟨2, ![M, N]⟩ mu hb)))
          (broadcastTo ⟨2, ![M, N]⟩ inv hb)) (broadcastTo ⟨2, ![M, N]⟩ be hb))
        (broadcast ⟨2, ![M, N]⟩ (Scalar.ofBits (F := Ideal) .f32 0x00000000#32))
      = Cert.GcnBn.bnRelu (Cert.GcnBn.addRow X b) mu inv g be := by
  funext i
  obtain ⟨p, q, rfl⟩ : ∃ (p : Fin M) (q : Fin N), i = ix2 p q := ⟨i 0, i 1, eq_ix2 i⟩
  show max (broadcastTo ⟨2, ![M, N]⟩ g hb (ix2 p q) * ((X (ix2 p q) + broadcastTo ⟨2, ![M, N]⟩ b hb (ix2 p q)) - broadcastTo ⟨2, ![M, N]⟩ mu hb (ix2 p q))
      * broadcastTo ⟨2, ![M, N]⟩ inv hb (ix2 p q) + broadcastTo ⟨2, ![M, N]⟩ be hb (ix2 p q)) (Ideal.ofBits .f32 0x00000000#32) = _
  rw [broadcastTo_1b_ab_apply, broadcastTo_1b_ab_apply, broadcastTo_1b_ab_apply, broadcastTo_1b_ab_apply, broadcastTo_1b_ab_apply,
    Ideal.ofBits_zero_f32]
  rfl

/-- An entry of the normalised array depends on the feature array's entry at the same index and on its column's entry of
    each one-row array: if `X'` at `j` is `X` at `i`, the two indices have the same column and the rows agree, the
    results agree. -/
theorem bn_block {R M N : ℕ} (X : Cert.Dense.Mat M N) (B MU INV G BE : Cert.Dense.Mat 1 N)
    (X' : Cert.Dense.Mat R N) (B' MU' INV' G' BE' : Cert.Dense.Mat 1 N)
    (j : (⟨2, ![R, N]⟩ : Shape).Idx) (i : (⟨2, ![M, N]⟩ : Shape).Idx)
    (hX : X' j = X i) (hc : Cert.Dense.c1 j = Cert.Dense.c1 i)
    (hB : B' = B) (hMU : MU' = MU) (hINV : INV' = INV) (hG : G' = G) (hBE : BE' = BE) :
    Cert.GcnBn.bnRelu (Cert.GcnBn.addRow X' B') MU' INV' G' BE' j = Cert.GcnBn.bnRelu (Cert.GcnBn.addRow X B) MU INV G BE i := by
  subst hB hMU hINV hG hBE
  unfold Cert.GcnBn.bnRelu Cert.GcnBn.addRow Cert.GcnBn.at0
  rw [hX, hc]

/-! ## Region 2: the first layer's normalisation and rectifier -/

/-- The body's payload: the bias row added to the block's rows, the mean row subtracted, the product with the scale row
    taken first and then with the reciprocal-deviation row, the shift row added, and the maximum with zero. -/
theorem pay2 (x0 : Vec Ideal S10000x64 .f32) (b g mu inv be : Vec Ideal S1x64 .f32) :
    k2_pay1 x0 b g mu inv be = Cert.GcnBn.bnRelu (Cert.GcnBn.addRow x0 b) mu inv g be := by
  unfold k2_pay1
  simp only [shapeCast_self]
  exact vecBnRelu x0 b g mu inv be broadcasts_S1x64_S10000x64

/-- The index maps over the grid: the feature window's and the output's block index is the point itself along the rows
    and zero along the columns; the five one-row windows' is zero on both axes. -/
theorem idx_facts2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

set_option maxHeartbeats 1000000 in
/-- What point `t` writes back is rows `10000 t … 10000 t + 9999` of the normalised and rectified feature array: the
    feature block is those rows of the feature array, each one-row block is its whole one-row array. -/
theorem flushed2_eq (t : Fin cfg2.N) :
    (dat2 (F := Ideal) V c).flushed 6 t = ((cfg2.win 6).blk t).view.read (Elt Ideal)
      (Cert.GcnBn.bnRelu (Cert.GcnBn.addRow (V c (Pipeline.arrRef spec2 0) : S100000x64.Idx → EReal) (V c (Pipeline.arrRef spec2 1) : S1x64.Idx → EReal))
        (V c (Pipeline.arrRef spec2 2) : S1x64.Idx → EReal) (V c (Pipeline.arrRef spec2 3) : S1x64.Idx → EReal)
        (V c (Pipeline.arrRef spec2 4) : S1x64.Idx → EReal) (V c (Pipeline.arrRef spec2 5) : S1x64.Idx → EReal)) := by
  show (cfg2.win 6).cut (grid2.coords t) ((dat2 (F := Ideal) V c).after 6 t) = _
  rw [after2_6]
  unfold out2_6
  rw [View.canon_unit_zero norm_zero_off]
  simp only [View.ld_unit_zero (S := S10000x64) norm_zero_off, View.ld_unit_zero (S := S1x64) norm_zero_off]
  rw [pay2]
  obtain ⟨f0, f1, f2, f3, f4, f5, f6⟩ := idx_facts2 t
  have er : ∀ w : Fin 6, match w with
      | ⟨0, _⟩ => True
      | ⟨1, _⟩ => win2_1.index t (0 : Fin 2) = 0 ∧ win2_1.index t (1 : Fin 2) = 0
      | ⟨2, _⟩ => win2_2.index t (0 : Fin 2) = 0 ∧ win2_2.index t (1 : Fin 2) = 0
      | ⟨3, _⟩ => win2_3.index t (0 : Fin 2) = 0 ∧ win2_3.index t (1 : Fin 2) = 0
      | ⟨4, _⟩ => win2_4.index t (0 : Fin 2) = 0 ∧ win2_4.index t (1 : Fin 2) = 0
      | ⟨5, _⟩ => win2_5.index t (0 : Fin 2) = 0 ∧ win2_5.index t (1 : Fin 2) = 0 := fun w => by
    match w with
    | ⟨0, _⟩ => trivial
    | ⟨1, _⟩ => exact f1
    | ⟨2, _⟩ => exact f2
    | ⟨3, _⟩ => exact f3
    | ⟨4, _⟩ => exact f4
    | ⟨5, _⟩ => exact f5
  funext j
  show Cert.GcnBn.bnRelu (Cert.GcnBn.addRow (iblk2 V c 0 t) (iblk2 V c 1 t)) (iblk2 V c 2 t) (iblk2 V c 3 t) (iblk2 V c 4 t) (iblk2 V c 5 t) j
      = Cert.GcnBn.bnRelu (Cert.GcnBn.addRow (V c (Pipeline.arrRef spec2 0) : S100000x64.Idx → EReal) (V c (Pipeline.arrRef spec2 1) : S1x64.Idx → EReal))
        (V c (Pipeline.arrRef spec2 2) : S1x64.Idx → EReal) (V c (Pipeline.arrRef spec2 3) : S1x64.Idx → EReal)
        (V c (Pipeline.arrRef spec2 4) : S1x64.Idx → EReal) (V c (Pipeline.arrRef spec2 5) : S1x64.Idx → EReal)
          (((cfg2.win 6).blk t).view.emb j)
  refine bn_block _ _ _ _ _ _ _ _ _ _ _ _ j _ ?_ ?_ ?_ ?_ ?_ ?_ ?_
  · show (V c (Pipeline.arrRef spec2 0) : S100000x64.Idx → EReal) (((cfg2.win 0).blk t).view.emb j) = _
    refine congrArg (V c (Pipeline.arrRef spec2 0) : S100000x64.Idx → EReal) ?_
    funext a; apply Fin.ext
    match a with
    | ⟨0, _⟩ => show win2_0.index t (0 : Fin 2) * 10000 + 1 * (j 0).val = win2_6.index t (0 : Fin 2) * 10000 + 1 * (j 0).val; rw [f0.1, f6.1]
    | ⟨1, _⟩ => show win2_0.index t (1 : Fin 2) * 64 + 1 * (j 1).val = win2_6.index t (1 : Fin 2) * 64 + 1 * (j 1).val; rw [f0.2, f6.2]
  · apply Fin.ext
    show (j 1).val = win2_6.index t (1 : Fin 2) * 64 + 1 * (j 1).val
    rw [f6.2]; omega
  · funext y
    show (V c (Pipeline.arrRef spec2 1) : S1x64.Idx → EReal) (((cfg2.win 1).blk t).view.emb y) = _
    refine congrArg (V c (Pipeline.arrRef spec2 1) : S1x64.Idx → EReal) ?_
    funext a; apply Fin.ext
    match a with
    | ⟨0, _⟩ => show win2_1.index t (0 : Fin 2) * 1 + 1 * (y 0).val = (y 0).val; rw [(er 1).1]; omega
    | ⟨1, _⟩ => show win2_1.index t (1 : Fin 2) * 64 + 1 * (y 1).val = (y 1).val; rw [(er 1).2]; omega
  · funext y
    show (V c (Pipeline.arrRef spec2 2) : S1x64.Idx → EReal) (((cfg2.win 2).blk t).view.emb y) = _
    refine congrArg (V c (Pipeline.arrRef spec2 2) : S1x64.Idx → EReal) ?_
    funext a; apply Fin.ext
    match a with
    | ⟨0, _⟩ => show win2_2.index t (0 : Fin 2) * 1 + 1 * (y 0).val = (y 0).val; rw [(er 2).1]; omega
    | ⟨1, _⟩ => show win2_2.index t (1 : Fin 2) * 64 + 1 * (y 1).val = (y 1).val; rw [(er 2).2]; omega
  · funext y
    show (V c (Pipeline.arrRef spec2 3) : S1x64.Idx → EReal) (((cfg2.win 3).blk t).view.emb y) = _
    refine congrArg (V c (Pipeline.arrRef spec2 3) : S1x64.Idx → EReal) ?_
    funext a; apply Fin.ext
    match a with
    | ⟨0, _⟩ => show win2_3.index t (0 : Fin 2) * 1 + 1 * (y 0).val = (y 0).val; rw [(er 3).1]; omega
    | ⟨1, _⟩ => show win2_3.index t (1 : Fin 2) * 64 + 1 * (y 1).val = (y 1).val; rw [(er 3).2]; omega
  · funext y
    show (V c (Pipeline.arrRef spec2 4) : S1x64.Idx → EReal) (((cfg2.win 4).blk t).view.emb y) = _
    refine congrArg (V c (Pipeline.arrRef spec2 4) : S1x64.Idx → EReal) ?_
    funext a; apply Fin.ext
    match a with
    | ⟨0, _⟩ => show win2_4.index t (0 : Fin 2) * 1 + 1 * (y 0).val = (y 0).val; rw [(er 4).1]; omega
    | ⟨1, _⟩ => show win2_4.index t (1 : Fin 2) * 64 + 1 * (y 1).val = (y 1).val; rw [(er 4).2]; omega
  · funext y
    show (V c (Pipeline.arrRef spec2 5) : S1x64.Idx → EReal) (((cfg2.win 5).blk t).view.emb y) = _
    refine congrArg (V c (Pipeline.arrRef spec2 5) : S1x64.Idx → EReal) ?_
    funext a; apply Fin.ext
    match a with
    | ⟨0, _⟩ => show win2_5.index t (0 : Fin 2) * 1 + 1 * (y 0).val = (y 0).val; rw [(er 5).1]; omega
    | ⟨1, _⟩ => show win2_5.index t (1 : Fin 2) * 64 + 1 * (y 1).val = (y 1).val; rw [(er 5).2]; omega

/-- An index of the output array is in point `t`'s block iff each coordinate is in the block's range on its axis. -/
theorem mem_blk2 (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v63).slice (win2_6.rect t)).set ↔ _
  rw [View.set_slice_whole, Rect.mem_set_unit]
  exact Iff.rfl

/-- Every row of the output array is in some point's block: row `p` is in point `p / 10000`'s. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨f0, f1, f2, f3, f4, f5, f6⟩ := idx_facts2 t
  refine ⟨t, flush2_6 t, ?_⟩
  rw [mem_blk2]
  intro a
  match a with
  | ⟨0, _⟩ => show win2_6.index t (0 : Fin 2) * 10000 ≤ (i 0).val ∧ (i 0).val < win2_6.index t (0 : Fin 2) * 10000 + 10000
              rw [f6.1]; show (i 0).val / 10000 * 10000 ≤ (i 0).val ∧ (i 0).val < (i 0).val / 10000 * 10000 + 10000; omega
  | ⟨1, _⟩ => show win2_6.index t (1 : Fin 2) * 64 ≤ (i 1).val ∧ (i 1).val < win2_6.index t (1 : Fin 2) * 64 + 64
              rw [f6.2]; omega

/-- The output array of region 2 after the region: the feature array it finds (window 0) with the bias row (window 1)
    added to every row, normalised by the mean row (window 2) and the reciprocal-deviation row (window 3), scaled by
    window 4, shifted by window 5, and rectified. -/
theorem arr2_6 :
    ((dat2 (F := Ideal) V c).arrAt 6 cfg2.N : S100000x64.Idx → EReal)
      = Cert.GcnBn.bnRelu (Cert.GcnBn.addRow (V c (Pipeline.arrRef spec2 0) : S100000x64.Idx → EReal) (V c (Pipeline.arrRef spec2 1) : S1x64.Idx → EReal))
        (V c (Pipeline.arrRef spec2 2) : S1x64.Idx → EReal) (V c (Pipeline.arrRef spec2 3) : S1x64.Idx → EReal)
        (V c (Pipeline.arrRef spec2 4) : S1x64.Idx → EReal) (V c (Pipeline.arrRef spec2 5) : S1x64.Idx → EReal) :=
  (dat2 (F := Ideal) V c).arrAt_eq_of_cover 6 _ (fun t _ => flushed2_eq V c t) (cover2)

/-! ## Region 5: the second layer's normalisation and rectifier -/

/-- The body's payload: the bias row added to the block's rows, the mean row subtracted, the product with the scale row
    taken first and then with the reciprocal-deviation row, the shift row added, and the maximum with zero. -/
theorem pay5 (x0 : Vec Ideal S10000x64 .f32) (b g mu inv be : Vec Ideal S1x64 .f32) :
    k5_pay1 x0 b g mu inv be = Cert.GcnBn.bnRelu (Cert.GcnBn.addRow x0 b) mu inv g be := by
  unfold k5_pay1
  simp only [shapeCast_self]
  exact vecBnRelu x0 b g mu inv be broadcasts_S1x64_S10000x64

/-- The index maps over the grid: the feature window's and the output's block index is the point itself along the rows
    and zero along the columns; the five one-row windows' is zero on both axes. -/
theorem idx_facts5 : ∀ t : Fin cfg5.N,
    (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = t.val ∧ win5_6.index t (1 : Fin 2) = 0) :=
  (by decide +kernel : ∀ t : Fin grid5.N, _)

set_option maxHeartbeats 1000000 in
/-- What point `t` writes back is rows `10000 t … 10000 t + 9999` of the normalised and rectified feature array: the
    feature block is those rows of the feature array, each one-row block is its whole one-row array. -/
theorem flushed5_eq (t : Fin cfg5.N) :
    (dat5 (F := Ideal) V c).flushed 6 t = ((cfg5.win 6).blk t).view.read (Elt Ideal)
      (Cert.GcnBn.bnRelu (Cert.GcnBn.addRow (V c (Pipeline.arrRef spec5 0) : S100000x64.Idx → EReal) (V c (Pipeline.arrRef spec5 1) : S1x64.Idx → EReal))
        (V c (Pipeline.arrRef spec5 2) : S1x64.Idx → EReal) (V c (Pipeline.arrRef spec5 3) : S1x64.Idx → EReal)
        (V c (Pipeline.arrRef spec5 4) : S1x64.Idx → EReal) (V c (Pipeline.arrRef spec5 5) : S1x64.Idx → EReal)) := by
  show (cfg5.win 6).cut (grid5.coords t) ((dat5 (F := Ideal) V c).after 6 t) = _
  rw [after5_6]
  unfold out5_6
  rw [View.canon_unit_zero norm_zero_off]
  simp only [View.ld_unit_zero (S := S10000x64) norm_zero_off, View.ld_unit_zero (S := S1x64) norm_zero_off]
  rw [pay5]
  obtain ⟨f0, f1, f2, f3, f4, f5, f6⟩ := idx_facts5 t
  have er : ∀ w : Fin 6, match w with
      | ⟨0, _⟩ => True
      | ⟨1, _⟩ => win5_1.index t (0 : Fin 2) = 0 ∧ win5_1.index t (1 : Fin 2) = 0
      | ⟨2, _⟩ => win5_2.index t (0 : Fin 2) = 0 ∧ win5_2.index t (1 : Fin 2) = 0
      | ⟨3, _⟩ => win5_3.index t (0 : Fin 2) = 0 ∧ win5_3.index t (1 : Fin 2) = 0
      | ⟨4, _⟩ => win5_4.index t (0 : Fin 2) = 0 ∧ win5_4.index t (1 : Fin 2) = 0
      | ⟨5, _⟩ => win5_5.index t (0 : Fin 2) = 0 ∧ win5_5.index t (1 : Fin 2) = 0 := fun w => by
    match w with
    | ⟨0, _⟩ => trivial
    | ⟨1, _⟩ => exact f1
    | ⟨2, _⟩ => exact f2
    | ⟨3, _⟩ => exact f3
    | ⟨4, _⟩ => exact f4
    | ⟨5, _⟩ => exact f5
  funext j
  show Cert.GcnBn.bnRelu (Cert.GcnBn.addRow (iblk5 V c 0 t) (iblk5 V c 1 t)) (iblk5 V c 2 t) (iblk5 V c 3 t) (iblk5 V c 4 t) (iblk5 V c 5 t) j
      = Cert.GcnBn.bnRelu (Cert.GcnBn.addRow (V c (Pipeline.arrRef spec5 0) : S100000x64.Idx → EReal) (V c (Pipeline.arrRef spec5 1) : S1x64.Idx → EReal))
        (V c (Pipeline.arrRef spec5 2) : S1x64.Idx → EReal) (V c (Pipeline.arrRef spec5 3) : S1x64.Idx → EReal)
        (V c (Pipeline.arrRef spec5 4) : S1x64.Idx → EReal) (V c (Pipeline.arrRef spec5 5) : S1x64.Idx → EReal)
          (((cfg5.win 6).blk t).view.emb j)
  refine bn_block _ _ _ _ _ _ _ _ _ _ _ _ j _ ?_ ?_ ?_ ?_ ?_ ?_ ?_
  · show (V c (Pipeline.arrRef spec5 0) : S100000x64.Idx → EReal) (((cfg5.win 0).blk t).view.emb j) = _
    refine congrArg (V c (Pipeline.arrRef spec5 0) : S100000x64.Idx → EReal) ?_
    funext a; apply Fin.ext
    match a with
    | ⟨0, _⟩ => show win5_0.index t (0 : Fin 2) * 10000 + 1 * (j 0).val = win5_6.index t (0 : Fin 2) * 10000 + 1 * (j 0).val; rw [f0.1, f6.1]
    | ⟨1, _⟩ => show win5_0.index t (1 : Fin 2) * 64 + 1 * (j 1).val = win5_6.index t (1 : Fin 2) * 64 + 1 * (j 1).val; rw [f0.2, f6.2]
  · apply Fin.ext
    show (j 1).val = win5_6.index t (1 : Fin 2) * 64 + 1 * (j 1).val
    rw [f6.2]; omega
  · funext y
    show (V c (Pipeline.arrRef spec5 1) : S1x64.Idx → EReal) (((cfg5.win 1).blk t).view.emb y) = _
    refine congrArg (V c (Pipeline.arrRef spec5 1) : S1x64.Idx → EReal) ?_
    funext a; apply Fin.ext
    match a with
    | ⟨0, _⟩ => show win5_1.index t (0 : Fin 2) * 1 + 1 * (y 0).val = (y 0).val; rw [(er 1).1]; omega
    | ⟨1, _⟩ => show win5_1.index t (1 : Fin 2) * 64 + 1 * (y 1).val = (y 1).val; rw [(er 1).2]; omega
  · funext y
    show (V c (Pipeline.arrRef spec5 2) : S1x64.Idx → EReal) (((cfg5.win 2).blk t).view.emb y) = _
    refine congrArg (V c (Pipeline.arrRef spec5 2) : S1x64.Idx → EReal) ?_
    funext a; apply Fin.ext
    match a with
    | ⟨0, _⟩ => show win5_2.index t (0 : Fin 2) * 1 + 1 * (y 0).val = (y 0).val; rw [(er 2).1]; omega
    | ⟨1, _⟩ => show win5_2.index t (1 : Fin 2) * 64 + 1 * (y 1).val = (y 1).val; rw [(er 2).2]; omega
  · funext y
    show (V c (Pipeline.arrRef spec5 3) : S1x64.Idx → EReal) (((cfg5.win 3).blk t).view.emb y) = _
    refine congrArg (V c (Pipeline.arrRef spec5 3) : S1x64.Idx → EReal) ?_
    funext a; apply Fin.ext
    match a with
    | ⟨0, _⟩ => show win5_3.index t (0 : Fin 2) * 1 + 1 * (y 0).val = (y 0).val; rw [(er 3).1]; omega
    | ⟨1, _⟩ => show win5_3.index t (1 : Fin 2) * 64 + 1 * (y 1).val = (y 1).val; rw [(er 3).2]; omega
  · funext y
    show (V c (Pipeline.arrRef spec5 4) : S1x64.Idx → EReal) (((cfg5.win 4).blk t).view.emb y) = _
    refine congrArg (V c (Pipeline.arrRef spec5 4) : S1x64.Idx → EReal) ?_
    funext a; apply Fin.ext
    match a with
    | ⟨0, _⟩ => show win5_4.index t (0 : Fin 2) * 1 + 1 * (y 0).val = (y 0).val; rw [(er 4).1]; omega
    | ⟨1, _⟩ => show win5_4.index t (1 : Fin 2) * 64 + 1 * (y 1).val = (y 1).val; rw [(er 4).2]; omega
  · funext y
    show (V c (Pipeline.arrRef spec5 5) : S1x64.Idx → EReal) (((cfg5.win 5).blk t).view.emb y) = _
    refine congrArg (V c (Pipeline.arrRef spec5 5) : S1x64.Idx → EReal) ?_
    funext a; apply Fin.ext
    match a with
    | ⟨0, _⟩ => show win5_5.index t (0 : Fin 2) * 1 + 1 * (y 0).val = (y 0).val; rw [(er 5).1]; omega
    | ⟨1, _⟩ => show win5_5.index t (1 : Fin 2) * 64 + 1 * (y 1).val = (y 1).val; rw [(er 5).2]; omega

/-- An index of the output array is in point `t`'s block iff each coordinate is in the block's range on its axis. -/
theorem mem_blk5 (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v92).slice (win5_6.rect t)).set ↔ _
  rw [View.set_slice_whole, Rect.mem_set_unit]
  exact Iff.rfl

/-- Every row of the output array is in some point's block: row `p` is in point `p / 10000`'s. -/
theorem cover5 (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  obtain ⟨f0, f1, f2, f3, f4, f5, f6⟩ := idx_facts5 t
  refine ⟨t, flush5_6 t, ?_⟩
  rw [mem_blk5]
  intro a
  match a with
  | ⟨0, _⟩ => show win5_6.index t (0 : Fin 2) * 10000 ≤ (i 0).val ∧ (i 0).val < win5_6.index t (0 : Fin 2) * 10000 + 10000
              rw [f6.1]; show (i 0).val / 10000 * 10000 ≤ (i 0).val ∧ (i 0).val < (i 0).val / 10000 * 10000 + 10000; omega
  | ⟨1, _⟩ => show win5_6.index t (1 : Fin 2) * 64 ≤ (i 1).val ∧ (i 1).val < win5_6.index t (1 : Fin 2) * 64 + 64
              rw [f6.2]; omega

/-- The output array of region 5 after the region: the feature array it finds (window 0) with the bias row (window 1)
    added to every row, normalised by the mean row (window 2) and the reciprocal-deviation row (window 3), scaled by
    window 4, shifted by window 5, and rectified. -/
theorem arr5_6 :
    ((dat5 (F := Ideal) V c).arrAt 6 cfg5.N : S100000x64.Idx → EReal)
      = Cert.GcnBn.bnRelu (Cert.GcnBn.addRow (V c (Pipeline.arrRef spec5 0) : S100000x64.Idx → EReal) (V c (Pipeline.arrRef spec5 1) : S1x64.Idx → EReal))
        (V c (Pipeline.arrRef spec5 2) : S1x64.Idx → EReal) (V c (Pipeline.arrRef spec5 3) : S1x64.Idx → EReal)
        (V c (Pipeline.arrRef spec5 4) : S1x64.Idx → EReal) (V c (Pipeline.arrRef spec5 5) : S1x64.Idx → EReal) :=
  (dat5 (F := Ideal) V c).arrAt_eq_of_cover 6 _ (fun t _ => flushed5_eq V c t) (cover5)

/-! ## Region 8: the third layer's normalisation and rectifier -/

/-- The body's payload: the bias row added to the block's rows, the mean row subtracted, the product with the scale row
    taken first and then with the reciprocal-deviation row, the shift row added, and the maximum with zero. -/
theorem pay8 (x0 : Vec Ideal S10000x64 .f32) (b g mu inv be : Vec Ideal S1x64 .f32) :
    k8_pay1 x0 b g mu inv be = Cert.GcnBn.bnRelu (Cert.GcnBn.addRow x0 b) mu inv g be := by
  unfold k8_pay1
  simp only [shapeCast_self]
  exact vecBnRelu x0 b g mu inv be broadcasts_S1x64_S10000x64

/-- The index maps over the grid: the feature window's and the output's block index is the point itself along the rows
    and zero along the columns; the five one-row windows' is zero on both axes. -/
theorem idx_facts8 : ∀ t : Fin cfg8.N,
    (win8_0.index t (0 : Fin 2) = t.val ∧ win8_0.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = t.val ∧ win8_6.index t (1 : Fin 2) = 0) :=
  (by decide +kernel : ∀ t : Fin grid8.N, _)

set_option maxHeartbeats 1000000 in
/-- What point `t` writes back is rows `10000 t … 10000 t + 9999` of the normalised and rectified feature array: the
    feature block is those rows of the feature array, each one-row block is its whole one-row array. -/
theorem flushed8_eq (t : Fin cfg8.N) :
    (dat8 (F := Ideal) V c).flushed 6 t = ((cfg8.win 6).blk t).view.read (Elt Ideal)
      (Cert.GcnBn.bnRelu (Cert.GcnBn.addRow (V c (Pipeline.arrRef spec8 0) : S100000x64.Idx → EReal) (V c (Pipeline.arrRef spec8 1) : S1x64.Idx → EReal))
        (V c (Pipeline.arrRef spec8 2) : S1x64.Idx → EReal) (V c (Pipeline.arrRef spec8 3) : S1x64.Idx → EReal)
        (V c (Pipeline.arrRef spec8 4) : S1x64.Idx → EReal) (V c (Pipeline.arrRef spec8 5) : S1x64.Idx → EReal)) := by
  show (cfg8.win 6).cut (grid8.coords t) ((dat8 (F := Ideal) V c).after 6 t) = _
  rw [after8_6]
  unfold out8_6
  rw [View.canon_unit_zero norm_zero_off]
  simp only [View.ld_unit_zero (S := S10000x64) norm_zero_off, View.ld_unit_zero (S := S1x64) norm_zero_off]
  rw [pay8]
  obtain ⟨f0, f1, f2, f3, f4, f5, f6⟩ := idx_facts8 t
  have er : ∀ w : Fin 6, match w with
      | ⟨0, _⟩ => True
      | ⟨1, _⟩ => win8_1.index t (0 : Fin 2) = 0 ∧ win8_1.index t (1 : Fin 2) = 0
      | ⟨2, _⟩ => win8_2.index t (0 : Fin 2) = 0 ∧ win8_2.index t (1 : Fin 2) = 0
      | ⟨3, _⟩ => win8_3.index t (0 : Fin 2) = 0 ∧ win8_3.index t (1 : Fin 2) = 0
      | ⟨4, _⟩ => win8_4.index t (0 : Fin 2) = 0 ∧ win8_4.index t (1 : Fin 2) = 0
      | ⟨5, _⟩ => win8_5.index t (0 : Fin 2) = 0 ∧ win8_5.index t (1 : Fin 2) = 0 := fun w => by
    match w with
    | ⟨0, _⟩ => trivial
    | ⟨1, _⟩ => exact f1
    | ⟨2, _⟩ => exact f2
    | ⟨3, _⟩ => exact f3
    | ⟨4, _⟩ => exact f4
    | ⟨5, _⟩ => exact f5
  funext j
  show Cert.GcnBn.bnRelu (Cert.GcnBn.addRow (iblk8 V c 0 t) (iblk8 V c 1 t)) (iblk8 V c 2 t) (iblk8 V c 3 t) (iblk8 V c 4 t) (iblk8 V c 5 t) j
      = Cert.GcnBn.bnRelu (Cert.GcnBn.addRow (V c (Pipeline.arrRef spec8 0) : S100000x64.Idx → EReal) (V c (Pipeline.arrRef spec8 1) : S1x64.Idx → EReal))
        (V c (Pipeline.arrRef spec8 2) : S1x64.Idx → EReal) (V c (Pipeline.arrRef spec8 3) : S1x64.Idx → EReal)
        (V c (Pipeline.arrRef spec8 4) : S1x64.Idx → EReal) (V c (Pipeline.arrRef spec8 5) : S1x64.Idx → EReal)
          (((cfg8.win 6).blk t).view.emb j)
  refine bn_block _ _ _ _ _ _ _ _ _ _ _ _ j _ ?_ ?_ ?_ ?_ ?_ ?_ ?_
  · show (V c (Pipeline.arrRef spec8 0) : S100000x64.Idx → EReal) (((cfg8.win 0).blk t).view.emb j) = _
    refine congrArg (V c (Pipeline.arrRef spec8 0) : S100000x64.Idx → EReal) ?_
    funext a; apply Fin.ext
    match a with
    | ⟨0, _⟩ => show win8_0.index t (0 : Fin 2) * 10000 + 1 * (j 0).val = win8_6.index t (0 : Fin 2) * 10000 + 1 * (j 0).val; rw [f0.1, f6.1]
    | ⟨1, _⟩ => show win8_0.index t (1 : Fin 2) * 64 + 1 * (j 1).val = win8_6.index t (1 : Fin 2) * 64 + 1 * (j 1).val; rw [f0.2, f6.2]
  · apply Fin.ext
    show (j 1).val = win8_6.index t (1 : Fin 2) * 64 + 1 * (j 1).val
    rw [f6.2]; omega
  · funext y
    show (V c (Pipeline.arrRef spec8 1) : S1x64.Idx → EReal) (((cfg8.win 1).blk t).view.emb y) = _
    refine congrArg (V c (Pipeline.arrRef spec8 1) : S1x64.Idx → EReal) ?_
    funext a; apply Fin.ext
    match a with
    | ⟨0, _⟩ => show win8_1.index t (0 : Fin 2) * 1 + 1 * (y 0).val = (y 0).val; rw [(er 1).1]; omega
    | ⟨1, _⟩ => show win8_1.index t (1 : Fin 2) * 64 + 1 * (y 1).val = (y 1).val; rw [(er 1).2]; omega
  · funext y
    show (V c (Pipeline.arrRef spec8 2) : S1x64.Idx → EReal) (((cfg8.win 2).blk t).view.emb y) = _
    refine congrArg (V c (Pipeline.arrRef spec8 2) : S1x64.Idx → EReal) ?_
    funext a; apply Fin.ext
    match a with
    | ⟨0, _⟩ => show win8_2.index t (0 : Fin 2) * 1 + 1 * (y 0).val = (y 0).val; rw [(er 2).1]; omega
    | ⟨1, _⟩ => show win8_2.index t (1 : Fin 2) * 64 + 1 * (y 1).val = (y 1).val; rw [(er 2).2]; omega
  · funext y
    show (V c (Pipeline.arrRef spec8 3) : S1x64.Idx → EReal) (((cfg8.win 3).blk t).view.emb y) = _
    refine congrArg (V c (Pipeline.arrRef spec8 3) : S1x64.Idx → EReal) ?_
    funext a; apply Fin.ext
    match a with
    | ⟨0, _⟩ => show win8_3.index t (0 : Fin 2) * 1 + 1 * (y 0).val = (y 0).val; rw [(er 3).1]; omega
    | ⟨1, _⟩ => show win8_3.index t (1 : Fin 2) * 64 + 1 * (y 1).val = (y 1).val; rw [(er 3).2]; omega
  · funext y
    show (V c (Pipeline.arrRef spec8 4) : S1x64.Idx → EReal) (((cfg8.win 4).blk t).view.emb y) = _
    refine congrArg (V c (Pipeline.arrRef spec8 4) : S1x64.Idx → EReal) ?_
    funext a; apply Fin.ext
    match a with
    | ⟨0, _⟩ => show win8_4.index t (0 : Fin 2) * 1 + 1 * (y 0).val = (y 0).val; rw [(er 4).1]; omega
    | ⟨1, _⟩ => show win8_4.index t (1 : Fin 2) * 64 + 1 * (y 1).val = (y 1).val; rw [(er 4).2]; omega
  · funext y
    show (V c (Pipeline.arrRef spec8 5) : S1x64.Idx → EReal) (((cfg8.win 5).blk t).view.emb y) = _
    refine congrArg (V c (Pipeline.arrRef spec8 5) : S1x64.Idx → EReal) ?_
    funext a; apply Fin.ext
    match a with
    | ⟨0, _⟩ => show win8_5.index t (0 : Fin 2) * 1 + 1 * (y 0).val = (y 0).val; rw [(er 5).1]; omega
    | ⟨1, _⟩ => show win8_5.index t (1 : Fin 2) * 64 + 1 * (y 1).val = (y 1).val; rw [(er 5).2]; omega

/-- An index of the output array is in point `t`'s block iff each coordinate is in the block's range on its axis. -/
theorem mem_blk8 (t : Fin cfg8.N) (i : S100000x64.Idx) :
    i ∈ ((cfg8.win 6).blk t).view.set ↔ ∀ a : Fin 2, win8_6.index t a * S10000x64.size a ≤ (i a).val ∧ (i a).val < win8_6.index t a * S10000x64.size a + S10000x64.size a := by
  show i ∈ ((View.whole main_v121).slice (win8_6.rect t)).set ↔ _
  rw [View.set_slice_whole, Rect.mem_set_unit]
  exact Iff.rfl

/-- Every row of the output array is in some point's block: row `p` is in point `p / 10000`'s. -/
theorem cover8 (i : S100000x64.Idx) : ∃ t : Fin cfg8.N, (cfg8.win 6).flush t = true ∧ i ∈ ((cfg8.win 6).blk t).view.set := by
  have hi0 : (i 0).val < 100000 := (i 0).isLt
  have hi1 : (i 1).val < 64 := (i 1).isLt
  have hN : cfg8.N = 10 := N_8
  let t : Fin cfg8.N := ⟨(i 0).val / 10000, by rw [hN]; omega⟩
  obtain ⟨f0, f1, f2, f3, f4, f5, f6⟩ := idx_facts8 t
  refine ⟨t, flush8_6 t, ?_⟩
  rw [mem_blk8]
  intro a
  match a with
  | ⟨0, _⟩ => show win8_6.index t (0 : Fin 2) * 10000 ≤ (i 0).val ∧ (i 0).val < win8_6.index t (0 : Fin 2) * 10000 + 10000
              rw [f6.1]; show (i 0).val / 10000 * 10000 ≤ (i 0).val ∧ (i 0).val < (i 0).val / 10000 * 10000 + 10000; omega
  | ⟨1, _⟩ => show win8_6.index t (1 : Fin 2) * 64 ≤ (i 1).val ∧ (i 1).val < win8_6.index t (1 : Fin 2) * 64 + 64
              rw [f6.2]; omega

/-- The output array of region 8 after the region: the feature array it finds (window 0) with the bias row (window 1)
    added to every row, normalised by the mean row (window 2) and the reciprocal-deviation row (window 3), scaled by
    window 4, shifted by window 5, and rectified. -/
theorem arr8_6 :
    ((dat8 (F := Ideal) V c).arrAt 6 cfg8.N : S100000x64.Idx → EReal)
      = Cert.GcnBn.bnRelu (Cert.GcnBn.addRow (V c (Pipeline.arrRef spec8 0) : S100000x64.Idx → EReal) (V c (Pipeline.arrRef spec8 1) : S1x64.Idx → EReal))
        (V c (Pipeline.arrRef spec8 2) : S1x64.Idx → EReal) (V c (Pipeline.arrRef spec8 3) : S1x64.Idx → EReal)
        (V c (Pipeline.arrRef spec8 4) : S1x64.Idx → EReal) (V c (Pipeline.arrRef spec8 5) : S1x64.Idx → EReal) :=
  (dat8 (F := Ideal) V c).arrAt_eq_of_cover 6 _ (fun t _ => flushed8_eq V c t) (cover8)

end Cert.KernelIdeal.RegionValue

end
-- ==== Proof.Algebra.lean ====
import proofs.«148580_j42640435315163_1_alg».proof.Proof.Spec
import proofs.«148580_j42640435315163_1_alg».proof.Proof.LibGcnStats
import proofs.«148580_j42640435315163_1_alg».proof.Proof.LibMeanAffine

/-! The two variances agree on real data, and a layer of real data is real.

Over the reals `(Σ y²)/n − ((Σ y)/n)² = (Σ (y − μ)²)/n` when `n` is the number of summands. On the extended
reals both sides are only known to agree where every `y` is a real number (an infinite entry makes the left side
`∞ − ∞`), so the layers are compared under that hypothesis, and the hypothesis is carried from layer to layer:
a matrix product, a bias, a mean, a variance plus a positive `ε`, its reciprocal root, and a rectifier all take
real data to real data. -/

noncomputable section

namespace Cert.GcnBn

open Idealize.ShloMosaic Idealize.ShloMosaic.ValueIdx Cert.Dense Cert.GcnStats

variable {M K N : ℕ}

/-- The layer with the one-pass variance: what the kernel's three pallas_calls and the host lines between them
    compute from the layer's input `X`, for an aggregation map `agg`. -/
def layerK (n eps : EReal) (agg : Mat M N → Mat M N) (X : Mat M K) (W : Mat K N) (b g be : Mat 1 N) : Mat M N :=
  bnRelu (addRow (agg (mm X W)) b) (mean n (addRow (agg (mm X W)) b))
    (invStd eps (varOne n (addRow (agg (mm X W)) b))) g be

/-- The layer with the two-pass variance: the reference's. -/
def layerR (n eps : EReal) (agg : Mat M N → Mat M N) (X : Mat M K) (W : Mat K N) (b g be : Mat 1 N) : Mat M N :=
  bnRelu (addRow (agg (mm X W)) b) (mean n (addRow (agg (mm X W)) b))
    (invStd eps (varTwo n (addRow (agg (mm X W)) b))) g be

/-- On a column of real numbers, with `n` the number of rows, the one-pass variance is the two-pass variance. -/
theorem varOne_eq_varTwo (hM : 0 < M) (n : EReal) (hn : n = ((M : ℝ) : EReal)) (Y : Mat M N)
    (i : (⟨2, ![1, N]⟩ : Shape).Idx) (hY : ∀ p : Fin M, IsReal (Y (ix2 p (c1 i)))) :
    varOne n Y i = varTwo n Y i := by
  choose z hz using hY
  have hMne : (M : ℝ) ≠ 0 := Nat.cast_ne_zero.mpr hM.ne'
  subst hn
  unfold varOne varTwo mean colSum colSumSq
  simp only [hz, Ideal.div_coe hMne, ← EReal.coe_mul, ← Cert.MeanAffine.coe_sum, ← EReal.coe_sub]
  exact congrArg _ (real_var hM z _ rfl)

/-- The mean of a real column over a nonzero real count is real. -/
theorem isReal_mean (hM : 0 < M) (n : EReal) (hn : n = ((M : ℝ) : EReal)) (Y : Mat M N)
    (i : (⟨2, ![1, N]⟩ : Shape).Idx) (hY : ∀ p : Fin M, IsReal (Y (ix2 p (c1 i)))) : IsReal (mean n Y i) := by
  subst hn
  exact isReal_div_coe (isReal_sum _ _ fun p _ => hY p) (Nat.cast_ne_zero.mpr hM.ne')

/-- The two-pass variance of a real column is a nonnegative real. -/
theorem varTwo_real_nonneg (hM : 0 < M) (n : EReal) (hn : n = ((M : ℝ) : EReal)) (Y : Mat M N)
    (i : (⟨2, ![1, N]⟩ : Shape).Idx) (hY : ∀ p : Fin M, IsReal (Y (ix2 p (c1 i)))) :
    IsReal (varTwo n Y i) ∧ 0 ≤ varTwo n Y i := by
  choose z hz using hY
  have hMne : (M : ℝ) ≠ 0 := Nat.cast_ne_zero.mpr hM.ne'
  have hMpos : (0 : ℝ) < (M : ℝ) := Nat.cast_pos.mpr hM
  subst hn
  unfold varTwo mean colSum
  simp only [hz, Ideal.div_coe hMne, ← EReal.coe_mul, ← Cert.MeanAffine.coe_sum, ← EReal.coe_sub]
  refine ⟨isReal_coe _, ?_⟩
  rw [← EReal.coe_zero, EReal.coe_le_coe_iff]
  exact mul_nonneg (Finset.sum_nonneg fun p _ => mul_self_nonneg _) (by positivity)

/-- The larger of a real number and zero is real. -/
theorem isReal_max_zero {a : EReal} (ha : IsReal a) : IsReal (max a 0) := by
  rcases le_total a 0 with h | h
  · rw [max_eq_right h]; exact isReal_zero
  · rw [max_eq_left h]; exact ha

/-- The reciprocal root of a nonnegative real plus a positive real is real. -/
theorem isReal_invStd (eps : EReal) (heps : IsReal eps) (hpos : 0 < eps) (v : Mat 1 N)
    (i : (⟨2, ![1, N]⟩ : Shape).Idx) (hv : IsReal (v i)) (h0 : 0 ≤ v i) : IsReal (invStd eps v i) := by
  unfold invStd
  exact isReal_rsqrt_pos (hv.add heps) (lt_of_lt_of_le hpos (le_add_of_nonneg_left h0))

/-- A matrix product of real arrays is real. -/
theorem isReal_mm (X : Mat M K) (W : Mat K N) (hX : ∀ i, IsReal (X i)) (hW : ∀ i, IsReal (W i)) :
    ∀ i, IsReal (mm X W i) := by
  intro i
  obtain ⟨p, q, rfl⟩ : ∃ (p : Fin M) (q : Fin N), i = ix2 p q := ⟨c0 i, c1 i, eq_ix2 i⟩
  rw [mm_apply]
  exact isReal_sum _ _ fun k _ => (hX _).mul (hW _)

/-- Where the data are real the two layers are one function, and that function's values are real. -/
theorem layerK_eq_layerR (hM : 0 < M) (n eps : EReal) (hn : n = ((M : ℝ) : EReal)) (heps : IsReal eps)
    (hpos : 0 < eps) (agg : Mat M N → Mat M N) (X : Mat M K) (W : Mat K N) (b g be : Mat 1 N)
    (hY : ∀ i, IsReal (addRow (agg (mm X W)) b i)) (hg : ∀ i, IsReal (g i)) (hbe : ∀ i, IsReal (be i)) :
    layerK n eps agg X W b g be = layerR n eps agg X W b g be ∧ ∀ i, IsReal (layerR n eps agg X W b g be i) := by
  have hv : varOne n (addRow (agg (mm X W)) b) = varTwo n (addRow (agg (mm X W)) b) :=
    funext fun i => varOne_eq_varTwo hM n hn _ i fun p => hY _
  refine ⟨by unfold layerK layerR; rw [hv], fun i => ?_⟩
  unfold layerR bnRelu
  have hcol : ∀ p : Fin M, IsReal (addRow (agg (mm X W)) b (ix2 p (c1 (ix2 (0 : Fin 1) (c1 i))))) := fun p => hY _
  obtain ⟨hvr, hv0⟩ := varTwo_real_nonneg hM n hn (addRow (agg (mm X W)) b) (ix2 (0 : Fin 1) (c1 i)) hcol
  exact isReal_max_zero ((((hg _).mul ((hY i).sub (isReal_mean hM n hn _ _ hcol))).mul
    (isReal_invStd eps heps hpos _ _ hvr hv0)).add (hbe _))

end Cert.GcnBn

end
-- ==== Proof.KLayer1.lean ====
import proofs.«148580_j42640435315163_1_alg».proof.Proof.Gen.KernelIdeal.Frame
import proofs.«148580_j42640435315163_1_alg».proof.Proof.KStretch1
import proofs.«148580_j42640435315163_1_alg».proof.Proof.RegionMatmul
import proofs.«148580_j42640435315163_1_alg».proof.Proof.RegionStats
import proofs.«148580_j42640435315163_1_alg».proof.Proof.RegionNorm
import proofs.«148580_j42640435315163_1_alg».proof.Proof.Algebra

/-! The first layer of the kernel's program read from the buffer contents at its first pallas_call's entry to the
contents at its third pallas_call's exit: the matrix product (call one), the host's aggregation and bias row, the
column sums and sums of squares (call two), the host's mean, one-pass variance and reciprocal deviation, and the
normalisation with the rectifier (call three) compose to the layer function `layerK`; the edge list, the
coefficients and the later layers' parameters pass through untouched. -/

noncomputable section

namespace Cert.KernelIdeal.KLayer

open Idealize.ShloMosaic Idealize.ShloMosaic.TcCoe Idealize.SL.Sem Idealize.ShloMosaic.StableHlo
open Cert.KernelIdeal Cert.KernelIdeal.Gen Cert.KernelIdeal.KHost Cert.KernelIdeal.KStretch
open Cert.KernelIdeal.RegionValue Cert.Dense Cert.GcnBn

/-- A stretch of host operations leaves a buffer none of them writes. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- A buffer that the first layer neither writes on the host nor binds to a window keeps its contents. -/
macro "carry1" : tactic =>
  `(tactic| (
      refine Eq.trans (W10_of_ne _ _ _ _ (by decide)) ?_
      refine Eq.trans (by not_written hostOps2) ?_
      refine Eq.trans (W8_of_ne _ _ _ _ (by decide)) ?_
      refine Eq.trans (by not_written hostOps1) ?_
      exact W6_of_ne _ _ _ _ (by decide)))

theorem keep1_v5 : W10 m ρ c (Proc.devRef .tc main_v5) = W5 m ρ c (Proc.devRef .tc main_v5) := by carry1
theorem keep1_v6 : W10 m ρ c (Proc.devRef .tc main_v6) = W5 m ρ c (Proc.devRef .tc main_v6) := by carry1
theorem keep1_v34 : W10 m ρ c (Proc.devRef .tc main_v34) = W5 m ρ c (Proc.devRef .tc main_v34) := by carry1
theorem keep1_arg6 : W10 m ρ c (Proc.devRef .tc main_arg6) = W5 m ρ c (Proc.devRef .tc main_arg6) := by carry1
theorem keep1_arg7 : W10 m ρ c (Proc.devRef .tc main_arg7) = W5 m ρ c (Proc.devRef .tc main_arg7) := by carry1
theorem keep1_arg8 : W10 m ρ c (Proc.devRef .tc main_arg8) = W5 m ρ c (Proc.devRef .tc main_arg8) := by carry1
theorem keep1_arg9 : W10 m ρ c (Proc.devRef .tc main_arg9) = W5 m ρ c (Proc.devRef .tc main_arg9) := by carry1
theorem keep1_arg10 : W10 m ρ c (Proc.devRef .tc main_arg10) = W5 m ρ c (Proc.devRef .tc main_arg10) := by carry1
theorem keep1_arg11 : W10 m ρ c (Proc.devRef .tc main_arg11) = W5 m ρ c (Proc.devRef .tc main_arg11) := by carry1
theorem keep1_arg12 : W10 m ρ c (Proc.devRef .tc main_arg12) = W5 m ρ c (Proc.devRef .tc main_arg12) := by carry1
theorem keep1_arg13 : W10 m ρ c (Proc.devRef .tc main_arg13) = W5 m ρ c (Proc.devRef .tc main_arg13) := by carry1

/-- The first layer. -/
theorem layer1 :
    (W10 m ρ c (Proc.devRef .tc main_v63) : S100000x64.Idx → EReal)
      = layerK (M := 100000) (K := 128) (N := 64) nW epsW
          (aggK (W5 m ρ c (Proc.devRef .tc main_v5)) (W5 m ρ c (Proc.devRef .tc main_v6))
            (W5 m ρ c (Proc.devRef .tc main_v34)))
          (W5 m ρ c (Proc.devRef .tc main_arg0)) (W5 m ρ c (Proc.devRef .tc main_arg2))
          (row (W5 m ρ c (Proc.devRef .tc main_arg3))) (row (W5 m ρ c (Proc.devRef .tc main_arg4)))
          (row (W5 m ρ c (Proc.devRef .tc main_arg5))) := by
  -- call one: the matrix product
  have hH : (W6 m ρ c (Proc.devRef .tc main_v35) : S100000x64.Idx → EReal)
      = mm (W5 m ρ c (Proc.devRef .tc main_arg0)) (W5 m ρ c (Proc.devRef .tc main_arg2)) :=
    (W6_arr m ρ c 2).trans (arr0_2 (V5 m ρ) c)
  -- the host's aggregation and bias row
  have e5 : W6 m ρ c (Proc.devRef .tc main_v5) = W5 m ρ c (Proc.devRef .tc main_v5) := W6_of_ne m ρ c main_v5 (by decide)
  have e6 : W6 m ρ c (Proc.devRef .tc main_v6) = W5 m ρ c (Proc.devRef .tc main_v6) := W6_of_ne m ρ c main_v6 (by decide)
  have e34 : W6 m ρ c (Proc.devRef .tc main_v34) = W5 m ρ c (Proc.devRef .tc main_v34) := W6_of_ne m ρ c main_v34 (by decide)
  have e3 : W6 m ρ c (Proc.devRef .tc main_arg3) = W5 m ρ c (Proc.devRef .tc main_arg3) := W6_of_ne m ρ c main_arg3 (by decide)
  have hA : (W7 m ρ c (Proc.devRef .tc main_v48) : S100000x64.Idx → EReal)
      = aggK (W5 m ρ c (Proc.devRef .tc main_v5)) (W5 m ρ c (Proc.devRef .tc main_v6))
          (W5 m ρ c (Proc.devRef .tc main_v34))
          (mm (W5 m ρ c (Proc.devRef .tc main_arg0)) (W5 m ρ c (Proc.devRef .tc main_arg2))) := by
    refine (h1_agg (W6 m ρ c)).trans ?_
    rw [e5, e6, e34, hH]
  have hb : (W7 m ρ c (Proc.devRef .tc main_v49) : S1x64.Idx → EReal) = row (W5 m ρ c (Proc.devRef .tc main_arg3)) := by
    refine (h1_brow (W6 m ρ c)).trans ?_
    rw [e3]; exact shapeCast_row _ _
  -- call two: the column sums and sums of squares of Y = aggregation + bias row
  have hs : (W8 m ρ c (Proc.devRef .tc main_v50_0) : S1x64.Idx → EReal)
      = colSum (addRow (W7 m ρ c (Proc.devRef .tc main_v48)) (W7 m ρ c (Proc.devRef .tc main_v49))) :=
    (W8_arr m ρ c 2).trans (arr1_2 (V7 m ρ) c)
  have hq : (W8 m ρ c (Proc.devRef .tc main_v50_1) : S1x64.Idx → EReal)
      = colSumSq (addRow (W7 m ρ c (Proc.devRef .tc main_v48)) (W7 m ρ c (Proc.devRef .tc main_v49))) :=
    (W8_arr m ρ c 3).trans (arr1_3 (V7 m ρ) c)
  have hA8 : W8 m ρ c (Proc.devRef .tc main_v48) = W7 m ρ c (Proc.devRef .tc main_v48) :=
    (W8_arr m ρ c 0).trans (((dat1 (V7 m ρ) c).arrAt_in 0 rfl _).trans (A_eq1 (V7 m ρ) c 0))
  have f3 : W8 m ρ c (Proc.devRef .tc main_arg3) = W5 m ρ c (Proc.devRef .tc main_arg3) :=
    (W8_of_ne m ρ c main_arg3 (by decide)).trans ((by not_written hostOps1 : W7 m ρ c (Proc.devRef .tc main_arg3) = W6 m ρ c (Proc.devRef .tc main_arg3)).trans e3)
  have f4 : W8 m ρ c (Proc.devRef .tc main_arg4) = W5 m ρ c (Proc.devRef .tc main_arg4) :=
    (W8_of_ne m ρ c main_arg4 (by decide)).trans ((by not_written hostOps1 : W7 m ρ c (Proc.devRef .tc main_arg4) = W6 m ρ c (Proc.devRef .tc main_arg4)).trans (W6_of_ne m ρ c main_arg4 (by decide)))
  have f5 : W8 m ρ c (Proc.devRef .tc main_arg5) = W5 m ρ c (Proc.devRef .tc main_arg5) :=
    (W8_of_ne m ρ c main_arg5 (by decide)).trans ((by not_written hostOps1 : W7 m ρ c (Proc.devRef .tc main_arg5) = W6 m ρ c (Proc.devRef .tc main_arg5)).trans (W6_of_ne m ρ c main_arg5 (by decide)))
  rw [hA, hb] at hs hq
  -- the host's statistics and parameter rows
  have hmu := h2_mean (W8 m ρ c) _ hs
  have hinv := h2_inv (W8 m ρ c) _ hs hq
  have hb2 : (W9 m ρ c (Proc.devRef .tc main_v60) : S1x64.Idx → EReal) = row (W5 m ρ c (Proc.devRef .tc main_arg3)) := by
    refine (h2_b (W8 m ρ c)).trans ?_
    rw [f3]; exact shapeCast_row _ _
  have hg2 : (W9 m ρ c (Proc.devRef .tc main_v61) : S1x64.Idx → EReal) = row (W5 m ρ c (Proc.devRef .tc main_arg4)) := by
    refine (h2_g (W8 m ρ c)).trans ?_
    rw [f4]; exact shapeCast_row _ _
  have hbe2 : (W9 m ρ c (Proc.devRef .tc main_v62) : S1x64.Idx → EReal) = row (W5 m ρ c (Proc.devRef .tc main_arg5)) := by
    refine (h2_be (W8 m ρ c)).trans ?_
    rw [f5]; exact shapeCast_row _ _
  have hA9 : W9 m ρ c (Proc.devRef .tc main_v48) = W7 m ρ c (Proc.devRef .tc main_v48) :=
    (by not_written hostOps2 : W9 m ρ c (Proc.devRef .tc main_v48) = W8 m ρ c (Proc.devRef .tc main_v48)).trans hA8
  -- call three: the normalisation and the rectifier
  refine ((W10_arr m ρ c 6).trans (arr2_6 (V9 m ρ) c)).trans ?_
  show bnRelu (addRow (W9 m ρ c (Proc.devRef .tc main_v48)) (W9 m ρ c (Proc.devRef .tc main_v60)))
      (W9 m ρ c (Proc.devRef .tc main_v52)) (W9 m ρ c (Proc.devRef .tc main_v59))
      (W9 m ρ c (Proc.devRef .tc main_v61)) (W9 m ρ c (Proc.devRef .tc main_v62)) = _
  rw [hA9, hA, hb2, hg2, hbe2]
  refine (congrArg₂ (fun a b => bnRelu _ a b _ _) hmu hinv).trans ?_
  rfl

end Cert.KernelIdeal.KLayer

end
-- ==== Proof.KStretch2.lean ====
import proofs.«148580_j42640435315163_1_alg».proof.Proof.Gen.KernelIdeal.Launch
import proofs.«148580_j42640435315163_1_alg».proof.Proof.KHost
import proofs.«148580_j42640435315163_1_alg».proof.Proof.Spec
import Idealize.ShloMosaic.Lib.StableHlo.Run
import proofs.«148580_j42640435315163_1_alg».proof.Proof.KStretch1

/-! The host lines around the second layer's pallas_calls, each stretch read over an arbitrary valuation of the
buffers: the aggregation and the bias row before the statistics call; the mean, the one-pass variance, the
reciprocal deviation and the three parameter rows before the normalising call. -/

noncomputable section

namespace Cert.KernelIdeal.KStretch

open Idealize.ShloMosaic Idealize.ShloMosaic.TcCoe Idealize.SL.Sem Idealize.ShloMosaic.StableHlo
open Cert.KernelIdeal Cert.KernelIdeal.Gen Cert.KernelIdeal.KHost Cert.Dense Cert.GcnBn

set_option maxHeartbeats 1000000 in
theorem h4_agg (V : Valuation τ sig (Elt Ideal)) :
    after (hostOps4 (F := Ideal)) V (main_v77 : DevRef τ sig)
      = aggK (V (main_v5 : DevRef τ sig)) (V (main_v6 : DevRef τ sig)) (V (main_v34 : DevRef τ sig))
          (V (main_v64 : DevRef τ sig)) := by
  after_results_simp
  rfl

theorem h4_brow (V : Valuation τ sig (Elt Ideal)) :
    after (hostOps4 (F := Ideal)) V (main_v78 : DevRef τ sig)
      = shapeCast S1x64 (V (main_arg7 : DevRef τ sig)) shapeCasts_S64_S1x64 := by
  after_results_simp
  rfl

theorem h5_mean (V : Valuation τ sig (Elt Ideal)) (Y : Mat 100000 64)
    (hs : V (main_v79_0 : DevRef τ sig) = colSum Y) :
    after (hostOps5 (F := Ideal)) V (main_v81 : DevRef τ sig) = mean nW Y := by
  after_results_simp
  rw [hs]
  rfl

theorem h5_inv (V : Valuation τ sig (Elt Ideal)) (Y : Mat 100000 64)
    (hs : V (main_v79_0 : DevRef τ sig) = colSum Y) (hq : V (main_v79_1 : DevRef τ sig) = colSumSq Y) :
    after (hostOps5 (F := Ideal)) V (main_v88 : DevRef τ sig) = invStd epsW (varOne nW Y) := by
  after_results_simp
  rw [hs, hq]
  rfl

theorem h5_b (V : Valuation τ sig (Elt Ideal)) :
    after (hostOps5 (F := Ideal)) V (main_v89 : DevRef τ sig)
      = shapeCast S1x64 (V (main_arg7 : DevRef τ sig)) shapeCasts_S64_S1x64 := by
  after_results_simp
  rfl

theorem h5_g (V : Valuation τ sig (Elt Ideal)) :
    after (hostOps5 (F := Ideal)) V (main_v90 : DevRef τ sig)
      = shapeCast S1x64 (V (main_arg8 : DevRef τ sig)) shapeCasts_S64_S1x64 := by
  after_results_simp
  rfl

theorem h5_be (V : Valuation τ sig (Elt Ideal)) :
    after (hostOps5 (F := Ideal)) V (main_v91 : DevRef τ sig)
      = shapeCast S1x64 (V (main_arg9 : DevRef τ sig)) shapeCasts_S64_S1x64 := by
  after_results_simp
  rfl

end Cert.KernelIdeal.KStretch

end
-- ==== Proof.KLayer2.lean ====
import proofs.«148580_j42640435315163_1_alg».proof.Proof.Gen.KernelIdeal.Frame
import proofs.«148580_j42640435315163_1_alg».proof.Proof.KStretch2
import proofs.«148580_j42640435315163_1_alg».proof.Proof.KLayer1
import proofs.«148580_j42640435315163_1_alg».proof.Proof.RegionMatmul
import proofs.«148580_j42640435315163_1_alg».proof.Proof.RegionStats
import proofs.«148580_j42640435315163_1_alg».proof.Proof.RegionNorm
import proofs.«148580_j42640435315163_1_alg».proof.Proof.Algebra

/-! The second layer of the kernel's program read from the buffer contents at its first pallas_call's entry to the
contents at its third pallas_call's exit: the matrix product (call one), the host's aggregation and bias row, the
column sums and sums of squares (call two), the host's mean, one-pass variance and reciprocal deviation, and the
normalisation with the rectifier (call three) compose to the layer function `layerK`; the edge list, the
coefficients and the later layers' parameters pass through untouched. -/

noncomputable section

namespace Cert.KernelIdeal.KLayer

open Idealize.ShloMosaic Idealize.ShloMosaic.TcCoe Idealize.SL.Sem Idealize.ShloMosaic.StableHlo
open Cert.KernelIdeal Cert.KernelIdeal.Gen Cert.KernelIdeal.KHost Cert.KernelIdeal.KStretch
open Cert.KernelIdeal.RegionValue Cert.Dense Cert.GcnBn

variable (m : (ℓ : Loc nD τ sig) → Buf (Elt Ideal) ℓ) (ρ : Dev nD → PrngReg) (c : Dev nD)

/-- A buffer that the second layer neither writes on the host nor binds to a window keeps its contents. -/
macro "carry2" : tactic =>
  `(tactic| (
      refine Eq.trans (W15_of_ne _ _ _ _ (by decide)) ?_
      refine Eq.trans (by not_written hostOps5) ?_
      refine Eq.trans (W13_of_ne _ _ _ _ (by decide)) ?_
      refine Eq.trans (by not_written hostOps4) ?_
      exact W11_of_ne _ _ _ _ (by decide)))

theorem keep2_v5 : W15 m ρ c (Proc.devRef .tc main_v5) = W10 m ρ c (Proc.devRef .tc main_v5) := by carry2
theorem keep2_v6 : W15 m ρ c (Proc.devRef .tc main_v6) = W10 m ρ c (Proc.devRef .tc main_v6) := by carry2
theorem keep2_v34 : W15 m ρ c (Proc.devRef .tc main_v34) = W10 m ρ c (Proc.devRef .tc main_v34) := by carry2
theorem keep2_arg10 : W15 m ρ c (Proc.devRef .tc main_arg10) = W10 m ρ c (Proc.devRef .tc main_arg10) := by carry2
theorem keep2_arg11 : W15 m ρ c (Proc.devRef .tc main_arg11) = W10 m ρ c (Proc.devRef .tc main_arg11) := by carry2
theorem keep2_arg12 : W15 m ρ c (Proc.devRef .tc main_arg12) = W10 m ρ c (Proc.devRef .tc main_arg12) := by carry2
theorem keep2_arg13 : W15 m ρ c (Proc.devRef .tc main_arg13) = W10 m ρ c (Proc.devRef .tc main_arg13) := by carry2

/-- The second layer. -/
theorem layer2 :
    (W15 m ρ c (Proc.devRef .tc main_v92) : S100000x64.Idx → EReal)
      = layerK (M := 100000) (K := 64) (N := 64) nW epsW
          (aggK (W10 m ρ c (Proc.devRef .tc main_v5)) (W10 m ρ c (Proc.devRef .tc main_v6))
            (W10 m ρ c (Proc.devRef .tc main_v34)))
          (W10 m ρ c (Proc.devRef .tc main_v63)) (W10 m ρ c (Proc.devRef .tc main_arg6))
          (row (W10 m ρ c (Proc.devRef .tc main_arg7))) (row (W10 m ρ c (Proc.devRef .tc main_arg8)))
          (row (W10 m ρ c (Proc.devRef .tc main_arg9))) := by
  -- call one: the matrix product
  have hH : (W11 m ρ c (Proc.devRef .tc main_v64) : S100000x64.Idx → EReal)
      = mm (W10 m ρ c (Proc.devRef .tc main_v63)) (W10 m ρ c (Proc.devRef .tc main_arg6)) :=
    (W11_arr m ρ c 2).trans (arr3_2 (V10 m ρ) c)
  -- the host's aggregation and bias row
  have e5 : W11 m ρ c (Proc.devRef .tc main_v5) = W10 m ρ c (Proc.devRef .tc main_v5) := W11_of_ne m ρ c main_v5 (by decide)
  have e6 : W11 m ρ c (Proc.devRef .tc main_v6) = W10 m ρ c (Proc.devRef .tc main_v6) := W11_of_ne m ρ c main_v6 (by decide)
  have e34 : W11 m ρ c (Proc.devRef .tc main_v34) = W10 m ρ c (Proc.devRef .tc main_v34) := W11_of_ne m ρ c main_v34 (by decide)
  have e3 : W11 m ρ c (Proc.devRef .tc main_arg7) = W10 m ρ c (Proc.devRef .tc main_arg7) := W11_of_ne m ρ c main_arg7 (by decide)
  have hA : (W12 m ρ c (Proc.devRef .tc main_v77) : S100000x64.Idx → EReal)
      = aggK (W10 m ρ c (Proc.devRef .tc main_v5)) (W10 m ρ c (Proc.devRef .tc main_v6))
          (W10 m ρ c (Proc.devRef .tc main_v34))
          (mm (W10 m ρ c (Proc.devRef .tc main_v63)) (W10 m ρ c (Proc.devRef .tc main_arg6))) := by
    refine (h4_agg (W11 m ρ c)).trans ?_
    rw [e5, e6, e34, hH]
  have hb : (W12 m ρ c (Proc.devRef .tc main_v78) : S1x64.Idx → EReal) = row (W10 m ρ c (Proc.devRef .tc main_arg7)) := by
    refine (h4_brow (W11 m ρ c)).trans ?_
    rw [e3]; exact shapeCast_row _ _
  -- call two: the column sums and sums of squares of Y = aggregation + bias row
  have hs : (W13 m ρ c (Proc.devRef .tc main_v79_0) : S1x64.Idx → EReal)
      = colSum (addRow (W12 m ρ c (Proc.devRef .tc main_v77)) (W12 m ρ c (Proc.devRef .tc main_v78))) :=
    (W13_arr m ρ c 2).trans (arr4_2 (V12 m ρ) c)
  have hq : (W13 m ρ c (Proc.devRef .tc main_v79_1) : S1x64.Idx → EReal)
      = colSumSq (addRow (W12 m ρ c (Proc.devRef .tc main_v77)) (W12 m ρ c (Proc.devRef .tc main_v78))) :=
    (W13_arr m ρ c 3).trans (arr4_3 (V12 m ρ) c)
  have hA8 : W13 m ρ c (Proc.devRef .tc main_v77) = W12 m ρ c (Proc.devRef .tc main_v77) :=
    (W13_arr m ρ c 0).trans (((dat4 (V12 m ρ) c).arrAt_in 0 rfl _).trans (A_eq4 (V12 m ρ) c 0))
  have f3 : W13 m ρ c (Proc.devRef .tc main_arg7) = W10 m ρ c (Proc.devRef .tc main_arg7) :=
    (W13_of_ne m ρ c main_arg7 (by decide)).trans ((by not_written hostOps4 : W12 m ρ c (Proc.devRef .tc main_arg7) = W11 m ρ c (Proc.devRef .tc main_arg7)).trans e3)
  have f4 : W13 m ρ c (Proc.devRef .tc main_arg8) = W10 m ρ c (Proc.devRef .tc main_arg8) :=
    (W13_of_ne m ρ c main_arg8 (by decide)).trans ((by not_written hostOps4 : W12 m ρ c (Proc.devRef .tc main_arg8) = W11 m ρ c (Proc.devRef .tc main_arg8)).trans (W11_of_ne m ρ c main_arg8 (by decide)))
  have f5 : W13 m ρ c (Proc.devRef .tc main_arg9) = W10 m ρ c (Proc.devRef .tc main_arg9) :=
    (W13_of_ne m ρ c main_arg9 (by decide)).trans ((by not_written hostOps4 : W12 m ρ c (Proc.devRef .tc main_arg9) = W11 m ρ c (Proc.devRef .tc main_arg9)).trans (W11_of_ne m ρ c main_arg9 (by decide)))
  rw [hA, hb] at hs hq
  -- the host's statistics and parameter rows
  have hmu := h5_mean (W13 m ρ c) _ hs
  have hinv := h5_inv (W13 m ρ c) _ hs hq
  have hb2 : (W14 m ρ c (Proc.devRef .tc main_v89) : S1x64.Idx → EReal) = row (W10 m ρ c (Proc.devRef .tc main_arg7)) := by
    refine (h5_b (W13 m ρ c)).trans ?_
    rw [f3]; exact shapeCast_row _ _
  have hg2 : (W14 m ρ c (Proc.devRef .tc main_v90) : S1x64.Idx → EReal) = row (W10 m ρ c (Proc.devRef .tc main_arg8)) := by
    refine (h5_g (W13 m ρ c)).trans ?_
    rw [f4]; exact shapeCast_row _ _
  have hbe2 : (W14 m ρ c (Proc.devRef .tc main_v91) : S1x64.Idx → EReal) = row (W10 m ρ c (Proc.devRef .tc main_arg9)) := by
    refine (h5_be (W13 m ρ c)).trans ?_
    rw [f5]; exact shapeCast_row _ _
  have hA9 : W14 m ρ c (Proc.devRef .tc main_v77) = W12 m ρ c (Proc.devRef .tc main_v77) :=
    (by not_written hostOps5 : W14 m ρ c (Proc.devRef .tc main_v77) = W13 m ρ c (Proc.devRef .tc main_v77)).trans hA8
  -- call three: the normalisation and the rectifier
  refine ((W15_arr m ρ c 6).trans (arr5_6 (V14 m ρ) c)).trans ?_
  show bnRelu (addRow (W14 m ρ c (Proc.devRef .tc main_v77)) (W14 m ρ c (Proc.devRef .tc main_v89)))
      (W14 m ρ c (Proc.devRef .tc main_v81)) (W14 m ρ c (Proc.devRef .tc main_v88))
      (W14 m ρ c (Proc.devRef .tc main_v90)) (W14 m ρ c (Proc.devRef .tc main_v91)) = _
  rw [hA9, hA, hb2, hg2, hbe2]
  refine (congrArg₂ (fun a b => bnRelu _ a b _ _) hmu hinv).trans ?_
  rfl

end Cert.KernelIdeal.KLayer

end
-- ==== Proof.KStretch3.lean ====
import proofs.«148580_j42640435315163_1_alg».proof.Proof.Gen.KernelIdeal.Launch
import proofs.«148580_j42640435315163_1_alg».proof.Proof.KHost
import proofs.«148580_j42640435315163_1_alg».proof.Proof.Spec
import Idealize.ShloMosaic.Lib.StableHlo.Run
import proofs.«148580_j42640435315163_1_alg».proof.Proof.KStretch1

/-! The host lines around the third layer's pallas_calls, each stretch read over an arbitrary valuation of the
buffers: the aggregation and the bias row before the statistics call; the mean, the one-pass variance, the
reciprocal deviation and the three parameter rows before the normalising call. -/

noncomputable section

namespace Cert.KernelIdeal.KStretch

open Idealize.ShloMosaic Idealize.ShloMosaic.TcCoe Idealize.SL.Sem Idealize.ShloMosaic.StableHlo
open Cert.KernelIdeal Cert.KernelIdeal.Gen Cert.KernelIdeal.KHost Cert.Dense Cert.GcnBn

set_option maxHeartbeats 1000000 in
theorem h7_agg (V : Valuation τ sig (Elt Ideal)) :
    after (hostOps7 (F := Ideal)) V (main_v106 : DevRef τ sig)
      = aggK (V (main_v5 : DevRef τ sig)) (V (main_v6 : DevRef τ sig)) (V (main_v34 : DevRef τ sig))
          (V (main_v93 : DevRef τ sig)) := by
  after_results_simp
  rfl

theorem h7_brow (V : Valuation τ sig (Elt Ideal)) :
    after (hostOps7 (F := Ideal)) V (main_v107 : DevRef τ sig)
      = shapeCast S1x64 (V (main_arg11 : DevRef τ sig)) shapeCasts_S64_S1x64 := by
  after_results_simp
  rfl

theorem h8_mean (V : Valuation τ sig (Elt Ideal)) (Y : Mat 100000 64)
    (hs : V (main_v108_0 : DevRef τ sig) = colSum Y) :
    after (hostOps8 (F := Ideal)) V (main_v110 : DevRef τ sig) = mean nW Y := by
  after_results_simp
  rw [hs]
  rfl

theorem h8_inv (V : Valuation τ sig (Elt Ideal)) (Y : Mat 100000 64)
    (hs : V (main_v108_0 : DevRef τ sig) = colSum Y) (hq : V (main_v108_1 : DevRef τ sig) = colSumSq Y) :
    after (hostOps8 (F := Ideal)) V (main_v117 : DevRef τ sig) = invStd epsW (varOne nW Y) := by
  after_results_simp
  rw [hs, hq]
  rfl

theorem h8_b (V : Valuation τ sig (Elt Ideal)) :
    after (hostOps8 (F := Ideal)) V (main_v118 : DevRef τ sig)
      = shapeCast S1x64 (V (main_arg11 : DevRef τ sig)) shapeCasts_S64_S1x64 := by
  after_results_simp
  rfl

theorem h8_g (V : Valuation τ sig (Elt Ideal)) :
    after (hostOps8 (F := Ideal)) V (main_v119 : DevRef τ sig)
      = shapeCast S1x64 (V (main_arg12 : DevRef τ sig)) shapeCasts_S64_S1x64 := by
  after_results_simp
  rfl

theorem h8_be (V : Valuation τ sig (Elt Ideal)) :
    after (hostOps8 (F := Ideal)) V (main_v120 : DevRef τ sig)
      = shapeCast S1x64 (V (main_arg13 : DevRef τ sig)) shapeCasts_S64_S1x64 := by
  after_results_simp
  rfl

end Cert.KernelIdeal.KStretch

end
-- ==== Proof.KLayer3.lean ====
import proofs.«148580_j42640435315163_1_alg».proof.Proof.Gen.KernelIdeal.Frame
import proofs.«148580_j42640435315163_1_alg».proof.Proof.KStretch3
import proofs.«148580_j42640435315163_1_alg».proof.Proof.KLayer1
import proofs.«148580_j42640435315163_1_alg».proof.Proof.RegionMatmul
import proofs.«148580_j42640435315163_1_alg».proof.Proof.RegionStats
import proofs.«148580_j42640435315163_1_alg».proof.Proof.RegionNorm
import proofs.«148580_j42640435315163_1_alg».proof.Proof.Algebra

/-! The third layer of the kernel's program read from the buffer contents at its first pallas_call's entry to the
contents at its third pallas_call's exit: the matrix product (call one), the host's aggregation and bias row, the
column sums and sums of squares (call two), the host's mean, one-pass variance and reciprocal deviation, and the
normalisation with the rectifier (call three) compose to the layer function `layerK`; the edge list, the
coefficients and the later layers' parameters pass through untouched. -/

noncomputable section

namespace Cert.KernelIdeal.KLayer

open Idealize.ShloMosaic Idealize.ShloMosaic.TcCoe Idealize.SL.Sem Idealize.ShloMosaic.StableHlo
open Cert.KernelIdeal Cert.KernelIdeal.Gen Cert.KernelIdeal.KHost Cert.KernelIdeal.KStretch
open Cert.KernelIdeal.RegionValue Cert.Dense Cert.GcnBn

variable (m : (ℓ : Loc nD τ sig) → Buf (Elt Ideal) ℓ) (ρ : Dev nD → PrngReg) (c : Dev nD)

/-- A buffer that the third layer neither writes on the host nor binds to a window keeps its contents. -/
macro "carry3" : tactic =>
  `(tactic| (
      refine Eq.trans (W20_of_ne _ _ _ _ (by decide)) ?_
      refine Eq.trans (by not_written hostOps8) ?_
      refine Eq.trans (W18_of_ne _ _ _ _ (by decide)) ?_
      refine Eq.trans (by not_written hostOps7) ?_
      exact W16_of_ne _ _ _ _ (by decide)))

theorem keep3_v5 : W20 m ρ c (Proc.devRef .tc main_v5) = W15 m ρ c (Proc.devRef .tc main_v5) := by carry3
theorem keep3_v6 : W20 m ρ c (Proc.devRef .tc main_v6) = W15 m ρ c (Proc.devRef .tc main_v6) := by carry3
theorem keep3_v34 : W20 m ρ c (Proc.devRef .tc main_v34) = W15 m ρ c (Proc.devRef .tc main_v34) := by carry3

/-- The third layer. -/
theorem layer3 :
    (W20 m ρ c (Proc.devRef .tc main_v121) : S100000x64.Idx → EReal)
      = layerK (M := 100000) (K := 64) (N := 64) nW epsW
          (aggK (W15 m ρ c (Proc.devRef .tc main_v5)) (W15 m ρ c (Proc.devRef .tc main_v6))
            (W15 m ρ c (Proc.devRef .tc main_v34)))
          (W15 m ρ c (Proc.devRef .tc main_v92)) (W15 m ρ c (Proc.devRef .tc main_arg10))
          (row (W15 m ρ c (Proc.devRef .tc main_arg11))) (row (W15 m ρ c (Proc.devRef .tc main_arg12)))
          (row (W15 m ρ c (Proc.devRef .tc main_arg13))) := by
  -- call one: the matrix product
  have hH : (W16 m ρ c (Proc.devRef .tc main_v93) : S100000x64.Idx → EReal)
      = mm (W15 m ρ c (Proc.devRef .tc main_v92)) (W15 m ρ c (Proc.devRef .tc main_arg10)) :=
    (W16_arr m ρ c 2).trans (arr6_2 (V15 m ρ) c)
  -- the host's aggregation and bias row
  have e5 : W16 m ρ c (Proc.devRef .tc main_v5) = W15 m ρ c (Proc.devRef .tc main_v5) := W16_of_ne m ρ c main_v5 (by decide)
  have e6 : W16 m ρ c (Proc.devRef .tc main_v6) = W15 m ρ c (Proc.devRef .tc main_v6) := W16_of_ne m ρ c main_v6 (by decide)
  have e34 : W16 m ρ c (Proc.devRef .tc main_v34) = W15 m ρ c (Proc.devRef .tc main_v34) := W16_of_ne m ρ c main_v34 (by decide)
  have e3 : W16 m ρ c (Proc.devRef .tc main_arg11) = W15 m ρ c (Proc.devRef .tc main_arg11) := W16_of_ne m ρ c main_arg11 (by decide)
  have hA : (W17 m ρ c (Proc.devRef .tc main_v106) : S100000x64.Idx → EReal)
      = aggK (W15 m ρ c (Proc.devRef .tc main_v5)) (W15 m ρ c (Proc.devRef .tc main_v6))
          (W15 m ρ c (Proc.devRef .tc main_v34))
          (mm (W15 m ρ c (Proc.devRef .tc main_v92)) (W15 m ρ c (Proc.devRef .tc main_arg10))) := by
    refine (h7_agg (W16 m ρ c)).trans ?_
    rw [e5, e6, e34, hH]
  have hb : (W17 m ρ c (Proc.devRef .tc main_v107) : S1x64.Idx → EReal) = row (W15 m ρ c (Proc.devRef .tc main_arg11)) := by
    refine (h7_brow (W16 m ρ c)).trans ?_
    rw [e3]; exact shapeCast_row _ _
  -- call two: the column sums and sums of squares of Y = aggregation + bias row
  have hs : (W18 m ρ c (Proc.devRef .tc main_v108_0) : S1x64.Idx → EReal)
      = colSum (addRow (W17 m ρ c (Proc.devRef .tc main_v106)) (W17 m ρ c (Proc.devRef .tc main_v107))) :=
    (W18_arr m ρ c 2).trans (arr7_2 (V17 m ρ) c)
  have hq : (W18 m ρ c (Proc.devRef .tc main_v108_1) : S1x64.Idx → EReal)
      = colSumSq (addRow (W17 m ρ c (Proc.devRef .tc main_v106)) (W17 m ρ c (Proc.devRef .tc main_v107))) :=
    (W18_arr m ρ c 3).trans (arr7_3 (V17 m ρ) c)
  have hA8 : W18 m ρ c (Proc.devRef .tc main_v106) = W17 m ρ c (Proc.devRef .tc main_v106) :=
    (W18_arr m ρ c 0).trans (((dat7 (V17 m ρ) c).arrAt_in 0 rfl _).trans (A_eq7 (V17 m ρ) c 0))
  have f3 : W18 m ρ c (Proc.devRef .tc main_arg11) = W15 m ρ c (Proc.devRef .tc main_arg11) :=
    (W18_of_ne m ρ c main_arg11 (by decide)).trans ((by not_written hostOps7 : W17 m ρ c (Proc.devRef .tc main_arg11) = W16 m ρ c (Proc.devRef .tc main_arg11)).trans e3)
  have f4 : W18 m ρ c (Proc.devRef .tc main_arg12) = W15 m ρ c (Proc.devRef .tc main_arg12) :=
    (W18_of_ne m ρ c main_arg12 (by decide)).trans ((by not_written hostOps7 : W17 m ρ c (Proc.devRef .tc main_arg12) = W16 m ρ c (Proc.devRef .tc main_arg12)).trans (W16_of_ne m ρ c main_arg12 (by decide)))
  have f5 : W18 m ρ c (Proc.devRef .tc main_arg13) = W15 m ρ c (Proc.devRef .tc main_arg13) :=
    (W18_of_ne m ρ c main_arg13 (by decide)).trans ((by not_written hostOps7 : W17 m ρ c (Proc.devRef .tc main_arg13) = W16 m ρ c (Proc.devRef .tc main_arg13)).trans (W16_of_ne m ρ c main_arg13 (by decide)))
  rw [hA, hb] at hs hq
  -- the host's statistics and parameter rows
  have hmu := h8_mean (W18 m ρ c) _ hs
  have hinv := h8_inv (W18 m ρ c) _ hs hq
  have hb2 : (W19 m ρ c (Proc.devRef .tc main_v118) : S1x64.Idx → EReal) = row (W15 m ρ c (Proc.devRef .tc main_arg11)) := by
    refine (h8_b (W18 m ρ c)).trans ?_
    rw [f3]; exact shapeCast_row _ _
  have hg2 : (W19 m ρ c (Proc.devRef .tc main_v119) : S1x64.Idx → EReal) = row (W15 m ρ c (Proc.devRef .tc main_arg12)) := by
    refine (h8_g (W18 m ρ c)).trans ?_
    rw [f4]; exact shapeCast_row _ _
  have hbe2 : (W19 m ρ c (Proc.devRef .tc main_v120) : S1x64.Idx → EReal) = row (W15 m ρ c (Proc.devRef .tc main_arg13)) := by
    refine (h8_be (W18 m ρ c)).trans ?_
    rw [f5]; exact shapeCast_row _ _
  have hA9 : W19 m ρ c (Proc.devRef .tc main_v106) = W17 m ρ c (Proc.devRef .tc main_v106) :=
    (by not_written hostOps8 : W19 m ρ c (Proc.devRef .tc main_v106) = W18 m ρ c (Proc.devRef .tc main_v106)).trans hA8
  -- call three: the normalisation and the rectifier
  refine ((W20_arr m ρ c 6).trans (arr8_6 (V19 m ρ) c)).trans ?_
  show bnRelu (addRow (W19 m ρ c (Proc.devRef .tc main_v106)) (W19 m ρ c (Proc.devRef .tc main_v118)))
      (W19 m ρ c (Proc.devRef .tc main_v110)) (W19 m ρ c (Proc.devRef .tc main_v117))
      (W19 m ρ c (Proc.devRef .tc main_v119)) (W19 m ρ c (Proc.devRef .tc main_v120)) = _
  rw [hA9, hA, hb2, hg2, hbe2]
  refine (congrArg₂ (fun a b => bnRelu _ a b _ _) hmu hinv).trans ?_
  rfl

end Cert.KernelIdeal.KLayer

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.KPrefix.lean ====
import proofs.«148580_j42640435315163_1_alg».proof.Proof.Gen.KernelIdeal.Frame
import proofs.«148580_j42640435315163_1_alg».proof.Proof.KHost
import proofs.«148580_j42640435315163_1_alg».proof.Proof.LibTypedRef
import proofs.«148580_j42640435315163_1_alg».proof.Proof.LibPadSplit
import Idealize.ShloMosaic.Lib.StableHlo.Run

/-! The host lines before the first kernel call, read from the launch memory: the edge list with its self loops,
every edge's coefficient, and the parameter arrays untouched.

The lines come in five stretches. Each stretch is read over an arbitrary valuation of the buffers, the first one in
two halves cut after the three concatenations (a concatenation's operands are read separately, then put back under
it). The stretches compose to: sources and destinations are the edge table's rows followed by the node numbers; the
weights are the given ones followed by ones; the degree is the scatter-sum of the weights at the destinations; the
guarded reciprocal square root selects twice on `degree > 0`; and an edge's coefficient is the product of the two
looked-up roots and its weight. -/

noncomputable section

namespace Cert.KernelIdeal.KStretch

open Idealize.ShloMosaic Idealize.ShloMosaic.TcCoe Idealize.SL.Sem Idealize.ShloMosaic.StableHlo
open Cert.KernelIdeal Cert.KernelIdeal.Gen Cert.KernelIdeal.KHost

/-- A two-piece concatenation depends only on its two pieces. -/
theorem concat_pair_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

/-- A line of host operations cut after its first `n`: the contents after the whole line are the second part's from
    the first part's. -/
theorem after_cut (n : ℕ) (ops : List (HloOp τ sig (Elt Ideal))) (V : Valuation τ sig (Elt Ideal)) :
    after ops V = after (ops.drop n) (after (ops.take n) V) := by
  rw [← Cert.PadSplit.after_append, List.take_append_drop]

/-- The first stretch up to and including the three concatenations. -/
abbrev opsA : List (HloOp τ sig (Elt Ideal)) := (hostOps0 (F := Ideal)).take 10
/-- The rest of the first stretch: the degree and the two comparisons. -/
abbrev opsB : List (HloOp τ sig (Elt Ideal)) := (hostOps0 (F := Ideal)).drop 10

/-! ### The first half of the first stretch -/

theorem a_src (V : Valuation τ sig (Elt Ideal)) :
    after opsA V (main_v5 : DevRef τ sig) = srcK (V (main_arg14 : DevRef τ sig)) := by
  simp only [opsA, hostOps0, List.take_succ_cons, List.take_zero]
  after_results_simp
  unfold srcK
  refine concat_pair_congr _ _ ?_ ?_
  · after_results_simp <;> rfl
  · after_results_simp <;> rfl

theorem a_dst (V : Valuation τ sig (Elt Ideal)) :
    after opsA V (main_v6 : DevRef τ sig) = dstK (V (main_arg14 : DevRef τ sig)) := by
  simp only [opsA, hostOps0, List.take_succ_cons, List.take_zero]
  after_results_simp
  unfold dstK
  refine concat_pair_congr _ _ ?_ ?_
  · after_results_simp <;> rfl
  · after_results_simp <;> rfl

theorem a_wf (V : Valuation τ sig (Elt Ideal)) :
    after opsA V (main_v8 : DevRef τ sig) = wfK (V (main_arg1 : DevRef τ sig)) := by
  simp only [opsA, hostOps0, List.take_succ_cons, List.take_zero]
  after_results_simp
  unfold wfK
  refine concat_pair_congr _ _ ?_ ?_
  · after_results_simp <;> rfl
  · after_results_simp <;> rfl

/-! ### The second half of the first stretch -/

/-- The zero word broadcast over the nodes. -/
abbrev zeros : FVec Ideal S100000 .f32 :=
  broadcastInDim S100000 ![] bcast_S_S100000 (constant (F := Ideal) S_ .f32 0x00000000#32)

theorem b_deg (V : Valuation τ sig (Elt Ideal)) :
    after opsB V (main_v11 : DevRef τ sig) = degK (V (main_v6 : DevRef τ sig)) (V (main_v8 : DevRef τ sig)) := by
  simp only [opsB, hostOps0, List.drop_succ_cons, List.drop_zero]
  after_results_simp
  rfl

theorem b_gt13 (V : Valuation τ sig (Elt Ideal)) :
    after opsB V (main_v13 : DevRef τ sig)
      = cmpf .ogt (degK (V (main_v6 : DevRef τ sig)) (V (main_v8 : DevRef τ sig))) zeros := by
  simp only [opsB, hostOps0, List.drop_succ_cons, List.drop_zero]
  after_results_simp
  rfl

theorem b_gt15 (V : Valuation τ sig (Elt Ideal)) :
    after opsB V (main_v15 : DevRef τ sig)
      = cmpf .ogt (degK (V (main_v6 : DevRef τ sig)) (V (main_v8 : DevRef τ sig))) zeros := by
  simp only [opsB, hostOps0, List.drop_succ_cons, List.drop_zero]
  after_results_simp
  rfl

theorem b_one (V : Valuation τ sig (Elt Ideal)) :
    after opsB V (main_cst_3 : DevRef τ sig) = constant (F := Ideal) S_ .f32 0x3F800000#32 := by
  simp only [opsB, hostOps0, List.drop_succ_cons, List.drop_zero]
  after_results_simp

theorem b_keep5 (V : Valuation τ sig (Elt Ideal)) :
    after opsB V (main_v5 : DevRef τ sig) = V (main_v5 : DevRef τ sig) := by
  simp only [opsB, hostOps0, List.drop_succ_cons, List.drop_zero]
  after_results_simp

theorem b_keep6 (V : Valuation τ sig (Elt Ideal)) :
    after opsB V (main_v6 : DevRef τ sig) = V (main_v6 : DevRef τ sig) := by
  simp only [opsB, hostOps0, List.drop_succ_cons, List.drop_zero]
  after_results_simp

theorem b_keep8 (V : Valuation τ sig (Elt Ideal)) :
    after opsB V (main_v8 : DevRef τ sig) = V (main_v8 : DevRef τ sig) := by
  simp only [opsB, hostOps0, List.drop_succ_cons, List.drop_zero]
  after_results_simp

/-! ### The later stretches -/

theorem s1_inner (V : Valuation τ sig (Elt Ideal)) :
    after (hostOps0_1 (F := Ideal)) V (main_v16 : DevRef τ sig)
      = select (V (main_v15 : DevRef τ sig)) (V (main_v11 : DevRef τ sig))
          (broadcastInDim S100000 ![] bcast_S_S100000 (V (main_cst_3 : DevRef τ sig))) := by
  after_results_simp
  simp only [Cert.TypedRef.ofBuf_toBuf]
  rfl

theorem s2_root (V : Valuation τ sig (Elt Ideal)) :
    after (hostOps0_2 (F := Ideal)) V (main_v17 : DevRef τ sig) = Host.rsqrt (F := Ideal) (s := S100000) (φ := .f32) (V (main_v16 : DevRef τ sig)) := by
  after_results_simp

theorem s2_zero (V : Valuation τ sig (Elt Ideal)) :
    after (hostOps0_2 (F := Ideal)) V (main_cst_4 : DevRef τ sig) = constant (F := Ideal) S_ .f32 0x00000000#32 := by
  after_results_simp

theorem s3_outer (V : Valuation τ sig (Elt Ideal)) :
    after (hostOps0_3 (F := Ideal)) V (main_v18 : DevRef τ sig)
      = select (V (main_v13 : DevRef τ sig)) (V (main_v17 : DevRef τ sig))
          (broadcastInDim S100000 ![] bcast_S_S100000 (V (main_cst_4 : DevRef τ sig))) := by
  after_results_simp
  simp only [Cert.TypedRef.ofBuf_toBuf]
  rfl

theorem s4_coef (V : Valuation τ sig (Elt Ideal)) :
    after (hostOps0_4 (F := Ideal)) V (main_v34 : DevRef τ sig)
      = normK (V (main_v18 : DevRef τ sig)) (V (main_v5 : DevRef τ sig)) (V (main_v6 : DevRef τ sig))
          (V (main_v8 : DevRef τ sig)) := by
  after_results_simp
  rfl

/-! ### From the launch memory to the first kernel call's entry -/

/-- A stretch of host operations leaves a buffer none of them writes. -/
macro "untouched_by" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- A buffer that none of the five stretches writes holds its launch contents at the first kernel call's entry. -/
macro "launch_contents" : tactic =>
  `(tactic| (
      refine Eq.trans (by untouched_by hostOps0_4) ?_
      refine Eq.trans (by untouched_by hostOps0_3) ?_
      refine Eq.trans (by untouched_by hostOps0_2) ?_
      refine Eq.trans (by untouched_by hostOps0_1) ?_
      refine Eq.trans (by untouched_by hostOps0) ?_
      rfl))

section Launch

variable (m : (ℓ : Loc nD τ sig) → Buf (Elt Ideal) ℓ) (ρ : Dev nD → PrngReg) (c : Dev nD)

/-- The first stretch in its two halves. -/
theorem W1_cut : W1 m ρ c = after opsB (after opsA (W0 m ρ c)) := after_cut 10 _ _

theorem W1_src : W1 m ρ c (Proc.devRef .tc main_v5) = srcK (m ((c : Thread nD τ).loc main_arg14)) := by
  rw [W1_cut m ρ c]
  exact (b_keep5 _).trans (a_src _)

theorem W1_dst : W1 m ρ c (Proc.devRef .tc main_v6) = dstK (m ((c : Thread nD τ).loc main_arg14)) := by
  rw [W1_cut m ρ c]
  exact (b_keep6 _).trans (a_dst _)

theorem W1_wf : W1 m ρ c (Proc.devRef .tc main_v8) = wfK (m ((c : Thread nD τ).loc main_arg1)) := by
  rw [W1_cut m ρ c]
  exact (b_keep8 _).trans (a_wf _)

theorem W1_deg : W1 m ρ c (Proc.devRef .tc main_v11)
    = degK (dstK (m ((c : Thread nD τ).loc main_arg14))) (wfK (m ((c : Thread nD τ).loc main_arg1))) := by
  rw [W1_cut m ρ c]
  exact (b_deg _).trans (congrArg₂ degK (a_dst _) (a_wf _))

theorem W1_gt13 : W1 m ρ c (Proc.devRef .tc main_v13)
    = cmpf .ogt (degK (dstK (m ((c : Thread nD τ).loc main_arg14))) (wfK (m ((c : Thread nD τ).loc main_arg1)))) zeros := by
  rw [W1_cut m ρ c]
  exact (b_gt13 _).trans (congrArg (fun d => cmpf .ogt d zeros) (congrArg₂ degK (a_dst _) (a_wf _)))

theorem W1_gt15 : W1 m ρ c (Proc.devRef .tc main_v15)
    = cmpf .ogt (degK (dstK (m ((c : Thread nD τ).loc main_arg14))) (wfK (m ((c : Thread nD τ).loc main_arg1)))) zeros := by
  rw [W1_cut m ρ c]
  exact (b_gt15 _).trans (congrArg (fun d => cmpf .ogt d zeros) (congrArg₂ degK (a_dst _) (a_wf _)))

theorem W1_one : W1 m ρ c (Proc.devRef .tc main_cst_3) = constant (F := Ideal) S_ .f32 0x3F800000#32 := by
  rw [W1_cut m ρ c]
  exact b_one _

/-- The guarded reciprocal square roots at the last stretch's entry. -/
theorem W4_dis : W4 m ρ c (Proc.devRef .tc main_v18)
    = disK (degK (dstK (m ((c : Thread nD τ).loc main_arg14))) (wfK (m ((c : Thread nD τ).loc main_arg1)))) := by
  have e13 : W3 m ρ c (Proc.devRef .tc main_v13) = W1 m ρ c (Proc.devRef .tc main_v13) := by
    refine Eq.trans (by untouched_by hostOps0_2) ?_
    untouched_by hostOps0_1
  have e16 : W2 m ρ c (Proc.devRef .tc main_v16)
      = select (W1 m ρ c (Proc.devRef .tc main_v15)) (W1 m ρ c (Proc.devRef .tc main_v11))
          (broadcastInDim S100000 ![] bcast_S_S100000 (W1 m ρ c (Proc.devRef .tc main_cst_3))) := s1_inner (W1 m ρ c)
  have e17 : W3 m ρ c (Proc.devRef .tc main_v17)
      = Host.rsqrt (F := Ideal) (s := S100000) (φ := .f32) (W2 m ρ c (Proc.devRef .tc main_v16)) := s2_root (W2 m ρ c)
  have e4 : W3 m ρ c (Proc.devRef .tc main_cst_4) = constant (F := Ideal) S_ .f32 0x00000000#32 := s2_zero (W2 m ρ c)
  refine (s3_outer (W3 m ρ c)).trans ?_
  rw [e13, e17, e4, e16, W1_gt13 m ρ c, W1_gt15 m ρ c, W1_deg m ρ c, W1_one m ρ c]
  rfl

theorem W5_src : W5 m ρ c (Proc.devRef .tc main_v5) = srcK (m ((c : Thread nD τ).loc main_arg14)) := by
  refine Eq.trans (by untouched_by hostOps0_4) ?_
  refine Eq.trans (by untouched_by hostOps0_3) ?_
  refine Eq.trans (by untouched_by hostOps0_2) ?_
  refine Eq.trans (by untouched_by hostOps0_1) ?_
  exact W1_src m ρ c

theorem W5_dst : W5 m ρ c (Proc.devRef .tc main_v6) = dstK (m ((c : Thread nD τ).loc main_arg14)) := by
  refine Eq.trans (by untouched_by hostOps0_4) ?_
  refine Eq.trans (by untouched_by hostOps0_3) ?_
  refine Eq.trans (by untouched_by hostOps0_2) ?_
  refine Eq.trans (by untouched_by hostOps0_1) ?_
  exact W1_dst m ρ c

theorem W4_src : W4 m ρ c (Proc.devRef .tc main_v5) = srcK (m ((c : Thread nD τ).loc main_arg14)) := by
  refine Eq.trans (by untouched_by hostOps0_3) ?_
  refine Eq.trans (by untouched_by hostOps0_2) ?_
  refine Eq.trans (by untouched_by hostOps0_1) ?_
  exact W1_src m ρ c

theorem W4_dst : W4 m ρ c (Proc.devRef .tc main_v6) = dstK (m ((c : Thread nD τ).loc main_arg14)) := by
  refine Eq.trans (by untouched_by hostOps0_3) ?_
  refine Eq.trans (by untouched_by hostOps0_2) ?_
  refine Eq.trans (by untouched_by hostOps0_1) ?_
  exact W1_dst m ρ c

theorem W4_wf : W4 m ρ c (Proc.devRef .tc main_v8) = wfK (m ((c : Thread nD τ).loc main_arg1)) := by
  refine Eq.trans (by untouched_by hostOps0_3) ?_
  refine Eq.trans (by untouched_by hostOps0_2) ?_
  refine Eq.trans (by untouched_by hostOps0_1) ?_
  exact W1_wf m ρ c

/-- Every edge's coefficient at the first kernel call's entry. -/
theorem W5_coef : W5 m ρ c (Proc.devRef .tc main_v34)
    = coefK (m ((c : Thread nD τ).loc main_arg1)) (m ((c : Thread nD τ).loc main_arg14)) := by
  refine (s4_coef (W4 m ρ c)).trans ?_
  rw [W4_dis m ρ c, W4_src m ρ c, W4_dst m ρ c, W4_wf m ρ c]
  rfl

theorem W5_arg0 : W5 m ρ c (Proc.devRef .tc main_arg0) = m ((c : Thread nD τ).loc main_arg0) := by launch_contents
theorem W5_arg2 : W5 m ρ c (Proc.devRef .tc main_arg2) = m ((c : Thread nD τ).loc main_arg2) := by launch_contents
theorem W5_arg3 : W5 m ρ c (Proc.devRef .tc main_arg3) = m ((c : Thread nD τ).loc main_arg3) := by launch_contents
theorem W5_arg4 : W5 m ρ c (Proc.devRef .tc main_arg4) = m ((c : Thread nD τ).loc main_arg4) := by launch_contents
theorem W5_arg5 : W5 m ρ c (Proc.devRef .tc main_arg5) = m ((c : Thread nD τ).loc main_arg5) := by launch_contents
theorem W5_arg6 : W5 m ρ c (Proc.devRef .tc main_arg6) = m ((c : Thread nD τ).loc main_arg6) := by launch_contents
theorem W5_arg7 : W5 m ρ c (Proc.devRef .tc main_arg7) = m ((c : Thread nD τ).loc main_arg7) := by launch_contents
theorem W5_arg8 : W5 m ρ c (Proc.devRef .tc main_arg8) = m ((c : Thread nD τ).loc main_arg8) := by launch_contents
theorem W5_arg9 : W5 m ρ c (Proc.devRef .tc main_arg9) = m ((c : Thread nD τ).loc main_arg9) := by launch_contents
theorem W5_arg10 : W5 m ρ c (Proc.devRef .tc main_arg10) = m ((c : Thread nD τ).loc main_arg10) := by launch_contents
theorem W5_arg11 : W5 m ρ c (Proc.devRef .tc main_arg11) = m ((c : Thread nD τ).loc main_arg11) := by launch_contents
theorem W5_arg12 : W5 m ρ c (Proc.devRef .tc main_arg12) = m ((c : Thread nD τ).loc main_arg12) := by launch_contents
theorem W5_arg13 : W5 m ρ c (Proc.devRef .tc main_arg13) = m ((c : Thread nD τ).loc main_arg13) := by launch_contents

end Launch

end Cert.KernelIdeal.KStretch

end
-- ==== Proof.KValue.lean ====
import proofs.«148580_j42640435315163_1_alg».proof.Proof.KLayer1
import proofs.«148580_j42640435315163_1_alg».proof.Proof.KLayer2
import proofs.«148580_j42640435315163_1_alg».proof.Proof.KLayer3
import proofs.«148580_j42640435315163_1_alg».proof.Proof.KPrefix

/-! The kernel program's two results as functions of the launch memory: the three layers composed over the
edge list and coefficients computed by the host prefix, regrouped into graphs of 100 nodes; and the mask of ones. -/

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.KHost Cert.KernelIdeal.KStretch
open Cert.KernelIdeal.KLayer Cert.Dense Cert.GcnBn

theorem h9_out (V : Valuation τ sig (Elt Ideal)) :
    after (hostOps9 (F := Ideal)) V (main_v122 : DevRef τ sig)
      = shapeCast S1000x100x64 (V (main_v121 : DevRef τ sig)) shapeCasts_S100000x64_S1000x100x64 := by
  after_results_simp
  rfl

theorem h9_mask (V : Valuation τ sig (Elt Ideal)) :
    after (hostOps9 (F := Ideal)) V (main_v123 : DevRef τ sig)
      = broadcastInDim S1000x100 ![] bcast_S_S1000x100 (constant (F := Ideal) S_ .f32 0x3F800000#32) := by
  after_results_simp

variable (m : (ℓ : Loc nD τ sig) → Buf (Elt Ideal) ℓ) (ρ : Dev nD → PrngReg) (c : Dev nD)

/-- One layer's aggregation map over the launch memory's graph. -/
abbrev aggOf : Mat 100000 64 → Mat 100000 64 :=
  aggK (srcK (m ((c : Thread nD τ).loc main_arg14))) (dstK (m ((c : Thread nD τ).loc main_arg14)))
    (coefK (m ((c : Thread nD τ).loc main_arg1)) (m ((c : Thread nD τ).loc main_arg14)))

/-- The three layers over the launch memory, with the one-pass variance. -/
def netK : Mat 100000 64 :=
  layerK (M := 100000) (K := 64) (N := 64) nW epsW (aggOf m c)
    (layerK (M := 100000) (K := 64) (N := 64) nW epsW (aggOf m c)
      (layerK (M := 100000) (K := 128) (N := 64) nW epsW (aggOf m c)
        (m ((c : Thread nD τ).loc main_arg0)) (m ((c : Thread nD τ).loc main_arg2))
        (row (m ((c : Thread nD τ).loc main_arg3))) (row (m ((c : Thread nD τ).loc main_arg4)))
        (row (m ((c : Thread nD τ).loc main_arg5))))
      (m ((c : Thread nD τ).loc main_arg6))
      (row (m ((c : Thread nD τ).loc main_arg7))) (row (m ((c : Thread nD τ).loc main_arg8)))
      (row (m ((c : Thread nD τ).loc main_arg9))))
    (m ((c : Thread nD τ).loc main_arg10))
    (row (m ((c : Thread nD τ).loc main_arg11))) (row (m ((c : Thread nD τ).loc main_arg12)))
    (row (m ((c : Thread nD τ).loc main_arg13)))

theorem out_eq :
    (W21 m ρ c (Proc.devRef .tc main_v122) : S1000x100x64.Idx → EReal)
      = shapeCast S1000x100x64 (netK m c) shapeCasts_S100000x64_S1000x100x64 := by
  refine (h9_out (W20 m ρ c)).trans (congrArg (fun X => shapeCast S1000x100x64 X shapeCasts_S100000x64_S1000x100x64) ?_)
  refine (layer3 m ρ c).trans ?_
  rw [layer2 m ρ c, layer1 m ρ c,
    keep2_v5, keep2_v6, keep2_v34, keep2_arg10, keep2_arg11, keep2_arg12, keep2_arg13,
    keep1_v5, keep1_v6, keep1_v34, keep1_arg6, keep1_arg7, keep1_arg8, keep1_arg9,
    keep1_arg10, keep1_arg11, keep1_arg12, keep1_arg13,
    W5_src, W5_dst, W5_coef, W5_arg0, W5_arg2, W5_arg3, W5_arg4, W5_arg5, W5_arg6, W5_arg7, W5_arg8, W5_arg9,
    W5_arg10, W5_arg11, W5_arg12, W5_arg13]
  rfl

theorem mask_eq :
    W21 m ρ c (Proc.devRef .tc main_v123)
      = broadcastInDim S1000x100 ![] bcast_S_S1000x100 (constant (F := Ideal) S_ .f32 0x3F800000#32) :=
  h9_mask (W20 m ρ c)

end Cert.KernelIdeal.KValue

end
-- ==== Proof.RefOps.lean ====
/- The reference program's host operations, in printed order, as list literals: written by scratch/gen_refops.py from the
   text of proof/ReferenceIdeal.lean (each statement of @main's windows copied; a call of a module-local function replaced
   by that function's printed statements over the call's buffer record, its parameters substituted).  The list is cut into
   stretches at the values the docstrings name; the whole line is their concatenation (RefRun.lean). -/
import proofs.«148580_j42640435315163_1_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- The 9 operations from the one writing main_v0 to the one writing main_v7 (a call's record stands for its operations). -/
abbrev opsPreA : List (HloOp τ sig (Elt F)) :=
  [ StableHlo.unary main_arg14 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg14 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)) ]

theorem opsPreA_sub : (opsPreA : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub ..⟩

/-- The 5 operations from the one writing main_v8 to the one writing main_v11 (a call's record stands for its operations). -/
abbrev opsPreB1 : List (HloOp τ sig (Elt F)) :=
  [ StableHlo.binary main_arg1 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

theorem opsPreB1_sub : (opsPreB1 : List (HloOp τ sig (Elt F))).Forall fun op => op.bufs ⊆ tcRefs τ sig :=
  ⟨binary_bufs_sub .., nullary_bufs_sub .., unary_bufs_sub .., unary_bufs_sub .., ternary_bufs_sub ..⟩

/-- The 35 operations from the one writing main_cst_1 to the one writing main_v34 (a call's record stands for its operations). -/
abbrev opsPreB2 : List (HloOp τ sig (Elt F)) :=
  [ StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x00000000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v15 : StableHlo.TRef sig ⟨S100000, .i1⟩) (.of main_v11 : StableHlo.TRef sig ⟨S100000, .f32⟩) main_call0.v1 main_call0.v2 select,
    StableHlo.unary main_v16 main_v17 (Host.rsqrt : (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S100000 ![] bcast_S_S100000),
    StableHlo.TRef.ternary (.of main_v13 : StableHlo.TRef sig ⟨S100000, .i1⟩) (.of main_v17 : StableHlo.TRef sig ⟨S100000, .f32⟩) main_call1.v1 main_call1.v2 select,
    StableHlo.nullary main_c (constantI S_ 32 0#32),
    StableHlo.unary main_c main_v19 (broadcastInDim S1700000 ![] bcast_S_S1700000 : (⟨S_, .i32⟩ : BufTy).Contents (Elt F) → (⟨S1700000, .i32⟩ : BufTy).Contents (Elt F)),
    StableHlo.binary main_v5 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v21 (broadcastInDim S1700000 ![] bcast_S_S1700000 : (⟨S_, .i32⟩ : BufTy).Contents (Elt F) → (⟨S1700000, .i32⟩ : BufTy).Contents (Elt F)),
    StableHlo.binary main_v5 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v5 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v8 main_v26 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v27 (broadcastInDim S1700000 ![] bcast_S_S1700000 : (⟨S_, .i32⟩ : BufTy).Contents (Elt F) → (⟨S1700000, .i32⟩ : BufTy).Contents (Elt F)),
    StableHlo.binary main_v6 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v29 (broadcastInDim S1700000 ![] bcast_S_S1700000 : (⟨S_, .i32⟩ : BufTy).Contents (Elt F) → (⟨S1700000, .i32⟩ : BufTy).Contents (Elt F)),
    StableHlo.binary main_v6 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)) ]

theorem opsPreB2_sub : (opsPreB2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The 15 operations from the one writing main_v35 to the one writing main_v46 (a call's record stands for its operations). -/
abbrev opsAgg1a : List (HloOp τ sig (Elt F)) :=
  [ StableHlo.binary main_arg0 main_arg2 main_v35 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_8 (constantI S_ 32 0#32),
    StableHlo.unary main_c_8 main_v36 (broadcastInDim S1700000 ![] bcast_S_S1700000 : (⟨S_, .i32⟩ : BufTy).Contents (Elt F) → (⟨S1700000, .i32⟩ : BufTy).Contents (Elt F)),
    StableHlo.binary main_v5 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v38 (broadcastInDim S1700000 ![] bcast_S_S1700000 : (⟨S_, .i32⟩ : BufTy).Contents (Elt F) → (⟨S1700000, .i32⟩ : BufTy).Contents (Elt F)),
    StableHlo.binary main_v5 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v5 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v35 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v43 (broadcastInDim S1700000x1 ![0] bcast_S1700000_S1700000x1_0 : (⟨S1700000, .f32⟩ : BufTy).Contents (Elt F) → (⟨S1700000x1, .f32⟩ : BufTy).Contents (Elt F)),
    StableHlo.unary main_v43 main_v44 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v42 main_v44 main_v45 (mulf : (⟨S1700000x64, .f32⟩ : BufTy).Contents (Elt F) → (⟨S1700000x64, .f32⟩ : BufTy).Contents (Elt F) → (⟨S1700000x64, .f32⟩ : BufTy).Contents (Elt F)),
    StableHlo.nullary main_cst_10 (constant S_ .f32 0x00000000#32),
    StableHlo.unary main_cst_10 main_v46 (broadcastInDim S100000x64 ![] bcast_S_S100000x64 : (⟨S_, .f32⟩ : BufTy).Contents (Elt F) → (⟨S100000x64, .f32⟩ : BufTy).Contents (Elt F)) ]

theorem opsAgg1a_sub : (opsAgg1a : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub ..⟩

/-- The 2 operations from the one writing main_v47 to the one writing main_v48 (a call's record stands for its operations). -/
abbrev opsAgg1b : List (HloOp τ sig (Elt F)) :=
  [ StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

theorem opsAgg1b_sub : (opsAgg1b : List (HloOp τ sig (Elt F))).Forall fun op => op.bufs ⊆ tcRefs τ sig :=
  ⟨unary_bufs_sub .., ternary_bufs_sub ..⟩

/-- The 31 operations from the one writing main_v49 to the one writing main_call2 (a call's record stands for its operations). -/
abbrev opsStat1 : List (HloOp τ sig (Elt F)) :=
  [ StableHlo.unary main_arg3 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v50 main_v51 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x00000000#32),
    StableHlo.binary main_v51 main_cst_11 main_v52 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v53 (broadcastInDim S64 ![] bcast_S_S64 : (⟨S_, .f32⟩ : BufTy).Contents (Elt F) → (⟨S64, .f32⟩ : BufTy).Contents (Elt F)),
    StableHlo.binary main_v52 main_v53 main_v54 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call2.cst (constant S_ .f32 0x00000000#32),
    StableHlo.TRef.binary (.of main_v51 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v51 : StableHlo.TRef sig ⟨S100000x64, .f32⟩) main_call2.v4 main_call2.v5 subf,
    StableHlo.TRef.binary main_call2.v5 main_call2.v5 main_call2.v6 mulf,
    StableHlo.TRef.unary (.of main_c_13 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

theorem opsStat1_sub : (opsStat1 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The 19 operations from the one writing main_v56 to the one writing main_call3 (a call's record stands for its operations). -/
abbrev opsNorm1 : List (HloOp τ sig (Elt F)) :=
  [ StableHlo.unary main_v54 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v57 main_v58 (subf : (⟨S100000x64, .f32⟩ : BufTy).Contents (Elt F) → (⟨S100000x64, .f32⟩ : BufTy).Contents (Elt F) → (⟨S100000x64, .f32⟩ : BufTy).Contents (Elt F)),
    StableHlo.unary main_arg4 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v58 main_v61 (mulf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v62 (broadcastInDim S64 ![] bcast_S_S64 : (⟨S_, .f32⟩ : BufTy).Contents (Elt F) → (⟨S64, .f32⟩ : BufTy).Contents (Elt F)),
    StableHlo.binary main_v55 main_v62 main_v63 (addf : (⟨S64, .f32⟩ : BufTy).Contents (Elt F) → (⟨S64, .f32⟩ : BufTy).Contents (Elt F) → (⟨S64, .f32⟩ : BufTy).Contents (Elt F)),
    StableHlo.unary main_v63 main_v64 (Host.rsqrt : (⟨S64, .f32⟩ : BufTy).Contents (Elt F) → (⟨S64, .f32⟩ : BufTy).Contents (Elt F)),
    StableHlo.unary main_v64 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v66 main_v67 (mulf : (⟨S100000x64, .f32⟩ : BufTy).Contents (Elt F) → (⟨S100000x64, .f32⟩ : BufTy).Contents (Elt F) → (⟨S100000x64, .f32⟩ : BufTy).Contents (Elt F)),
    StableHlo.unary main_arg5 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S100000x64 ![0, 1] bcast_S1x64_S100000x64_0_1 : (⟨S1x64, .f32⟩ : BufTy).Contents (Elt F) → (⟨S100000x64, .f32⟩ : BufTy).Contents (Elt F)),
    StableHlo.binary main_v67 main_v69 main_v70 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v70 : StableHlo.TRef sig ⟨S100000x64, .f32⟩) main_call3.v0 main_call3.v1 maximumf ]

theorem opsNorm1_sub : (opsNorm1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- The 17 operations from the one writing main_v72 to the one writing main_v85 (a call's record stands for its operations). -/
abbrev opsAgg2 : List (HloOp τ sig (Elt F)) :=
  [ StableHlo.binary main_v71 main_arg6 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_15 (constantI S_ 32 0#32),
    StableHlo.unary main_c_15 main_v73 (broadcastInDim S1700000 ![] bcast_S_S1700000 : (⟨S_, .i32⟩ : BufTy).Contents (Elt F) → (⟨S1700000, .i32⟩ : BufTy).Contents (Elt F)),
    StableHlo.binary main_v5 main_v73 main_v74 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v75 (broadcastInDim S1700000 ![] bcast_S_S1700000 : (⟨S_, .i32⟩ : BufTy).Contents (Elt F) → (⟨S1700000, .i32⟩ : BufTy).Contents (Elt F)),
    StableHlo.binary main_v5 main_v75 main_v76 (addi : (⟨S1700000, .i32⟩ : BufTy).Contents (Elt F) → (⟨S1700000, .i32⟩ : BufTy).Contents (Elt F) → (⟨S1700000, .i32⟩ : BufTy).Contents (Elt F)),
    StableHlo.ternary main_v74 main_v76 main_v5 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v77 main_v78 (broadcastInDim S1700000x1 ![0] bcast_S1700000_S1700000x1_0 : (⟨S1700000, .i32⟩ : BufTy).Contents (Elt F) → (⟨S1700000x1, .i32⟩ : BufTy).Contents (Elt F)),
    StableHlo.binary main_v72 main_v78 main_v79 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v80 (broadcastInDim S1700000x1 ![0] bcast_S1700000_S1700000x1_0 : (⟨S1700000, .f32⟩ : BufTy).Contents (Elt F) → (⟨S1700000x1, .f32⟩ : BufTy).Contents (Elt F)),
    StableHlo.unary main_v80 main_v81 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v79 main_v81 main_v82 (mulf : (⟨S1700000x64, .f32⟩ : BufTy).Contents (Elt F) → (⟨S1700000x64, .f32⟩ : BufTy).Contents (Elt F) → (⟨S1700000x64, .f32⟩ : BufTy).Contents (Elt F)),
    StableHlo.nullary main_cst_17 (constant S_ .f32 0x00000000#32),
    StableHlo.unary main_cst_17 main_v83 (broadcastInDim S100000x64 ![] bcast_S_S100000x64 : (⟨S_, .f32⟩ : BufTy).Contents (Elt F) → (⟨S100000x64, .f32⟩ : BufTy).Contents (Elt F)),
    StableHlo.unary main_v6 main_v84 (broadcastInDim S1700000x1 ![0] bcast_S1700000_S1700000x1_0 : (⟨S1700000, .i32⟩ : BufTy).Contents (Elt F) → (⟨S1700000x1, .i32⟩ : BufTy).Contents (Elt F)),
    StableHlo.ternary main_v83 main_v84 main_v82 main_v85 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

theorem opsAgg2_sub : (opsAgg2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

/-- The 31 operations from the one writing main_v86 to the one writing main_call4 (a call's record stands for its operations). -/
abbrev opsStat2 : List (HloOp τ sig (Elt F)) :=
  [ StableHlo.unary main_arg7 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v87 main_v88 (addf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x00000000#32),
    StableHlo.binary main_v88 main_cst_18 main_v89 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v90 (broadcastInDim S64 ![] bcast_S_S64 : (⟨S_, .f32⟩ : BufTy).Contents (Elt F) → (⟨S64, .f32⟩ : BufTy).Contents (Elt F)),
    StableHlo.binary main_v89 main_v90 main_v91 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call4.cst (constant S_ .f32 0x00000000#32),
    StableHlo.TRef.binary (.of main_v88 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v88 : StableHlo.TRef sig ⟨S100000x64, .f32⟩) main_call4.v4 main_call4.v5 subf,
    StableHlo.TRef.binary main_call4.v5 main_call4.v5 main_call4.v6 mulf,
    StableHlo.TRef.unary (.of main_c_20 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

theorem opsStat2_sub : (opsStat2 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The 4 operations from the one writing main_v93 to the one writing main_v96 (a call's record stands for its operations). -/
abbrev opsNorm2a : List (HloOp τ sig (Elt F)) :=
  [ StableHlo.unary main_v91 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v88 main_v94 main_v95 (subf : (⟨S100000x64, .f32⟩ : BufTy).Contents (Elt F) → (⟨S100000x64, .f32⟩ : BufTy).Contents (Elt F) → (⟨S100000x64, .f32⟩ : BufTy).Contents (Elt F)),
    StableHlo.unary main_arg8 main_v96 (broadcastInDim S1x64 ![1] bcast_S64_S1x64_1 : (⟨S64, .f32⟩ : BufTy).Contents (Elt F) → (⟨S1x64, .f32⟩ : BufTy).Contents (Elt F)) ]

theorem opsNorm2a_sub : (opsNorm2a : List (HloOp τ sig (Elt F))).Forall fun op => op.bufs ⊆ tcRefs τ sig :=
  ⟨unary_bufs_sub .., unary_bufs_sub .., binary_bufs_sub .., unary_bufs_sub ..⟩

/-- The 15 operations from the one writing main_v97 to the one writing main_call5 (a call's record stands for its operations). -/
abbrev opsNorm2b : List (HloOp τ sig (Elt F)) :=
  [ StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v95 main_v98 (mulf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v99 (broadcastInDim S64 ![] bcast_S_S64 : (⟨S_, .f32⟩ : BufTy).Contents (Elt F) → (⟨S64, .f32⟩ : BufTy).Contents (Elt F)),
    StableHlo.binary main_v92 main_v99 main_v100 (addf : (⟨S64, .f32⟩ : BufTy).Contents (Elt F) → (⟨S64, .f32⟩ : BufTy).Contents (Elt F) → (⟨S64, .f32⟩ : BufTy).Contents (Elt F)),
    StableHlo.unary main_v100 main_v101 (Host.rsqrt : (⟨S64, .f32⟩ : BufTy).Contents (Elt F) → (⟨S64, .f32⟩ : BufTy).Contents (Elt F)),
    StableHlo.unary main_v101 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v103 main_v104 (mulf : (⟨S100000x64, .f32⟩ : BufTy).Contents (Elt F) → (⟨S100000x64, .f32⟩ : BufTy).Contents (Elt F) → (⟨S100000x64, .f32⟩ : BufTy).Contents (Elt F)),
    StableHlo.unary main_arg9 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S100000x64 ![0, 1] bcast_S1x64_S100000x64_0_1 : (⟨S1x64, .f32⟩ : BufTy).Contents (Elt F) → (⟨S100000x64, .f32⟩ : BufTy).Contents (Elt F)),
    StableHlo.binary main_v104 main_v106 main_v107 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v107 : StableHlo.TRef sig ⟨S100000x64, .f32⟩) main_call5.v0 main_call5.v1 maximumf ]

theorem opsNorm2b_sub : (opsNorm2b : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- The 17 operations from the one writing main_v109 to the one writing main_v122 (a call's record stands for its operations). -/
abbrev opsAgg3 : List (HloOp τ sig (Elt F)) :=
  [ StableHlo.binary main_v108 main_arg10 main_v109 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_22 (constantI S_ 32 0#32),
    StableHlo.unary main_c_22 main_v110 (broadcastInDim S1700000 ![] bcast_S_S1700000 : (⟨S_, .i32⟩ : BufTy).Contents (Elt F) → (⟨S1700000, .i32⟩ : BufTy).Contents (Elt F)),
    StableHlo.binary main_v5 main_v110 main_v111 (cmpi .slt : (⟨S1700000, .i32⟩ : BufTy).Contents (Elt F) → (⟨S1700000, .i32⟩ : BufTy).Contents (Elt F) → (⟨S1700000, .i1⟩ : BufTy).Contents (Elt F)),
    StableHlo.nullary main_c_23 (constantI S_ 32 100000#32),
    StableHlo.unary main_c_23 main_v112 (broadcastInDim S1700000 ![] bcast_S_S1700000 : (⟨S_, .i32⟩ : BufTy).Contents (Elt F) → (⟨S1700000, .i32⟩ : BufTy).Contents (Elt F)),
    StableHlo.binary main_v5 main_v112 main_v113 (addi : (⟨S1700000, .i32⟩ : BufTy).Contents (Elt F) → (⟨S1700000, .i32⟩ : BufTy).Contents (Elt F) → (⟨S1700000, .i32⟩ : BufTy).Contents (Elt F)),
    StableHlo.ternary main_v111 main_v113 main_v5 main_v114 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v114 main_v115 (broadcastInDim S1700000x1 ![0] bcast_S1700000_S1700000x1_0 : (⟨S1700000, .i32⟩ : BufTy).Contents (Elt F) → (⟨S1700000x1, .i32⟩ : BufTy).Contents (Elt F)),
    StableHlo.binary main_v109 main_v115 main_v116 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v117 (broadcastInDim S1700000x1 ![0] bcast_S1700000_S1700000x1_0 : (⟨S1700000, .f32⟩ : BufTy).Contents (Elt F) → (⟨S1700000x1, .f32⟩ : BufTy).Contents (Elt F)),
    StableHlo.unary main_v117 main_v118 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v116 main_v118 main_v119 (mulf : (⟨S1700000x64, .f32⟩ : BufTy).Contents (Elt F) → (⟨S1700000x64, .f32⟩ : BufTy).Contents (Elt F) → (⟨S1700000x64, .f32⟩ : BufTy).Contents (Elt F)),
    StableHlo.nullary main_cst_24 (constant S_ .f32 0x00000000#32),
    StableHlo.unary main_cst_24 main_v120 (broadcastInDim S100000x64 ![] bcast_S_S100000x64 : (⟨S_, .f32⟩ : BufTy).Contents (Elt F) → (⟨S100000x64, .f32⟩ : BufTy).Contents (Elt F)),
    StableHlo.unary main_v6 main_v121 (broadcastInDim S1700000x1 ![0] bcast_S1700000_S1700000x1_0 : (⟨S1700000, .i32⟩ : BufTy).Contents (Elt F) → (⟨S1700000x1, .i32⟩ : BufTy).Contents (Elt F)),
    StableHlo.ternary main_v120 main_v121 main_v119 main_v122 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

theorem opsAgg3_sub : (opsAgg3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

/-- The 31 operations from the one writing main_v123 to the one writing main_call6 (a call's record stands for its operations). -/
abbrev opsStat3 : List (HloOp τ sig (Elt F)) :=
  [ StableHlo.unary main_arg11 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S100000x64 ![0, 1] bcast_S1x64_S100000x64_0_1 : (⟨S1x64, .f32⟩ : BufTy).Contents (Elt F) → (⟨S100000x64, .f32⟩ : BufTy).Contents (Elt F)),
    StableHlo.binary main_v122 main_v124 main_v125 (addf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x00000000#32),
    StableHlo.binary main_v125 main_cst_25 main_v126 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_26 (constant S_ .f32 0x47C35000#32),
    StableHlo.unary main_cst_26 main_v127 (broadcastInDim S64 ![] bcast_S_S64 : (⟨S_, .f32⟩ : BufTy).Contents (Elt F) → (⟨S64, .f32⟩ : BufTy).Contents (Elt F)),
    StableHlo.binary main_v126 main_v127 main_v128 (Host.divf : (⟨S64, .f32⟩ : BufTy).Contents (Elt F) → (⟨S64, .f32⟩ : BufTy).Contents (Elt F) → (⟨S64, .f32⟩ : BufTy).Contents (Elt F)),
    StableHlo.nullary main_c_27 (constantI S_ 32 0#32),
    StableHlo.TRef.nullary main_call6.cst (constant S_ .f32 0x00000000#32),
    StableHlo.TRef.binary (.of main_v125 : StableHlo.TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v125 : StableHlo.TRef sig ⟨S100000x64, .f32⟩) main_call6.v4 main_call6.v5 subf,
    StableHlo.TRef.binary main_call6.v5 main_call6.v5 main_call6.v6 mulf,
    StableHlo.TRef.unary (.of main_c_27 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]

theorem opsStat3_sub : (opsStat3 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The 19 operations from the one writing main_v130 to the one writing main_call7 (a call's record stands for its operations). -/
abbrev opsNorm3 : List (HloOp τ sig (Elt F)) :=
  [ StableHlo.unary main_v128 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v131 main_v132 (subf : (⟨S100000x64, .f32⟩ : BufTy).Contents (Elt F) → (⟨S100000x64, .f32⟩ : BufTy).Contents (Elt F) → (⟨S100000x64, .f32⟩ : BufTy).Contents (Elt F)),
    StableHlo.unary main_arg12 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S100000x64 ![0, 1] bcast_S1x64_S100000x64_0_1 : (⟨S1x64, .f32⟩ : BufTy).Contents (Elt F) → (⟨S100000x64, .f32⟩ : BufTy).Contents (Elt F)),
    StableHlo.binary main_v134 main_v132 main_v135 (mulf : (⟨S100000x64, .f32⟩ : BufTy).Contents (Elt F) → (⟨S100000x64, .f32⟩ : BufTy).Contents (Elt F) → (⟨S100000x64, .f32⟩ : BufTy).Contents (Elt F)),
    StableHlo.nullary main_cst_28 (constant S_ .f32 0x3727C5AC#32),
    StableHlo.unary main_cst_28 main_v136 (broadcastInDim S64 ![] bcast_S_S64 : (⟨S_, .f32⟩ : BufTy).Contents (Elt F) → (⟨S64, .f32⟩ : BufTy).Contents (Elt F)),
    StableHlo.binary main_v129 main_v136 main_v137 (addf : (⟨S64, .f32⟩ : BufTy).Contents (Elt F) → (⟨S64, .f32⟩ : BufTy).Contents (Elt F) → (⟨S64, .f32⟩ : BufTy).Contents (Elt F)),
    StableHlo.unary main_v137 main_v138 (Host.rsqrt : (⟨S64, .f32⟩ : BufTy).Contents (Elt F) → (⟨S64, .f32⟩ : BufTy).Contents (Elt F)),
    StableHlo.unary main_v138 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S100000x64 ![0, 1] bcast_S1x64_S100000x64_0_1 : (⟨S1x64, .f32⟩ : BufTy).Contents (Elt F) → (⟨S100000x64, .f32⟩ : BufTy).Contents (Elt F)),
    StableHlo.binary main_v135 main_v140 main_v141 (mulf : (⟨S100000x64, .f32⟩ : BufTy).Contents (Elt F) → (⟨S100000x64, .f32⟩ : BufTy).Contents (Elt F) → (⟨S100000x64, .f32⟩ : BufTy).Contents (Elt F)),
    StableHlo.unary main_arg13 main_v142 (broadcastInDim S1x64 ![1] bcast_S64_S1x64_1 : (⟨S64, .f32⟩ : BufTy).Contents (Elt F) → (⟨S1x64, .f32⟩ : BufTy).Contents (Elt F)),
    StableHlo.unary main_v142 main_v143 (broadcastInDim S100000x64 ![0, 1] bcast_S1x64_S100000x64_0_1 : (⟨S1x64, .f32⟩ : BufTy).Contents (Elt F) → (⟨S100000x64, .f32⟩ : BufTy).Contents (Elt F)),
    StableHlo.binary main_v141 main_v143 main_v144 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v144 : StableHlo.TRef sig ⟨S100000x64, .f32⟩) main_call7.v0 main_call7.v1 maximumf ]

theorem opsNorm3_sub : (opsNorm3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- The 3 operations from the one writing main_v146 to the one writing main_v147 (a call's record stands for its operations). -/
abbrev opsTail : List (HloOp τ sig (Elt F)) :=
  [ StableHlo.reshape main_v145 main_v146 rfl shapeCasts_S100000x64_S1000x100x64,
    StableHlo.nullary main_cst_29 (constant S_ .f32 0x3F800000#32),
    StableHlo.unary main_cst_29 main_v147 (broadcastInDim S1000x100 ![] bcast_S_S1000x100 : (⟨S_, .f32⟩ : BufTy).Contents (Elt F) → (⟨S1000x100, .f32⟩ : BufTy).Contents (Elt F)) ]

theorem opsTail_sub : (opsTail : List (HloOp τ sig (Elt F))).Forall fun op => op.bufs ⊆ tcRefs τ sig :=
  ⟨reshape_bufs_sub .., nullary_bufs_sub .., unary_bufs_sub ..⟩

end Cert.ReferenceIdeal.RefValue

end
-- ==== Proof.RefRun.lean ====
/- The reference program's run: its @main is the straight line of the host operations listed in RefOps.lean, so every
   weakly fair execution terminates with each buffer at the fold of those operations over the launch contents. -/
import proofs.«148580_j42640435315163_1_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- The operations before the layers: the edge tables with the self loops appended (up to the ones that weigh the self
    loops), then the weights, the degrees and every edge's coefficient. -/
abbrev opsPre : List (HloOp τ sig (Elt F)) := opsPreA ++ (opsPreB1 ++ opsPreB2)
/-- The prefix. -/
abbrev opsL0 : List (HloOp τ sig (Elt F)) := opsPre
/-- Layer 1: the product, its aggregation, the bias, the batch statistics, the normalisation and the rectifier. -/
abbrev opsL1 : List (HloOp τ sig (Elt F)) := opsAgg1a ++ (opsAgg1b ++ (opsStat1 ++ opsNorm1))
/-- Layer 2. -/
abbrev opsL2 : List (HloOp τ sig (Elt F)) := opsAgg2 ++ (opsStat2 ++ (opsNorm2a ++ opsNorm2b))
/-- Layer 3. -/
abbrev opsL3 : List (HloOp τ sig (Elt F)) := opsAgg3 ++ (opsStat3 ++ opsNorm3)

/-- @main's 253 operations, in order (a called function's operations stand in its call's place): the prefix, the three
    layers, the final reshape and the mask of ones. -/
abbrev ops : List (HloOp τ sig (Elt F)) := opsL0 ++ (opsL1 ++ (opsL2 ++ (opsL3 ++ opsTail)))

/-- A line followed by the bare return is the line. -/
theorem seq_bind_pure {nD : Nat} {τ : Topo} {sig : RefSig} {Val : EltTy → Type} {Λ : Labels} (l : List (HloOp τ sig Val)) :
    ((seq l : Prog (TpuEff nD τ sig Val Λ .tc) PUnit) >>= fun _ => pure ⟨⟩) = seq l := by
  have h := seq_append (nD := nD) (Λ := Λ) l []
  rw [List.append_nil] at h
  exact h.symm

set_option maxRecDepth 16384 in
set_option maxHeartbeats 4000000 in
/-- The first window is the prefix and the first twelve values of layer 1: the two calls unfolded, sequencing reassociated. -/
theorem main_part0_eq (c : Dev nD) : main_part0 (F := F) c = seq (opsPre ++ opsAgg1a) := by
  simp only [main_part0, fn_where.body, bind_assoc, pure_bind]
  rfl

set_option maxRecDepth 16384 in
set_option maxHeartbeats 4000000 in
theorem main_part1_eq (c : Dev nD) :
    main_part1 (F := F) c = seq (opsAgg1b ++ (opsStat1 ++ (opsNorm1 ++ (opsAgg2 ++ (opsStat2 ++ opsNorm2a))))) := by
  simp only [main_part1, fn_var.body, fn_where_0.body, fn_relu.body, bind_assoc, pure_bind]
  rfl

set_option maxRecDepth 16384 in
set_option maxHeartbeats 4000000 in
theorem main_part2_eq (c : Dev nD) :
    main_part2 (F := F) c = seq (opsNorm2b ++ (opsAgg3 ++ (opsStat3 ++ (opsNorm3 ++ opsTail)))) := by
  simp only [main_part2, fn_var.body, fn_where_0.body, fn_relu.body, bind_assoc, pure_bind]
  rfl

theorem main_part3_eq (c : Dev nD) : main_part3 (F := F) c = pure ⟨⟩ := rfl

/-- The list, associated as the windows cut it. -/
theorem ops_windows :
    (ops : List (HloOp τ sig (Elt F)))
      = (opsPre ++ opsAgg1a) ++ ((opsAgg1b ++ (opsStat1 ++ (opsNorm1 ++ (opsAgg2 ++ (opsStat2 ++ opsNorm2a)))))
          ++ (opsNorm2b ++ (opsAgg3 ++ (opsStat3 ++ (opsNorm3 ++ opsTail))))) := by
  simp only [ops, opsL0, opsL1, opsL2, opsL3, List.append_assoc]

/-- @main is the straight line of its operations. -/
theorem main_eq (c : Dev nD) : main (F := F) c = seq ops := by
  show (main_part0 c >>= fun _ => main_part1 c >>= fun _ => main_part2 c >>= fun _ => main_part3 c) = _
  rw [main_part0_eq, main_part1_eq, main_part2_eq, main_part3_eq, seq_bind_pure, ← seq_append, ← seq_append, ops_windows]

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem opsPre_sub : (opsPre : List (HloOp τ sig (Elt F))).Forall fun op => op.bufs ⊆ tcRefs τ sig :=
  forall_append opsPreA_sub (forall_append opsPreB1_sub opsPreB2_sub)

/-- Every operation touches TensorCore references only. -/
theorem ops_sub : (ops : List (HloOp τ sig (Elt F))).Forall fun op => op.bufs ⊆ tcRefs τ sig :=
  forall_append opsPre_sub (forall_append
    (forall_append opsAgg1a_sub (forall_append opsAgg1b_sub (forall_append opsStat1_sub opsNorm1_sub)))
    (forall_append (forall_append opsAgg2_sub (forall_append opsStat2_sub (forall_append opsNorm2a_sub opsNorm2b_sub)))
      (forall_append (forall_append opsAgg3_sub (forall_append opsStat3_sub opsNorm3_sub)) opsTail_sub)))

/-- No operation leaves its result to be chosen: each determines what it writes. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

theorem opsPreA_fresh : ∀ op ∈ (opsPreA : List (HloOp τ sig (Elt F))), op.fresh = ∅ := by
  intro _ h; (repeat (cases h with | head => rfl | tail _ h => ?_)); exact nomatch h
theorem opsPreB1_fresh : ∀ op ∈ (opsPreB1 : List (HloOp τ sig (Elt F))), op.fresh = ∅ := by
  intro _ h; (repeat (cases h with | head => rfl | tail _ h => ?_)); exact nomatch h
theorem opsPreB2_fresh : ∀ op ∈ (opsPreB2 : List (HloOp τ sig (Elt F))), op.fresh = ∅ := by
  intro _ h; (repeat (cases h with | head => rfl | tail _ h => ?_)); exact nomatch h
theorem opsPre_fresh : ∀ op ∈ (opsPre : List (HloOp τ sig (Elt F))), op.fresh = ∅ :=
  fresh_append opsPreA_fresh (fresh_append opsPreB1_fresh opsPreB2_fresh)
theorem opsAgg1a_fresh : ∀ op ∈ (opsAgg1a : List (HloOp τ sig (Elt F))), op.fresh = ∅ := by
  intro _ h; (repeat (cases h with | head => rfl | tail _ h => ?_)); exact nomatch h
theorem opsAgg1b_fresh : ∀ op ∈ (opsAgg1b : List (HloOp τ sig (Elt F))), op.fresh = ∅ := by
  intro _ h; (repeat (cases h with | head => rfl | tail _ h => ?_)); exact nomatch h
theorem opsStat1_fresh : ∀ op ∈ (opsStat1 : List (HloOp τ sig (Elt F))), op.fresh = ∅ := by
  intro _ h; (repeat (cases h with | head => rfl | tail _ h => ?_)); exact nomatch h
theorem opsNorm1_fresh : ∀ op ∈ (opsNorm1 : List (HloOp τ sig (Elt F))), op.fresh = ∅ := by
  intro _ h; (repeat (cases h with | head => rfl | tail _ h => ?_)); exact nomatch h
theorem opsAgg2_fresh : ∀ op ∈ (opsAgg2 : List (HloOp τ sig (Elt F))), op.fresh = ∅ := by
  intro _ h; (repeat (cases h with | head => rfl | tail _ h => ?_)); exact nomatch h
theorem opsStat2_fresh : ∀ op ∈ (opsStat2 : List (HloOp τ sig (Elt F))), op.fresh = ∅ := by
  intro _ h; (repeat (cases h with | head => rfl | tail _ h => ?_)); exact nomatch h
theorem opsNorm2a_fresh : ∀ op ∈ (opsNorm2a : List (HloOp τ sig (Elt F))), op.fresh = ∅ := by
  intro _ h; (repeat (cases h with | head => rfl | tail _ h => ?_)); exact nomatch h
theorem opsNorm2b_fresh : ∀ op ∈ (opsNorm2b : List (HloOp τ sig (Elt F))), op.fresh = ∅ := by
  intro _ h; (repeat (cases h with | head => rfl | tail _ h => ?_)); exact nomatch h
theorem opsAgg3_fresh : ∀ op ∈ (opsAgg3 : List (HloOp τ sig (Elt F))), op.fresh = ∅ := by
  intro _ h; (repeat (cases h with | head => rfl | tail _ h => ?_)); exact nomatch h
theorem opsStat3_fresh : ∀ op ∈ (opsStat3 : List (HloOp τ sig (Elt F))), op.fresh = ∅ := by
  intro _ h; (repeat (cases h with | head => rfl | tail _ h => ?_)); exact nomatch h
theorem opsNorm3_fresh : ∀ op ∈ (opsNorm3 : List (HloOp τ sig (Elt F))), op.fresh = ∅ := by
  intro _ h; (repeat (cases h with | head => rfl | tail _ h => ?_)); exact nomatch h
theorem opsTail_fresh : ∀ op ∈ (opsTail : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  fresh_append opsPre_fresh (fresh_append
    (fresh_append opsAgg1a_fresh (fresh_append opsAgg1b_fresh (fresh_append opsStat1_fresh opsNorm1_fresh)))
    (fresh_append (fresh_append opsAgg2_fresh (fresh_append opsStat2_fresh (fresh_append opsNorm2a_fresh opsNorm2b_fresh)))
      (fresh_append (fresh_append opsAgg3_fresh (fresh_append opsStat3_fresh opsNorm3_fresh)) opsTail_fresh)))

/-- At the compiled mesh, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => ops_fresh)

end Cert.ReferenceIdeal.RefValue

end
-- ==== Proof.RefHost.lean ====
import proofs.«148580_j42640435315163_1_alg».proof.ReferenceIdeal
import Idealize.ShloMosaic.PureOps.Ideal

/-! The reference's host operations on the graph, named as functions of their operands (extended reals; integer tables
as words).

The edge list is the given table's two rows with one self loop per node appended; an edge's weight is the given
weight, a self loop's is one. The degree adds the weights arriving at each node, its normalisation is the degree
to the power -1/2 where the degree is positive and zero elsewhere, an edge's coefficient is the normalisation at the
source times the weight times the normalisation at the destination (negative entries wrapped by the node count before
the lookups), and one layer's aggregation gathers the rows of the features at the wrapped sources, scales each by its
edge's coefficient and adds it into the row of its destination, starting from zeros. -/

noncomputable section

namespace Cert.ReferenceIdeal.RefValue

open Idealize.ShloMosaic Cert.ReferenceIdeal Cert.ReferenceIdeal.Facts₀ Cert.ReferenceIdeal.Facts

variable [Cert.ReferenceIdeal.Facts]

/-- Sources: row 0 of the edge table, then the nodes themselves. -/
def srcR (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩]
    concatenates_S1600000_S100000_S1700000_d0

/-- Destinations: row 1 of the edge table, then the nodes themselves. -/
def dstR (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩]
    concatenates_S1600000_S100000_S1700000_d0

/-- Weights: the given ones, then a one per self loop. -/
def wfR (ew : FVec Ideal S1600000 .f32) : FVec Ideal S1700000 .f32 :=
  concatenate S1700000 0
    [⟨S1600000, ew⟩,
      ⟨S100000, broadcastInDim S100000 ![] bcast_S_S100000 (constant (F := Ideal) S_ .f32 0x3F800000#32)⟩]
    concatenates_S1600000_S100000_S1700000_d0

/-- The weights arriving at each node, added up from zero. -/
def degR (dst : IVec S1700000 32) (wf : FVec Ideal S1700000 .f32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst) wf

/-- The degree to the power -1/2 where the degree is positive, zero elsewhere (the inner selection keeps the root's
    argument positive). -/
def disR (deg : FVec Ideal S100000 .f32) : FVec Ideal S100000 .f32 :=
  select
    (cmpf .ogt deg (broadcastInDim S100000 ![] bcast_S_S100000 (constant (F := Ideal) S_ .f32 0x00000000#32)))
    (Host.rsqrt (F := Ideal)
      (select
        (cmpf .ogt deg (broadcastInDim S100000 ![] bcast_S_S100000 (constant (F := Ideal) S_ .f32 0x00000000#32)))
        deg
        (broadcastInDim S100000 ![] bcast_S_S100000 (constant (F := Ideal) S_ .f32 0x3F800000#32))))
    (broadcastInDim S100000 ![] bcast_S_S100000 (constant (F := Ideal) S_ .f32 0x00000000#32))

/-- A table of node numbers as a column of lookup positions, a negative entry moved up by the node count. -/
def wrapR (idx : IVec S1700000 32) : IVec S1700000x1 32 :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- An edge's coefficient: the normalisation at the source, times the weight, times the normalisation at the
    destination. -/
def normR (dis : FVec Ideal S100000 .f32) (src dst : IVec S1700000 32) (wf : FVec Ideal S1700000 .f32) :
    FVec Ideal S1700000 .f32 :=
  mulf (mulf (Host.gather gather_S100000_S1700000x1_S1700000_n_0_n_n_0_1_1 dis (wrapR src)) wf)
    (Host.gather gather_S100000_S1700000x1_S1700000_n_0_n_n_0_1_1 dis (wrapR dst))

/-- One layer's aggregation of the features H. -/
def aggR (src dst : IVec S1700000 32) (nrm : FVec Ideal S1700000 .f32) (H : FVec Ideal S100000x64 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (Host.gather gather_S100000x64_S1700000x1_S1700000x64_1_0_n_n_0_1_164 H (wrapR src))
      (broadcastInDim S1700000x64 ![0, 1] bcast_S1700000x1_S1700000x64_0_1
        (broadcastInDim S1700000x1 ![0] bcast_S1700000_S1700000x1_0 nrm)))

/-- The coefficient of every edge from the two inputs that describe the graph. -/
def coefR (ew : FVec Ideal S1600000 .f32) (ei : IVec S2x1600000 32) : FVec Ideal S1700000 .f32 :=
  normR (disR (degR (dstR ei) (wfR ew))) (srcR ei) (dstR ei) (wfR ew)

end Cert.ReferenceIdeal.RefValue

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«148580_j42640435315163_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.RefBn.lean ====
import proofs.«148580_j42640435315163_1_alg».proof.Proof.RefHost
import proofs.«148580_j42640435315163_1_alg».proof.Proof.Algebra
import proofs.«148580_j42640435315163_1_alg».proof.Proof.LibHostLayout
import Idealize.ShloMosaic.Lib.IdealHost

/-! The reference's bias, batch statistics, normalisation and rectifier, as functions of their operands, and what they
compute.

After the aggregation a layer adds the bias vector to every row; takes, per column, the mean over the rows (the
sum from zero, divided by the row count); takes the variance as jnp.var does — the mean again, the squared deviations
from it summed from zero, divided by the row count minus a zero degrees-of-freedom correction, under a guard that
this divisor is positive —; and returns the larger of zero and
scale · (value − mean) · rsqrt (variance + ε) + shift. The divisor is the row count itself (the correction is the
integer zero converted), it is positive, so the guard keeps the quotient; a sum from zero is the sum. -/

noncomputable section

open scoped BigOperators

namespace Cert.ReferenceIdeal.RefValue

open Idealize.ShloMosaic Idealize.ShloMosaic.ValueIdx Cert.ReferenceIdeal Cert.ReferenceIdeal.Facts₀ Cert.ReferenceIdeal.Facts
open Cert.Dense Cert.GcnBn

variable [Cert.ReferenceIdeal.Facts]

/-- The row count, as the float constant the program divides by. -/
abbrev nR : EReal := Ideal.ofBits .f32 0x47C35000#32
/-- The offset added to a variance before the reciprocal root. -/
abbrev epsR : EReal := Ideal.ofBits .f32 0x3727C5AC#32

/-- A vector laid out as one row, that row repeated for every node. -/
def rowsR (v : FVec Ideal S64 .f32) : FVec Ideal S100000x64 .f32 :=
  broadcastInDim S100000x64 ![0, 1] bcast_S1x64_S100000x64_0_1 (broadcastInDim S1x64 ![1] bcast_S64_S1x64_1 v)

/-- The bias added to every row. -/
def biasR (A : FVec Ideal S100000x64 .f32) (b : FVec Ideal S64 .f32) : FVec Ideal S100000x64 .f32 :=
  addf A (rowsR b)

/-- Per column, the sum over the rows from zero. -/
def sumR (Y : FVec Ideal S100000x64 .f32) : FVec Ideal S64 .f32 :=
  Host.reduceAdd (F := Ideal) Y (constant (F := Ideal) S_ .f32 0x00000000#32) reducesTo_S100000x64_S64_d0 h_S_

/-- Per column, the mean over the rows. -/
def meanR (Y : FVec Ideal S100000x64 .f32) : FVec Ideal S64 .f32 :=
  Host.divf (F := Ideal) (sumR Y) (broadcastInDim S64 ![] bcast_S_S64 (constant (F := Ideal) S_ .f32 0x47C35000#32))

/-- The mean as jnp.var takes it: as one row. -/
def cmeanR (Y : FVec Ideal S100000x64 .f32) : FVec Ideal S1x64 .f32 :=
  Host.divf (F := Ideal) (broadcastInDim S1x64 ![1] bcast_S64_S1x64_1 (sumR Y))
    (broadcastInDim S1x64 ![] bcast_S_S1x64 (constant (F := Ideal) S_ .f32 0x47C35000#32))

/-- The deviations from the column means. -/
def devR (Y : FVec Ideal S100000x64 .f32) : FVec Ideal S100000x64 .f32 :=
  subf Y (broadcastInDim S100000x64 ![0, 1] bcast_S1x64_S100000x64_0_1 (cmeanR Y))

/-- The variance's divisor: the row count minus the converted integer zero. -/
def denR : FVec Ideal S_ .f32 :=
  subf (constant (F := Ideal) S_ .f32 0x47C35000#32) (sitofp (F := Ideal) .f32 (constantI S_ 32 0#32))

/-- Per column, the variance over the rows, guarded by the divisor being positive. -/
def varR (Y : FVec Ideal S100000x64 .f32) : FVec Ideal S64 .f32 :=
  select (broadcastInDim S64 ![] bcast_S_S64 (cmpf .ogt denR (constant (F := Ideal) S_ .f32 0x00000000#32)))
    (Host.divf (F := Ideal) (sumR (mulf (devR Y) (devR Y))) (broadcastInDim S64 ![] bcast_S_S64 denR))
    (broadcastInDim S64 ![] bcast_S_S64 (constant (F := Ideal) S_ .f32 0x7FC00000#32))

/-- Normalise, scale, shift, rectify. -/
def bnR (Y : FVec Ideal S100000x64 .f32) (mu var g be : FVec Ideal S64 .f32) : FVec Ideal S100000x64 .f32 :=
  maximumf
    (addf
      (mulf (mulf (rowsR g) (subf Y (rowsR mu)))
        (rowsR (Host.rsqrt (F := Ideal)
          (addf var (broadcastInDim S64 ![] bcast_S_S64 (constant (F := Ideal) S_ .f32 0x3727C5AC#32))))))
      (rowsR be))
    (broadcastInDim S100000x64 ![] bcast_S_S100000x64 (constant (F := Ideal) S_ .f32 0x00000000#32))

/-- One layer after its aggregation. -/
def postR (A : FVec Ideal S100000x64 .f32) (b g be : FVec Ideal S64 .f32) : FVec Ideal S100000x64 .f32 :=
  bnR (biasR A b) (meanR (biasR A b)) (varR (biasR A b)) g be

/-! ### Read at an index -/

/-- A vector broadcast to one row reads the vector at the column. -/
theorem bcast_vec_row {α : Type} {N : ℕ} (b : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 b (ix2 u q) = b (ix1 q) :=
  broadcastInDim_apply ![1] h1 b (ix2 u q) (ix1 q) (fun a => by
    match a with
    | ⟨0, _⟩ =>
      show q.val = if N = 1 then 0 else q.val
      split
      · have := q.isLt; omega
      · rfl)

/-- One row broadcast to every row reads the row at the column. -/
theorem bcast_row_mat {α : Type} {M N : ℕ} (x : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 x (ix2 p q) = x (ix2 (0 : Fin 1) q) :=
  broadcastInDim_apply ![0, 1] h2 x (ix2 p q) (ix2 (0 : Fin 1) q) (fun a => by
    match a with
    | ⟨0, _⟩ => rfl
    | ⟨1, _⟩ =>
      show q.val = if N = 1 then 0 else q.val
      split
      · have := q.isLt; omega
      · rfl)

/-- The host's sum of an [n, c] array along its first axis reads, at column q, the initial value plus the sum of the
    column's entries. -/
theorem hostColSum {n c : ℕ} (x : FVec Ideal ⟨2, ![n, c]⟩ .f32) (init : FVec Ideal ⟨0, ![]⟩ .f32)
    (h' : (⟨2, ![n, c]⟩ : Shape).ReducesTo [0] ⟨1, ![c]⟩) (h : (⟨2, ![n, c]⟩ : Shape).Reduces [0] ⟨1, ![c]⟩)
    (hu : 0 < (⟨0, ![]⟩ : Shape).numel) (q : Fin c) :
    Host.reduceAdd x init h' hu (ix1 q) = init (Shape.Idx.first hu) + ∑ k : Fin n, x (ix2 k q) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

theorem rowsR_apply (v : FVec Ideal S64 .f32) (p : Fin 100000) (q : Fin 64) : rowsR v (ix2 p q) = v (ix1 q) :=
  Cert.HostLayout.bcast_vec_mat v bcast_S64_S1x64_1 bcast_S1x64_S100000x64_0_1 p q

theorem sumR_apply (Y : FVec Ideal S100000x64 .f32) (q : Fin 64) : sumR Y (ix1 q) = ∑ p : Fin 100000, Y (ix2 p q) := by
  refine (hostColSum Y _ reducesTo_S100000x64_S64_d0 (by decide) h_S_ q).trans ?_
  show Ideal.ofBits .f32 0x00000000#32 + _ = _
  rw [Ideal.ofBits_zero_f32, zero_add]

theorem biasR_eq (A : FVec Ideal S100000x64 .f32) (b : FVec Ideal S64 .f32) :
    (biasR A b : S100000x64.Idx → EReal) = addRow A (row b) := by
  funext i
  obtain ⟨p, q, rfl⟩ : ∃ (p : Fin 100000) (q : Fin 64), i = ix2 p q := ⟨i 0, i 1, eq_ix2 i⟩
  show A (ix2 p q) + rowsR b (ix2 p q) = _
  rw [rowsR_apply]
  rfl

theorem meanR_apply (Y : FVec Ideal S100000x64 .f32) (q : Fin 64) :
    meanR Y (ix1 q) = mean nR Y (ix2 (0 : Fin 1) q) := by
  show Ideal.div (sumR Y (ix1 q)) (broadcastInDim S64 ![] bcast_S_S64 (constant (F := Ideal) S_ .f32 0x47C35000#32) (ix1 q)) = _
  rw [sumR_apply, broadcastInDim_scalar_apply]
  rfl

theorem cmeanR_apply (Y : FVec Ideal S100000x64 .f32) (u : Fin 1) (q : Fin 64) :
    cmeanR Y (ix2 u q) = mean nR Y (ix2 (0 : Fin 1) q) := by
  show Ideal.div (broadcastInDim S1x64 ![1] bcast_S64_S1x64_1 (sumR Y) (ix2 u q))
    (broadcastInDim S1x64 ![] bcast_S_S1x64 (constant (F := Ideal) S_ .f32 0x47C35000#32) (ix2 u q)) = _
  rw [bcast_vec_row, sumR_apply, broadcastInDim_scalar_apply]
  rfl

theorem devR_apply (Y : FVec Ideal S100000x64 .f32) (p : Fin 100000) (q : Fin 64) :
    devR Y (ix2 p q) = Y (ix2 p q) - mean nR Y (ix2 (0 : Fin 1) q) := by
  show Y (ix2 p q) - broadcastInDim S100000x64 ![0, 1] bcast_S1x64_S100000x64_0_1 (cmeanR Y) (ix2 p q) = _
  rw [bcast_row_mat, cmeanR_apply]

/-- The divisor is the row count. -/
theorem denR_apply : denR ix0 = nR := by
  show Ideal.ofBits .f32 0x47C35000#32 - (((0#32 : BitVec 32).toInt : ℝ) : EReal) = _
  simp

/-- The row count is positive. -/
theorem nR_pos : (0 : EReal) < nR := by
  show (0 : EReal) < Ideal.ofBits .f32 0x47C35000#32
  rw [Cert.GcnStats.ofBits_1e5]
  exact_mod_cast (by norm_num : (0 : ℝ) < 100000)

theorem varR_apply (Y : FVec Ideal S100000x64 .f32) (q : Fin 64) :
    varR Y (ix1 q) = varTwo nR Y (ix2 (0 : Fin 1) q) := by
  show Scalar.select
      (broadcastInDim S64 ![] bcast_S_S64 (cmpf .ogt denR (constant (F := Ideal) S_ .f32 0x00000000#32)) (ix1 q))
      (Ideal.div (sumR (mulf (devR Y) (devR Y)) (ix1 q)) (broadcastInDim S64 ![] bcast_S_S64 denR (ix1 q)))
      (broadcastInDim S64 ![] bcast_S_S64 (constant (F := Ideal) S_ .f32 0x7FC00000#32) (ix1 q)) = _
  rw [broadcastInDim_scalar_apply, broadcastInDim_scalar_apply, sumR_apply, denR_apply]
  have hc : cmpf .ogt denR (constant (F := Ideal) S_ .f32 0x00000000#32) ix0 = 1#1 := by
    show Ideal.cmp .ogt (denR ix0) (Ideal.ofBits .f32 0x00000000#32) = 1#1
    rw [denR_apply, Ideal.ofBits_zero_f32]
    show BitVec.ofBool (decide ((0 : EReal) < nR)) = 1#1
    rw [decide_eq_true nR_pos]
    rfl
  rw [hc, select_one]
  show Ideal.div (∑ p : Fin 100000, devR Y (ix2 p q) * devR Y (ix2 p q)) nR = _
  simp only [devR_apply]
  rfl

theorem bnR_apply (Y : FVec Ideal S100000x64 .f32) (mu var g be : FVec Ideal S64 .f32) (p : Fin 100000) (q : Fin 64) :
    bnR Y mu var g be (ix2 p q)
      = max (g (ix1 q) * (Y (ix2 p q) - mu (ix1 q)) * Ideal.rsqrt (var (ix1 q) + epsR) + be (ix1 q)) 0 := by
  show max (rowsR g (ix2 p q) * (Y (ix2 p q) - rowsR mu (ix2 p q))
        * rowsR (Host.rsqrt (F := Ideal)
            (addf var (broadcastInDim S64 ![] bcast_S_S64 (constant (F := Ideal) S_ .f32 0x3727C5AC#32)))) (ix2 p q)
      + rowsR be (ix2 p q))
    (broadcastInDim S100000x64 ![] bcast_S_S100000x64 (constant (F := Ideal) S_ .f32 0x00000000#32) (ix2 p q)) = _
  rw [rowsR_apply, rowsR_apply, rowsR_apply, rowsR_apply, broadcastInDim_scalar_apply]
  show max (g (ix1 q) * (Y (ix2 p q) - mu (ix1 q))
      * Ideal.rsqrt (var (ix1 q) + broadcastInDim S64 ![] bcast_S_S64 (constant (F := Ideal) S_ .f32 0x3727C5AC#32) (ix1 q))
      + be (ix1 q)) (Ideal.ofBits .f32 0x00000000#32) = _
  rw [broadcastInDim_scalar_apply, Ideal.ofBits_zero_f32]
  rfl

/-- One layer after its aggregation is the specification's layer. -/
theorem postR_eq (agg : FVec Ideal S100000x64 .f32 → FVec Ideal S100000x64 .f32) {K : ℕ} (X : Mat 100000 K) (W : Mat K 64)
    (b g be : FVec Ideal S64 .f32) :
    (postR (agg (mm X W)) b g be : S100000x64.Idx → EReal)
      = layerR (M := 100000) (K := K) (N := 64) nR epsR agg X W (row b) (row g) (row be) := by
  funext i
  obtain ⟨p, q, rfl⟩ : ∃ (p : Fin 100000) (q : Fin 64), i = ix2 p q := ⟨i 0, i 1, eq_ix2 i⟩
  unfold postR layerR
  rw [bnR_apply, meanR_apply, varR_apply, biasR_eq, bnRelu_apply]
  rfl

end Cert.ReferenceIdeal.RefValue

end
-- ==== Proof.RefPrefix.lean ====
/- The reference's operations before the layers read back over any starting contents: the edge tables with the self loops appended, and every edge's coefficient. The stretch is read in three parts — the tables, the weights and degrees, the coefficients — each over the contents the earlier parts leave. -/
import proofs.«148580_j42640435315163_1_alg».proof.Proof.RefRun
import proofs.«148580_j42640435315163_1_alg».proof.Proof.RefHost
import proofs.«148580_j42640435315163_1_alg».proof.Proof.LibTypedRef
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

open Cert.PadSplit

set_option maxRecDepth 16384
set_option maxHeartbeats 16000000

/-- The weights of all edges: the given ones, then the self loops'. -/
def wfB (ew : FVec Ideal S1600000 .f32) (ones : FVec Ideal S100000 .f32) : FVec Ideal S1700000 .f32 :=
  concatenate S1700000 0 [⟨S1600000, ew⟩, ⟨S100000, ones⟩] concatenates_S1600000_S100000_S1700000_d0

theorem preA_src (V : Valuation τ sig (Elt Ideal)) :
    (after (opsPreA (F := Ideal)) V (main_v5 : DevRef τ sig) : S1700000.Idx → BitVec 32) = srcR (V (main_arg14 : DevRef τ sig)) := by
  after_results_simp <;> rfl

theorem preA_dst (V : Valuation τ sig (Elt Ideal)) :
    (after (opsPreA (F := Ideal)) V (main_v6 : DevRef τ sig) : S1700000.Idx → BitVec 32) = dstR (V (main_arg14 : DevRef τ sig)) := by
  after_results_simp <;> rfl

theorem preA_ones (V : Valuation τ sig (Elt Ideal)) :
    (after (opsPreA (F := Ideal)) V (main_v7 : DevRef τ sig) : S100000.Idx → EReal)
      = broadcastInDim S100000 ![] bcast_S_S100000 (constant (F := Ideal) S_ .f32 0x3F800000#32) := by
  after_results_simp <;> rfl

theorem preA_arg1 (V : Valuation τ sig (Elt Ideal)) :
    after (opsPreA (F := Ideal)) V (main_arg1 : DevRef τ sig) = V (main_arg1 : DevRef τ sig) := by
  after_results_simp

theorem preB1_src (W : Valuation τ sig (Elt Ideal)) :
    after (opsPreB1 (F := Ideal)) W (main_v5 : DevRef τ sig) = W (main_v5 : DevRef τ sig) := by
  after_results_simp

theorem preB1_dst (W : Valuation τ sig (Elt Ideal)) :
    after (opsPreB1 (F := Ideal)) W (main_v6 : DevRef τ sig) = W (main_v6 : DevRef τ sig) := by
  after_results_simp

theorem preB1_wf (W : Valuation τ sig (Elt Ideal)) :
    (after (opsPreB1 (F := Ideal)) W (main_v8 : DevRef τ sig) : S1700000.Idx → EReal)
      = wfB (W (main_arg1 : DevRef τ sig)) (W (main_v7 : DevRef τ sig)) := by
  after_results_simp <;> rfl

theorem preB1_deg (W : Valuation τ sig (Elt Ideal)) :
    (after (opsPreB1 (F := Ideal)) W (main_v11 : DevRef τ sig) : S100000.Idx → EReal)
      = degR (W (main_v6 : DevRef τ sig)) (wfB (W (main_arg1 : DevRef τ sig)) (W (main_v7 : DevRef τ sig))) := by
  after_results_simp <;> rfl

theorem preB2_src (W : Valuation τ sig (Elt Ideal)) :
    after (opsPreB2 (F := Ideal)) W (main_v5 : DevRef τ sig) = W (main_v5 : DevRef τ sig) := by
  after_results_simp

theorem preB2_dst (W : Valuation τ sig (Elt Ideal)) :
    after (opsPreB2 (F := Ideal)) W (main_v6 : DevRef τ sig) = W (main_v6 : DevRef τ sig) := by
  after_results_simp

theorem preB2_coef (W : Valuation τ sig (Elt Ideal)) :
    (after (opsPreB2 (F := Ideal)) W (main_v34 : DevRef τ sig) : S1700000.Idx → EReal)
      = normR (disR (W (main_v11 : DevRef τ sig))) (W (main_v5 : DevRef τ sig)) (W (main_v6 : DevRef τ sig))
          (W (main_v8 : DevRef τ sig)) := by
  after_results_simp
  simp only [Cert.TypedRef.ofBuf_toBuf]
  rfl

theorem pre_src (V : Valuation τ sig (Elt Ideal)) :
    (after (opsL0 (F := Ideal)) V (main_v5 : DevRef τ sig) : S1700000.Idx → BitVec 32) = srcR (V (main_arg14 : DevRef τ sig)) := by
  show after (opsPreA ++ (opsPreB1 ++ opsPreB2)) V _ = _
  rw [after_append, after_append, preB2_src, preB1_src, preA_src]

theorem pre_dst (V : Valuation τ sig (Elt Ideal)) :
    (after (opsL0 (F := Ideal)) V (main_v6 : DevRef τ sig) : S1700000.Idx → BitVec 32) = dstR (V (main_arg14 : DevRef τ sig)) := by
  show after (opsPreA ++ (opsPreB1 ++ opsPreB2)) V _ = _
  rw [after_append, after_append, preB2_dst, preB1_dst, preA_dst]

theorem pre_coef (V : Valuation τ sig (Elt Ideal)) :
    (after (opsL0 (F := Ideal)) V (main_v34 : DevRef τ sig) : S1700000.Idx → EReal)
      = coefR (V (main_arg1 : DevRef τ sig)) (V (main_arg14 : DevRef τ sig)) := by
  show after (opsPreA ++ (opsPreB1 ++ opsPreB2)) V _ = _
  rw [after_append, after_append, preB2_coef, preB1_deg, preB1_src, preB1_dst, preB1_wf, preA_src, preA_dst, preA_arg1,
    preA_ones]
  rfl

end Cert.ReferenceIdeal.RefValue

end
-- ==== Proof.RefLayer1.lean ====
/- Layer 1 of the reference read back over any starting contents: the product of the layer's input with its weights, aggregated over the graph, then the bias, the batch statistics, the normalisation and the rectifier, as the named functions of the operands' contents. -/
import proofs.«148580_j42640435315163_1_alg».proof.Proof.RefRun
import proofs.«148580_j42640435315163_1_alg».proof.Proof.RefBn
import proofs.«148580_j42640435315163_1_alg».proof.Proof.LibTypedRef
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

set_option maxRecDepth 16384 in
set_option maxHeartbeats 16000000 in
theorem layer1_read (V : Valuation τ sig (Elt Ideal)) :
    (after (opsL1 (F := Ideal)) V (main_v71 : DevRef τ sig) : S100000x64.Idx → EReal)
      = postR (aggR (V (main_v5 : DevRef τ sig)) (V (main_v6 : DevRef τ sig)) (V (main_v34 : DevRef τ sig))
          (Host.dotGeneral (F := Ideal) (φ₁ := .f32) (φ₂ := .f32) dot_S100000x128_S128x64_S100000x64_1_0_0_1_n_n none
            (V (main_arg0 : DevRef τ sig)) (V (main_arg2 : DevRef τ sig))))
        (V (main_arg3 : DevRef τ sig)) (V (main_arg4 : DevRef τ sig)) (V (main_arg5 : DevRef τ sig)) := by
  simp only [opsL1, Cert.PadSplit.after_append]
  after_results_simp
  simp only [Cert.TypedRef.ofBuf_toBuf]
  rfl

end Cert.ReferenceIdeal.RefValue

end
-- ==== Proof.RefLayer2.lean ====
/- Layer 2 of the reference read back over any starting contents: the product of the layer's input with its weights, aggregated over the graph, then the bias, the batch statistics, the normalisation and the rectifier, as the named functions of the operands' contents. -/
import proofs.«148580_j42640435315163_1_alg».proof.Proof.RefRun
import proofs.«148580_j42640435315163_1_alg».proof.Proof.RefBn
import proofs.«148580_j42640435315163_1_alg».proof.Proof.LibTypedRef
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

set_option maxRecDepth 16384 in
set_option maxHeartbeats 16000000 in
theorem layer2_read (V : Valuation τ sig (Elt Ideal)) :
    (after (opsL2 (F := Ideal)) V (main_v108 : DevRef τ sig) : S100000x64.Idx → EReal)
      = postR (aggR (V (main_v5 : DevRef τ sig)) (V (main_v6 : DevRef τ sig)) (V (main_v34 : DevRef τ sig))
          (Host.dotGeneral (F := Ideal) (φ₁ := .f32) (φ₂ := .f32) dot_S100000x64_S64x64_S100000x64_1_0_0_1_n_n none
            (V (main_v71 : DevRef τ sig)) (V (main_arg6 : DevRef τ sig))))
        (V (main_arg7 : DevRef τ sig)) (V (main_arg8 : DevRef τ sig)) (V (main_arg9 : DevRef τ sig)) := by
  simp only [opsL2, Cert.PadSplit.after_append]
  after_results_simp
  simp only [Cert.TypedRef.ofBuf_toBuf]
  rfl

end Cert.ReferenceIdeal.RefValue

end
-- ==== Proof.RefLayer3.lean ====
/- Layer 3 of the reference read back over any starting contents: the product of the layer's input with its weights, aggregated over the graph, then the bias, the batch statistics, the normalisation and the rectifier, as the named functions of the operands' contents. -/
import proofs.«148580_j42640435315163_1_alg».proof.Proof.RefRun
import proofs.«148580_j42640435315163_1_alg».proof.Proof.RefBn
import proofs.«148580_j42640435315163_1_alg».proof.Proof.LibTypedRef
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

set_option maxRecDepth 16384 in
set_option maxHeartbeats 16000000 in
theorem layer3_read (V : Valuation τ sig (Elt Ideal)) :
    (after (opsL3 (F := Ideal)) V (main_v145 : DevRef τ sig) : S100000x64.Idx → EReal)
      = postR (aggR (V (main_v5 : DevRef τ sig)) (V (main_v6 : DevRef τ sig)) (V (main_v34 : DevRef τ sig))
          (Host.dotGeneral (F := Ideal) (φ₁ := .f32) (φ₂ := .f32) dot_S100000x64_S64x64_S100000x64_1_0_0_1_n_n none
            (V (main_v108 : DevRef τ sig)) (V (main_arg10 : DevRef τ sig))))
        (V (main_arg11 : DevRef τ sig)) (V (main_arg12 : DevRef τ sig)) (V (main_arg13 : DevRef τ sig)) := by
  simp only [opsL3, Cert.PadSplit.after_append]
  after_results_simp
  simp only [Cert.TypedRef.ofBuf_toBuf]
  rfl

end Cert.ReferenceIdeal.RefValue

end
-- ==== Proof.RefTail.lean ====
/- The reference's last operations read back over any starting contents: the result is the last layer's output regrouped by graph, the mask is all ones. -/
import proofs.«148580_j42640435315163_1_alg».proof.Proof.RefRun
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

theorem tail_out (V : Valuation τ sig (Elt Ideal)) :
    (after (opsTail (F := Ideal)) V (main_v146 : DevRef τ sig) : S1000x100x64.Idx → EReal)
      = shapeCast S1000x100x64 (V (main_v145 : DevRef τ sig) : S100000x64.Idx → EReal) shapeCasts_S100000x64_S1000x100x64 := by
  after_results_simp
  rfl

theorem tail_mask (V : Valuation τ sig (Elt Ideal)) :
    (after (opsTail (F := Ideal)) V (main_v147 : DevRef τ sig) : S1000x100.Idx → EReal)
      = broadcastInDim S1000x100 ![] bcast_S_S1000x100 (constant (F := Ideal) S_ .f32 0x3F800000#32) := by
  after_results_simp

end Cert.ReferenceIdeal.RefValue

end
-- ==== Proof.RefKeepL0.lean ====
/- No operation of this stretch of the reference's host operations writes an argument: each keeps its contents. -/
import proofs.«148580_j42640435315163_1_alg».proof.Proof.RefRun
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

set_option maxRecDepth 16384
set_option maxHeartbeats 4000000

theorem keepL0_arg0 (V : Valuation τ sig (Elt Ideal)) :
    after (opsL0 (F := Ideal)) V (main_arg0 : DevRef τ sig) = V (main_arg0 : DevRef τ sig) := by
  simp only [opsL0, opsPre, Cert.PadSplit.after_append]
  after_results_simp

theorem keepL0_arg1 (V : Valuation τ sig (Elt Ideal)) :
    after (opsL0 (F := Ideal)) V (main_arg1 : DevRef τ sig) = V (main_arg1 : DevRef τ sig) := by
  simp only [opsL0, opsPre, Cert.PadSplit.after_append]
  after_results_simp

theorem keepL0_arg2 (V : Valuation τ sig (Elt Ideal)) :
    after (opsL0 (F := Ideal)) V (main_arg2 : DevRef τ sig) = V (main_arg2 : DevRef τ sig) := by
  simp only [opsL0, opsPre, Cert.PadSplit.after_append]
  after_results_simp

theorem keepL0_arg3 (V : Valuation τ sig (Elt Ideal)) :
    after (opsL0 (F := Ideal)) V (main_arg3 : DevRef τ sig) = V (main_arg3 : DevRef τ sig) := by
  simp only [opsL0, opsPre, Cert.PadSplit.after_append]
  after_results_simp

theorem keepL0_arg4 (V : Valuation τ sig (Elt Ideal)) :
    after (opsL0 (F := Ideal)) V (main_arg4 : DevRef τ sig) = V (main_arg4 : DevRef τ sig) := by
  simp only [opsL0, opsPre, Cert.PadSplit.after_append]
  after_results_simp

theorem keepL0_arg5 (V : Valuation τ sig (Elt Ideal)) :
    after (opsL0 (F := Ideal)) V (main_arg5 : DevRef τ sig) = V (main_arg5 : DevRef τ sig) := by
  simp only [opsL0, opsPre, Cert.PadSplit.after_append]
  after_results_simp

theorem keepL0_arg6 (V : Valuation τ sig (Elt Ideal)) :
    after (opsL0 (F := Ideal)) V (main_arg6 : DevRef τ sig) = V (main_arg6 : DevRef τ sig) := by
  simp only [opsL0, opsPre, Cert.PadSplit.after_append]
  after_results_simp

theorem keepL0_arg7 (V : Valuation τ sig (Elt Ideal)) :
    after (opsL0 (F := Ideal)) V (main_arg7 : DevRef τ sig) = V (main_arg7 : DevRef τ sig) := by
  simp only [opsL0, opsPre, Cert.PadSplit.after_append]
  after_results_simp

theorem keepL0_arg8 (V : Valuation τ sig (Elt Ideal)) :
    after (opsL0 (F := Ideal)) V (main_arg8 : DevRef τ sig) = V (main_arg8 : DevRef τ sig) := by
  simp only [opsL0, opsPre, Cert.PadSplit.after_append]
  after_results_simp

theorem keepL0_arg9 (V : Valuation τ sig (Elt Ideal)) :
    after (opsL0 (F := Ideal)) V (main_arg9 : DevRef τ sig) = V (main_arg9 : DevRef τ sig) := by
  simp only [opsL0, opsPre, Cert.PadSplit.after_append]
  after_results_simp

theorem keepL0_arg10 (V : Valuation τ sig (Elt Ideal)) :
    after (opsL0 (F := Ideal)) V (main_arg10 : DevRef τ sig) = V (main_arg10 : DevRef τ sig) := by
  simp only [opsL0, opsPre, Cert.PadSplit.after_append]
  after_results_simp

theorem keepL0_arg11 (V : Valuation τ sig (Elt Ideal)) :
    after (opsL0 (F := Ideal)) V (main_arg11 : DevRef τ sig) = V (main_arg11 : DevRef τ sig) := by
  simp only [opsL0, opsPre, Cert.PadSplit.after_append]
  after_results_simp

theorem keepL0_arg12 (V : Valuation τ sig (Elt Ideal)) :
    after (opsL0 (F := Ideal)) V (main_arg12 : DevRef τ sig) = V (main_arg12 : DevRef τ sig) := by
  simp only [opsL0, opsPre, Cert.PadSplit.after_append]
  after_results_simp

theorem keepL0_arg13 (V : Valuation τ sig (Elt Ideal)) :
    after (opsL0 (F := Ideal)) V (main_arg13 : DevRef τ sig) = V (main_arg13 : DevRef τ sig) := by
  simp only [opsL0, opsPre, Cert.PadSplit.after_append]
  after_results_simp

theorem keepL0_arg14 (V : Valuation τ sig (Elt Ideal)) :
    after (opsL0 (F := Ideal)) V (main_arg14 : DevRef τ sig) = V (main_arg14 : DevRef τ sig) := by
  simp only [opsL0, opsPre, Cert.PadSplit.after_append]
  after_results_simp

theorem keepL0_arg15 (V : Valuation τ sig (Elt Ideal)) :
    after (opsL0 (F := Ideal)) V (main_arg15 : DevRef τ sig) = V (main_arg15 : DevRef τ sig) := by
  simp only [opsL0, opsPre, Cert.PadSplit.after_append]
  after_results_simp

end Cert.ReferenceIdeal.RefValue

end
-- ==== Proof.RefKeepL1.lean ====
/- No operation of this stretch of the reference's host operations writes an argument or one of the three edge tables computed before the layers: each keeps its contents. -/
import proofs.«148580_j42640435315163_1_alg».proof.Proof.RefRun
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

set_option maxRecDepth 16384
set_option maxHeartbeats 4000000

theorem keepL1_arg0 (V : Valuation τ sig (Elt Ideal)) :
    after (opsL1 (F := Ideal)) V (main_arg0 : DevRef τ sig) = V (main_arg0 : DevRef τ sig) := by
  simp only [opsL1, Cert.PadSplit.after_append]
  after_results_simp

theorem keepL1_arg1 (V : Valuation τ sig (Elt Ideal)) :
    after (opsL1 (F := Ideal)) V (main_arg1 : DevRef τ sig) = V (main_arg1 : DevRef τ sig) := by
  simp only [opsL1, Cert.PadSplit.after_append]
  after_results_simp

theorem keepL1_arg2 (V : Valuation τ sig (Elt Ideal)) :
    after (opsL1 (F := Ideal)) V (main_arg2 : DevRef τ sig) = V (main_arg2 : DevRef τ sig) := by
  simp only [opsL1, Cert.PadSplit.after_append]
  after_results_simp

theorem keepL1_arg3 (V : Valuation τ sig (Elt Ideal)) :
    after (opsL1 (F := Ideal)) V (main_arg3 : DevRef τ sig) = V (main_arg3 : DevRef τ sig) := by
  simp only [opsL1, Cert.PadSplit.after_append]
  after_results_simp

theorem keepL1_arg4 (V : Valuation τ sig (Elt Ideal)) :
    after (opsL1 (F := Ideal)) V (main_arg4 : DevRef τ sig) = V (main_arg4 : DevRef τ sig) := by
  simp only [opsL1, Cert.PadSplit.after_append]
  after_results_simp

theorem keepL1_arg5 (V : Valuation τ sig (Elt Ideal)) :
    after (opsL1 (F := Ideal)) V (main_arg5 : DevRef τ sig) = V (main_arg5 : DevRef τ sig) := by
  simp only [opsL1, Cert.PadSplit.after_append]
  after_results_simp

theorem keepL1_arg6 (V : Valuation τ sig (Elt Ideal)) :
    after (opsL1 (F := Ideal)) V (main_arg6 : DevRef τ sig) = V (main_arg6 : DevRef τ sig) := by
  simp only [opsL1, Cert.PadSplit.after_append]
  after_results_simp

theorem keepL1_arg7 (V : Valuation τ sig (Elt Ideal)) :
    after (opsL1 (F := Ideal)) V (main_arg7 : DevRef τ sig) = V (main_arg7 : DevRef τ sig) := by
  simp only [opsL1, Cert.PadSplit.after_append]
  after_results_simp

theorem keepL1_arg8 (V : Valuation τ sig (Elt Ideal)) :
    after (opsL1 (F := Ideal)) V (main_arg8 : DevRef τ sig) = V (main_arg8 : DevRef τ sig) := by
  simp only [opsL1, Cert.PadSplit.after_append]
  after_results_simp

theorem keepL1_arg9 (V : Valuation τ sig (Elt Ideal)) :
    after (opsL1 (F := Ideal)) V (main_arg9 : DevRef τ sig) = V (main_arg9 : DevRef τ sig) := by
  simp only [opsL1, Cert.PadSplit.after_append]
  after_results_simp

theorem keepL1_arg10 (V : Valuation τ sig (Elt Ideal)) :
    after (opsL1 (F := Ideal)) V (main_arg10 : DevRef τ sig) = V (main_arg10 : DevRef τ sig) := by
  simp only [opsL1, Cert.PadSplit.after_append]
  after_results_simp

theorem keepL1_arg11 (V : Valuation τ sig (Elt Ideal)) :
    after (opsL1 (F := Ideal)) V (main_arg11 : DevRef τ sig) = V (main_arg11 : DevRef τ sig) := by
  simp only [opsL1, Cert.PadSplit.after_append]
  after_results_simp

theorem keepL1_arg12 (V : Valuation τ sig (Elt Ideal)) :
    after (opsL1 (F := Ideal)) V (main_arg12 : DevRef τ sig) = V (main_arg12 : DevRef τ sig) := by
  simp only [opsL1, Cert.PadSplit.after_append]
  after_results_simp

theorem keepL1_arg13 (V : Valuation τ sig (Elt Ideal)) :
    after (opsL1 (F := Ideal)) V (main_arg13 : DevRef τ sig) = V (main_arg13 : DevRef τ sig) := by
  simp only [opsL1, Cert.PadSplit.after_append]
  after_results_simp

theorem keepL1_arg14 (V : Valuation τ sig (Elt Ideal)) :
    after (opsL1 (F := Ideal)) V (main_arg14 : DevRef τ sig) = V (main_arg14 : DevRef τ sig) := by
  simp only [opsL1, Cert.PadSplit.after_append]
  after_results_simp

theorem keepL1_arg15 (V : Valuation τ sig (Elt Ideal)) :
    after (opsL1 (F := Ideal)) V (main_arg15 : DevRef τ sig) = V (main_arg15 : DevRef τ sig) := by
  simp only [opsL1, Cert.PadSplit.after_append]
  after_results_simp

theorem keepL1_v5 (V : Valuation τ sig (Elt Ideal)) :
    after (opsL1 (F := Ideal)) V (main_v5 : DevRef τ sig) = V (main_v5 : DevRef τ sig) := by
  simp only [opsL1, Cert.PadSplit.after_append]
  after_results_simp

theorem keepL1_v6 (V : Valuation τ sig (Elt Ideal)) :
    after (opsL1 (F := Ideal)) V (main_v6 : DevRef τ sig) = V (main_v6 : DevRef τ sig) := by
  simp only [opsL1, Cert.PadSplit.after_append]
  after_results_simp

theorem keepL1_v34 (V : Valuation τ sig (Elt Ideal)) :
    after (opsL1 (F := Ideal)) V (main_v34 : DevRef τ sig) = V (main_v34 : DevRef τ sig) := by
  simp only [opsL1, Cert.PadSplit.after_append]
  after_results_simp

end Cert.ReferenceIdeal.RefValue

end
-- ==== Proof.RefKeepL2.lean ====
/- No operation of this stretch of the reference's host operations writes an argument or one of the three edge tables computed before the layers: each keeps its contents. -/
import proofs.«148580_j42640435315163_1_alg».proof.Proof.RefRun
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

set_option maxRecDepth 16384
set_option maxHeartbeats 4000000

theorem keepL2_arg0 (V : Valuation τ sig (Elt Ideal)) :
    after (opsL2 (F := Ideal)) V (main_arg0 : DevRef τ sig) = V (main_arg0 : DevRef τ sig) := by
  simp only [opsL2, Cert.PadSplit.after_append]
  after_results_simp

theorem keepL2_arg1 (V : Valuation τ sig (Elt Ideal)) :
    after (opsL2 (F := Ideal)) V (main_arg1 : DevRef τ sig) = V (main_arg1 : DevRef τ sig) := by
  simp only [opsL2, Cert.PadSplit.after_append]
  after_results_simp

theorem keepL2_arg2 (V : Valuation τ sig (Elt Ideal)) :
    after (opsL2 (F := Ideal)) V (main_arg2 : DevRef τ sig) = V (main_arg2 : DevRef τ sig) := by
  simp only [opsL2, Cert.PadSplit.after_append]
  after_results_simp

theorem keepL2_arg3 (V : Valuation τ sig (Elt Ideal)) :
    after (opsL2 (F := Ideal)) V (main_arg3 : DevRef τ sig) = V (main_arg3 : DevRef τ sig) := by
  simp only [opsL2, Cert.PadSplit.after_append]
  after_results_simp

theorem keepL2_arg4 (V : Valuation τ sig (Elt Ideal)) :
    after (opsL2 (F := Ideal)) V (main_arg4 : DevRef τ sig) = V (main_arg4 : DevRef τ sig) := by
  simp only [opsL2, Cert.PadSplit.after_append]
  after_results_simp

theorem keepL2_arg5 (V : Valuation τ sig (Elt Ideal)) :
    after (opsL2 (F := Ideal)) V (main_arg5 : DevRef τ sig) = V (main_arg5 : DevRef τ sig) := by
  simp only [opsL2, Cert.PadSplit.after_append]
  after_results_simp

theorem keepL2_arg6 (V : Valuation τ sig (Elt Ideal)) :
    after (opsL2 (F := Ideal)) V (main_arg6 : DevRef τ sig) = V (main_arg6 : DevRef τ sig) := by
  simp only [opsL2, Cert.PadSplit.after_append]
  after_results_simp

theorem keepL2_arg7 (V : Valuation τ sig (Elt Ideal)) :
    after (opsL2 (F := Ideal)) V (main_arg7 : DevRef τ sig) = V (main_arg7 : DevRef τ sig) := by
  simp only [opsL2, Cert.PadSplit.after_append]
  after_results_simp

theorem keepL2_arg8 (V : Valuation τ sig (Elt Ideal)) :
    after (opsL2 (F := Ideal)) V (main_arg8 : DevRef τ sig) = V (main_arg8 : DevRef τ sig) := by
  simp only [opsL2, Cert.PadSplit.after_append]
  after_results_simp

theorem keepL2_arg9 (V : Valuation τ sig (Elt Ideal)) :
    after (opsL2 (F := Ideal)) V (main_arg9 : DevRef τ sig) = V (main_arg9 : DevRef τ sig) := by
  simp only [opsL2, Cert.PadSplit.after_append]
  after_results_simp

theorem keepL2_arg10 (V : Valuation τ sig (Elt Ideal)) :
    after (opsL2 (F := Ideal)) V (main_arg10 : DevRef τ sig) = V (main_arg10 : DevRef τ sig) := by
  simp only [opsL2, Cert.PadSplit.after_append]
  after_results_simp

theorem keepL2_arg11 (V : Valuation τ sig (Elt Ideal)) :
    after (opsL2 (F := Ideal)) V (main_arg11 : DevRef τ sig) = V (main_arg11 : DevRef τ sig) := by
  simp only [opsL2, Cert.PadSplit.after_append]
  after_results_simp

theorem keepL2_arg12 (V : Valuation τ sig (Elt Ideal)) :
    after (opsL2 (F := Ideal)) V (main_arg12 : DevRef τ sig) = V (main_arg12 : DevRef τ sig) := by
  simp only [opsL2, Cert.PadSplit.after_append]
  after_results_simp

theorem keepL2_arg13 (V : Valuation τ sig (Elt Ideal)) :
    after (opsL2 (F := Ideal)) V (main_arg13 : DevRef τ sig) = V (main_arg13 : DevRef τ sig) := by
  simp only [opsL2, Cert.PadSplit.after_append]
  after_results_simp

theorem keepL2_arg14 (V : Valuation τ sig (Elt Ideal)) :
    after (opsL2 (F := Ideal)) V (main_arg14 : DevRef τ sig) = V (main_arg14 : DevRef τ sig) := by
  simp only [opsL2, Cert.PadSplit.after_append]
  after_results_simp

theorem keepL2_arg15 (V : Valuation τ sig (Elt Ideal)) :
    after (opsL2 (F := Ideal)) V (main_arg15 : DevRef τ sig) = V (main_arg15 : DevRef τ sig) := by
  simp only [opsL2, Cert.PadSplit.after_append]
  after_results_simp

theorem keepL2_v5 (V : Valuation τ sig (Elt Ideal)) :
    after (opsL2 (F := Ideal)) V (main_v5 : DevRef τ sig) = V (main_v5 : DevRef τ sig) := by
  simp only [opsL2, Cert.PadSplit.after_append]
  after_results_simp

theorem keepL2_v6 (V : Valuation τ sig (Elt Ideal)) :
    after (opsL2 (F := Ideal)) V (main_v6 : DevRef τ sig) = V (main_v6 : DevRef τ sig) := by
  simp only [opsL2, Cert.PadSplit.after_append]
  after_results_simp

theorem keepL2_v34 (V : Valuation τ sig (Elt Ideal)) :
    after (opsL2 (F := Ideal)) V (main_v34 : DevRef τ sig) = V (main_v34 : DevRef τ sig) := by
  simp only [opsL2, Cert.PadSplit.after_append]
  after_results_simp

end Cert.ReferenceIdeal.RefValue

end
-- ==== Proof.RefKeepL3.lean ====
/- No operation of this stretch of the reference's host operations writes an argument: each keeps its contents. -/
import proofs.«148580_j42640435315163_1_alg».proof.Proof.RefRun
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

set_option maxRecDepth 16384
set_option maxHeartbeats 4000000

theorem keepL3_arg0 (V : Valuation τ sig (Elt Ideal)) :
    after (opsL3 (F := Ideal)) V (main_arg0 : DevRef τ sig) = V (main_arg0 : DevRef τ sig) := by
  simp only [opsL3, Cert.PadSplit.after_append]
  after_results_simp

theorem keepL3_arg1 (V : Valuation τ sig (Elt Ideal)) :
    after (opsL3 (F := Ideal)) V (main_arg1 : DevRef τ sig) = V (main_arg1 : DevRef τ sig) := by
  simp only [opsL3, Cert.PadSplit.after_append]
  after_results_simp

theorem keepL3_arg2 (V : Valuation τ sig (Elt Ideal)) :
    after (opsL3 (F := Ideal)) V (main_arg2 : DevRef τ sig) = V (main_arg2 : DevRef τ sig) := by
  simp only [opsL3, Cert.PadSplit.after_append]
  after_results_simp

theorem keepL3_arg3 (V : Valuation τ sig (Elt Ideal)) :
    after (opsL3 (F := Ideal)) V (main_arg3 : DevRef τ sig) = V (main_arg3 : DevRef τ sig) := by
  simp only [opsL3, Cert.PadSplit.after_append]
  after_results_simp

theorem keepL3_arg4 (V : Valuation τ sig (Elt Ideal)) :
    after (opsL3 (F := Ideal)) V (main_arg4 : DevRef τ sig) = V (main_arg4 : DevRef τ sig) := by
  simp only [opsL3, Cert.PadSplit.after_append]
  after_results_simp

theorem keepL3_arg5 (V : Valuation τ sig (Elt Ideal)) :
    after (opsL3 (F := Ideal)) V (main_arg5 : DevRef τ sig) = V (main_arg5 : DevRef τ sig) := by
  simp only [opsL3, Cert.PadSplit.after_append]
  after_results_simp

theorem keepL3_arg6 (V : Valuation τ sig (Elt Ideal)) :
    after (opsL3 (F := Ideal)) V (main_arg6 : DevRef τ sig) = V (main_arg6 : DevRef τ sig) := by
  simp only [opsL3, Cert.PadSplit.after_append]
  after_results_simp

theorem keepL3_arg7 (V : Valuation τ sig (Elt Ideal)) :
    after (opsL3 (F := Ideal)) V (main_arg7 : DevRef τ sig) = V (main_arg7 : DevRef τ sig) := by
  simp only [opsL3, Cert.PadSplit.after_append]
  after_results_simp

theorem keepL3_arg8 (V : Valuation τ sig (Elt Ideal)) :
    after (opsL3 (F := Ideal)) V (main_arg8 : DevRef τ sig) = V (main_arg8 : DevRef τ sig) := by
  simp only [opsL3, Cert.PadSplit.after_append]
  after_results_simp

theorem keepL3_arg9 (V : Valuation τ sig (Elt Ideal)) :
    after (opsL3 (F := Ideal)) V (main_arg9 : DevRef τ sig) = V (main_arg9 : DevRef τ sig) := by
  simp only [opsL3, Cert.PadSplit.after_append]
  after_results_simp

theorem keepL3_arg10 (V : Valuation τ sig (Elt Ideal)) :
    after (opsL3 (F := Ideal)) V (main_arg10 : DevRef τ sig) = V (main_arg10 : DevRef τ sig) := by
  simp only [opsL3, Cert.PadSplit.after_append]
  after_results_simp

theorem keepL3_arg11 (V : Valuation τ sig (Elt Ideal)) :
    after (opsL3 (F := Ideal)) V (main_arg11 : DevRef τ sig) = V (main_arg11 : DevRef τ sig) := by
  simp only [opsL3, Cert.PadSplit.after_append]
  after_results_simp

theorem keepL3_arg12 (V : Valuation τ sig (Elt Ideal)) :
    after (opsL3 (F := Ideal)) V (main_arg12 : DevRef τ sig) = V (main_arg12 : DevRef τ sig) := by
  simp only [opsL3, Cert.PadSplit.after_append]
  after_results_simp

theorem keepL3_arg13 (V : Valuation τ sig (Elt Ideal)) :
    after (opsL3 (F := Ideal)) V (main_arg13 : DevRef τ sig) = V (main_arg13 : DevRef τ sig) := by
  simp only [opsL3, Cert.PadSplit.after_append]
  after_results_simp

theorem keepL3_arg14 (V : Valuation τ sig (Elt Ideal)) :
    after (opsL3 (F := Ideal)) V (main_arg14 : DevRef τ sig) = V (main_arg14 : DevRef τ sig) := by
  simp only [opsL3, Cert.PadSplit.after_append]
  after_results_simp

theorem keepL3_arg15 (V : Valuation τ sig (Elt Ideal)) :
    after (opsL3 (F := Ideal)) V (main_arg15 : DevRef τ sig) = V (main_arg15 : DevRef τ sig) := by
  simp only [opsL3, Cert.PadSplit.after_append]
  after_results_simp

end Cert.ReferenceIdeal.RefValue

end
-- ==== Proof.RefKeepT.lean ====
/- No operation of this stretch of the reference's host operations writes an argument: each keeps its contents. -/
import proofs.«148580_j42640435315163_1_alg».proof.Proof.RefRun
import proofs.«148580_j42640435315163_1_alg».proof.Proof.LibPadSplit

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

set_option maxRecDepth 16384
set_option maxHeartbeats 4000000

theorem keepT_arg0 (V : Valuation τ sig (Elt Ideal)) :
    after (opsTail (F := Ideal)) V (main_arg0 : DevRef τ sig) = V (main_arg0 : DevRef τ sig) := by
  after_results_simp

theorem keepT_arg1 (V : Valuation τ sig (Elt Ideal)) :
    after (opsTail (F := Ideal)) V (main_arg1 : DevRef τ sig) = V (main_arg1 : DevRef τ sig) := by
  after_results_simp

theorem keepT_arg2 (V : Valuation τ sig (Elt Ideal)) :
    after (opsTail (F := Ideal)) V (main_arg2 : DevRef τ sig) = V (main_arg2 : DevRef τ sig) := by
  after_results_simp

theorem keepT_arg3 (V : Valuation τ sig (Elt Ideal)) :
    after (opsTail (F := Ideal)) V (main_arg3 : DevRef τ sig) = V (main_arg3 : DevRef τ sig) := by
  after_results_simp

theorem keepT_arg4 (V : Valuation τ sig (Elt Ideal)) :
    after (opsTail (F := Ideal)) V (main_arg4 : DevRef τ sig) = V (main_arg4 : DevRef τ sig) := by
  after_results_simp

theorem keepT_arg5 (V : Valuation τ sig (Elt Ideal)) :
    after (opsTail (F := Ideal)) V (main_arg5 : DevRef τ sig) = V (main_arg5 : DevRef τ sig) := by
  after_results_simp

theorem keepT_arg6 (V : Valuation τ sig (Elt Ideal)) :
    after (opsTail (F := Ideal)) V (main_arg6 : DevRef τ sig) = V (main_arg6 : DevRef τ sig) := by
  after_results_simp

theorem keepT_arg7 (V : Valuation τ sig (Elt Ideal)) :
    after (opsTail (F := Ideal)) V (main_arg7 : DevRef τ sig) = V (main_arg7 : DevRef τ sig) := by
  after_results_simp

theorem keepT_arg8 (V : Valuation τ sig (Elt Ideal)) :
    after (opsTail (F := Ideal)) V (main_arg8 : DevRef τ sig) = V (main_arg8 : DevRef τ sig) := by
  after_results_simp

theorem keepT_arg9 (V : Valuation τ sig (Elt Ideal)) :
    after (opsTail (F := Ideal)) V (main_arg9 : DevRef τ sig) = V (main_arg9 : DevRef τ sig) := by
  after_results_simp

theorem keepT_arg10 (V : Valuation τ sig (Elt Ideal)) :
    after (opsTail (F := Ideal)) V (main_arg10 : DevRef τ sig) = V (main_arg10 : DevRef τ sig) := by
  after_results_simp

theorem keepT_arg11 (V : Valuation τ sig (Elt Ideal)) :
    after (opsTail (F := Ideal)) V (main_arg11 : DevRef τ sig) = V (main_arg11 : DevRef τ sig) := by
  after_results_simp

theorem keepT_arg12 (V : Valuation τ sig (Elt Ideal)) :
    after (opsTail (F := Ideal)) V (main_arg12 : DevRef τ sig) = V (main_arg12 : DevRef τ sig) := by
  after_results_simp

theorem keepT_arg13 (V : Valuation τ sig (Elt Ideal)) :
    after (opsTail (F := Ideal)) V (main_arg13 : DevRef τ sig) = V (main_arg13 : DevRef τ sig) := by
  after_results_simp

theorem keepT_arg14 (V : Valuation τ sig (Elt Ideal)) :
    after (opsTail (F := Ideal)) V (main_arg14 : DevRef τ sig) = V (main_arg14 : DevRef τ sig) := by
  after_results_simp

theorem keepT_arg15 (V : Valuation τ sig (Elt Ideal)) :
    after (opsTail (F := Ideal)) V (main_arg15 : DevRef τ sig) = V (main_arg15 : DevRef τ sig) := by
  after_results_simp

end Cert.ReferenceIdeal.RefValue

end
-- ==== Proof.RefValue.lean ====
/- The reference's value: its result is three graph-convolution layers with batch normalisation and a rectifier applied in turn
   to the node features, regrouped by graph; its mask is all ones; its arguments are left as they were.

   The line of host operations is read stretch by stretch over the contents the earlier stretches leave: the stretch before the
   layers builds the edge tables and the coefficients, each layer is the named chain of its operands' contents, and a
   stretch keeps every buffer it does not write. A layer's chain is the specification's layer: the host's dot product is
   the matrix product, and the chain after the aggregation is the bias, the two-pass batch statistics over the row count,
   the normalisation and the rectifier. -/
import proofs.«148580_j42640435315163_1_alg».proof.Proof.RefRun
import proofs.«148580_j42640435315163_1_alg».proof.Proof.RefHost
import proofs.«148580_j42640435315163_1_alg».proof.Proof.RefBn
import proofs.«148580_j42640435315163_1_alg».proof.Proof.RefPrefix
import proofs.«148580_j42640435315163_1_alg».proof.Proof.RefLayer1
import proofs.«148580_j42640435315163_1_alg».proof.Proof.RefLayer2
import proofs.«148580_j42640435315163_1_alg».proof.Proof.RefLayer3
import proofs.«148580_j42640435315163_1_alg».proof.Proof.RefTail
import proofs.«148580_j42640435315163_1_alg».proof.Proof.RefKeepL0
import proofs.«148580_j42640435315163_1_alg».proof.Proof.RefKeepL1
import proofs.«148580_j42640435315163_1_alg».proof.Proof.RefKeepL2
import proofs.«148580_j42640435315163_1_alg».proof.Proof.RefKeepL3
import proofs.«148580_j42640435315163_1_alg».proof.Proof.RefKeepT
import proofs.«148580_j42640435315163_1_alg».proof.Proof.LibPadSplit
import proofs.«148580_j42640435315163_1_alg».proof.Proof.LibDense
import proofs.«148580_j42640435315163_1_alg».proof.Proof.Algebra

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Facts]

open Cert.Dense Cert.GcnBn

/-- The whole line as its five stretches, one after the other. -/
theorem after_ops (V : Valuation τ sig (Elt Ideal)) :
    after (ops (F := Ideal)) V
      = after opsTail (after opsL3 (after opsL2 (after opsL1 (after opsL0 V)))) := by
  show after (opsL0 ++ (opsL1 ++ (opsL2 ++ (opsL3 ++ opsTail)))) V = _
  rw [Cert.PadSplit.after_append opsL0, Cert.PadSplit.after_append opsL1, Cert.PadSplit.after_append opsL2,
    Cert.PadSplit.after_append opsL3]

/-- The host's dot product of the first layer is the matrix product. -/
theorem dot1_eq (l : FVec Ideal S100000x128 .f32) (r : FVec Ideal S128x64 .f32) :
    Host.dotGeneral (F := Ideal) (φ₁ := .f32) (φ₂ := .f32) dot_S100000x128_S128x64_S100000x64_1_0_0_1_n_n none l r
      = mm (M := 100000) (K := 128) (N := 64) l r :=
  hostDot_eq_mm (M := 100000) (K := 128) (N := 64) dot_S100000x128_S128x64_S100000x64_1_0_0_1_n_n rfl rfl rfl rfl rfl rfl none l r

/-- The host's dot product of the later layers is the matrix product. -/
theorem dot2_eq (l : FVec Ideal S100000x64 .f32) (r : FVec Ideal S64x64 .f32) :
    Host.dotGeneral (F := Ideal) (φ₁ := .f32) (φ₂ := .f32) dot_S100000x64_S64x64_S100000x64_1_0_0_1_n_n none l r
      = mm (M := 100000) (K := 64) (N := 64) l r :=
  hostDot_eq_mm (M := 100000) (K := 64) (N := 64) dot_S100000x64_S64x64_S100000x64_1_0_0_1_n_n rfl rfl rfl rfl rfl rfl none l r

/-- One layer of the reference, as the specification's layer over the graph's aggregation. -/
abbrev layerOf (ew : FVec Ideal S1600000 .f32) (ei : IVec S2x1600000 32) {K : ℕ} (X : Mat 100000 K) (W : Mat K 64)
    (b g be : FVec Ideal S64 .f32) : Mat 100000 64 :=
  layerR (M := 100000) (K := K) (N := 64) nR epsR (aggR (srcR ei) (dstR ei) (coefR ew ei)) X W (row b) (row g) (row be)

/-- The first layer's chain is the specification's layer. -/
theorem layer1_eq (ew : FVec Ideal S1600000 .f32) (ei : IVec S2x1600000 32) (X : FVec Ideal S100000x128 .f32)
    (W : FVec Ideal S128x64 .f32) (b g be : FVec Ideal S64 .f32) :
    (postR (aggR (srcR ei) (dstR ei) (coefR ew ei)
        (Host.dotGeneral (F := Ideal) (φ₁ := .f32) (φ₂ := .f32) dot_S100000x128_S128x64_S100000x64_1_0_0_1_n_n none X W))
      b g be : S100000x64.Idx → EReal) = layerOf ew ei (K := 128) X W b g be := by
  rw [dot1_eq]
  exact postR_eq (aggR (srcR ei) (dstR ei) (coefR ew ei)) (K := 128) X W b g be

/-- A later layer's chain is the specification's layer. -/
theorem layer2_eq (ew : FVec Ideal S1600000 .f32) (ei : IVec S2x1600000 32) (X : FVec Ideal S100000x64 .f32)
    (W : FVec Ideal S64x64 .f32) (b g be : FVec Ideal S64 .f32) :
    (postR (aggR (srcR ei) (dstR ei) (coefR ew ei)
        (Host.dotGeneral (F := Ideal) (φ₁ := .f32) (φ₂ := .f32) dot_S100000x64_S64x64_S100000x64_1_0_0_1_n_n none X W))
      b g be : S100000x64.Idx → EReal) = layerOf ew ei (K := 64) X W b g be := by
  rw [dot2_eq]
  exact postR_eq (aggR (srcR ei) (dstR ei) (coefR ew ei)) (K := 64) X W b g be

/-- The reference's result: three layers in turn on the node features, regrouped by graph. -/
theorem ref_value (V : Valuation τ sig (Elt Ideal)) :
    (after (ops (F := Ideal)) V (main_v146 : DevRef τ sig) : S1000x100x64.Idx → EReal)
      = shapeCast S1000x100x64
          (layerOf (V (main_arg1 : DevRef τ sig)) (V (main_arg14 : DevRef τ sig))
            (layerOf (V (main_arg1 : DevRef τ sig)) (V (main_arg14 : DevRef τ sig))
              (layerOf (V (main_arg1 : DevRef τ sig)) (V (main_arg14 : DevRef τ sig))
                (V (main_arg0 : DevRef τ sig)) (V (main_arg2 : DevRef τ sig))
                (V (main_arg3 : DevRef τ sig)) (V (main_arg4 : DevRef τ sig)) (V (main_arg5 : DevRef τ sig)))
              (V (main_arg6 : DevRef τ sig))
              (V (main_arg7 : DevRef τ sig)) (V (main_arg8 : DevRef τ sig)) (V (main_arg9 : DevRef τ sig)))
            (V (main_arg10 : DevRef τ sig))
            (V (main_arg11 : DevRef τ sig)) (V (main_arg12 : DevRef τ sig)) (V (main_arg13 : DevRef τ sig)))
          shapeCasts_S100000x64_S1000x100x64 := by
  rw [after_ops, tail_out, layer3_read,
    keepL2_v5, keepL2_v6, keepL2_v34, keepL2_arg10, keepL2_arg11, keepL2_arg12, keepL2_arg13, layer2_read,
    keepL1_v5, keepL1_v6, keepL1_v34, keepL1_arg6, keepL1_arg7, keepL1_arg8, keepL1_arg9, keepL1_arg10, keepL1_arg11,
    keepL1_arg12, keepL1_arg13, layer1_read,
    pre_src, pre_dst, pre_coef, keepL0_arg0, keepL0_arg2, keepL0_arg3, keepL0_arg4, keepL0_arg5, keepL0_arg6, keepL0_arg7,
    keepL0_arg8, keepL0_arg9, keepL0_arg10, keepL0_arg11, keepL0_arg12, keepL0_arg13,
    layer1_eq, layer2_eq, layer2_eq]

/-- The reference's mask: all ones. -/
theorem ref_mask (V : Valuation τ sig (Elt Ideal)) :
    (after (ops (F := Ideal)) V (main_v147 : DevRef τ sig) : S1000x100.Idx → EReal)
      = broadcastInDim S1000x100 ![] bcast_S_S1000x100 (constant (F := Ideal) S_ .f32 0x3F800000#32) := by
  rw [after_ops, tail_mask]

/-- No operation writes argument 0. -/
theorem ref_arg_0 (V : Valuation τ sig (Elt Ideal)) :
    after (ops (F := Ideal)) V (main_arg0 : DevRef τ sig) = V (main_arg0 : DevRef τ sig) := by
  rw [after_ops, keepT_arg0, keepL3_arg0, keepL2_arg0, keepL1_arg0, keepL0_arg0]

/-- No operation writes argument 1. -/
theorem ref_arg_1 (V : Valuation τ sig (Elt Ideal)) :
    after (ops (F := Ideal)) V (main_arg1 : DevRef τ sig) = V (main_arg1 : DevRef τ sig) := by
  rw [after_ops, keepT_arg1, keepL3_arg1, keepL2_arg1, keepL1_arg1, keepL0_arg1]

/-- No operation writes argument 2. -/
theorem ref_arg_2 (V : Valuation τ sig (Elt Ideal)) :
    after (ops (F := Ideal)) V (main_arg2 : DevRef τ sig) = V (main_arg2 : DevRef τ sig) := by
  rw [after_ops, keepT_arg2, keepL3_arg2, keepL2_arg2, keepL1_arg2, keepL0_arg2]

/-- No operation writes argument 3. -/
theorem ref_arg_3 (V : Valuation τ sig (Elt Ideal)) :
    after (ops (F := Ideal)) V (main_arg3 : DevRef τ sig) = V (main_arg3 : DevRef τ sig) := by
  rw [after_ops, keepT_arg3, keepL3_arg3, keepL2_arg3, keepL1_arg3, keepL0_arg3]

/-- No operation writes argument 4. -/
theorem ref_arg_4 (V : Valuation τ sig (Elt Ideal)) :
    after (ops (F := Ideal)) V (main_arg4 : DevRef τ sig) = V (main_arg4 : DevRef τ sig) := by
  rw [after_ops, keepT_arg4, keepL3_arg4, keepL2_arg4, keepL1_arg4, keepL0_arg4]

/-- No operation writes argument 5. -/
theorem ref_arg_5 (V : Valuation τ sig (Elt Ideal)) :
    after (ops (F := Ideal)) V (main_arg5 : DevRef τ sig) = V (main_arg5 : DevRef τ sig) := by
  rw [after_ops, keepT_arg5, keepL3_arg5, keepL2_arg5, keepL1_arg5, keepL0_arg5]

/-- No operation writes argument 6. -/
theorem ref_arg_6 (V : Valuation τ sig (Elt Ideal)) :
    after (ops (F := Ideal)) V (main_arg6 : DevRef τ sig) = V (main_arg6 : DevRef τ sig) := by
  rw [after_ops, keepT_arg6, keepL3_arg6, keepL2_arg6, keepL1_arg6, keepL0_arg6]

/-- No operation writes argument 7. -/
theorem ref_arg_7 (V : Valuation τ sig (Elt Ideal)) :
    after (ops (F := Ideal)) V (main_arg7 : DevRef τ sig) = V (main_arg7 : DevRef τ sig) := by
  rw [after_ops, keepT_arg7, keepL3_arg7, keepL2_arg7, keepL1_arg7, keepL0_arg7]

/-- No operation writes argument 8. -/
theorem ref_arg_8 (V : Valuation τ sig (Elt Ideal)) :
    after (ops (F := Ideal)) V (main_arg8 : DevRef τ sig) = V (main_arg8 : DevRef τ sig) := by
  rw [after_ops, keepT_arg8, keepL3_arg8, keepL2_arg8, keepL1_arg8, keepL0_arg8]

/-- No operation writes argument 9. -/
theorem ref_arg_9 (V : Valuation τ sig (Elt Ideal)) :
    after (ops (F := Ideal)) V (main_arg9 : DevRef τ sig) = V (main_arg9 : DevRef τ sig) := by
  rw [after_ops, keepT_arg9, keepL3_arg9, keepL2_arg9, keepL1_arg9, keepL0_arg9]

/-- No operation writes argument 10. -/
theorem ref_arg_10 (V : Valuation τ sig (Elt Ideal)) :
    after (ops (F := Ideal)) V (main_arg10 : DevRef τ sig) = V (main_arg10 : DevRef τ sig) := by
  rw [after_ops, keepT_arg10, keepL3_arg10, keepL2_arg10, keepL1_arg10, keepL0_arg10]

/-- No operation writes argument 11. -/
theorem ref_arg_11 (V : Valuation τ sig (Elt Ideal)) :
    after (ops (F := Ideal)) V (main_arg11 : DevRef τ sig) = V (main_arg11 : DevRef τ sig) := by
  rw [after_ops, keepT_arg11, keepL3_arg11, keepL2_arg11, keepL1_arg11, keepL0_arg11]

/-- No operation writes argument 12. -/
theorem ref_arg_12 (V : Valuation τ sig (Elt Ideal)) :
    after (ops (F := Ideal)) V (main_arg12 : DevRef τ sig) = V (main_arg12 : DevRef τ sig) := by
  rw [after_ops, keepT_arg12, keepL3_arg12, keepL2_arg12, keepL1_arg12, keepL0_arg12]

/-- No operation writes argument 13. -/
theorem ref_arg_13 (V : Valuation τ sig (Elt Ideal)) :
    after (ops (F := Ideal)) V (main_arg13 : DevRef τ sig) = V (main_arg13 : DevRef τ sig) := by
  rw [after_ops, keepT_arg13, keepL3_arg13, keepL2_arg13, keepL1_arg13, keepL0_arg13]

/-- No operation writes argument 14. -/
theorem ref_arg_14 (V : Valuation τ sig (Elt Ideal)) :
    after (ops (F := Ideal)) V (main_arg14 : DevRef τ sig) = V (main_arg14 : DevRef τ sig) := by
  rw [after_ops, keepT_arg14, keepL3_arg14, keepL2_arg14, keepL1_arg14, keepL0_arg14]

/-- No operation writes argument 15. -/
theorem ref_arg_15 (V : Valuation τ sig (Elt Ideal)) :
    after (ops (F := Ideal)) V (main_arg15 : DevRef τ sig) = V (main_arg15 : DevRef τ sig) := by
  rw [after_ops, keepT_arg15, keepL3_arg15, keepL2_arg15, keepL1_arg15, keepL0_arg15]

end Cert.ReferenceIdeal.RefValue

end
-- ==== Proof.LibFiniteReal.lean ====
/-
  Real numbers among the extended reals: what a finiteness test says, and which host operations keep arrays real.

  A float precondition of the form `all (|x| < +∞)` reaches a proof as a reduction by `and`, from the constant one, of
  the comparison of `|x|` (the host's `max x (−x)`) with the broadcast pattern of `+∞`, stated to be one.  Then every
  comparison is one; a comparison `a < b` that is one means `a < b`; and `max x (−x) < ⊤` excludes both infinities, so
  `x` is the coercion of a real number.

  A gather only re-reads entries of its operand, so it keeps a real array real whatever its indices are.  An
  accumulating scatter is, entry by entry, the operand's entry plus a finite sum of update entries, so it keeps real
  arrays real.  A broadcast of the zero pattern is the real number zero everywhere.
-/
import Idealize.ShloMosaic.PureOps
import Idealize.ShloMosaic.PureOps.Ideal
import Idealize.ShloMosaic.PureOps.Ideal.Laws
import Idealize.ShloMosaic.Lib.ValueIdx
import Idealize.ShloMosaic.Lib.ReduceAll
import proofs.«148580_j42640435315163_1_alg».proof.Proof.LibGcnStats

noncomputable section

open scoped BigOperators

namespace Cert.FiniteReal

open Idealize.ShloMosaic Idealize.ShloMosaic.ValueIdx Cert.GcnStats

/-- The scalar shape has one index. -/
instance : Subsingleton (⟨0, ![]⟩ : Shape).Idx := ⟨fun a b => funext fun d => d.elim0⟩

/-- The pattern with all exponent bits set and a zero significand denotes `+∞`. -/
theorem ofBits_inf : Ideal.ofBits .f32 0x7F800000#32 = ⊤ := by
  simp [Ideal.ofBits, Ideal.ieee]

/-- An ordered `less than` whose word is one says `a < b`. -/
theorem lt_of_cmp_olt {a b : EReal} (h : Ideal.cmp .olt a b = 1#1) : a < b := by
  by_contra hn
  have h' : BitVec.ofBool (decide (a < b)) = 1#1 := h
  rw [decide_eq_false hn] at h'
  exact absurd h' (by decide)

/-- An extended real whose absolute value tests below the pattern of `+∞` is a real number. -/
theorem isReal_of_abs_lt_inf (x : EReal)
    (h : Ideal.cmp .olt (max x (-x)) (Ideal.ofBits .f32 0x7F800000#32) = 1#1) : IsReal x := by
  rw [ofBits_inf] at h
  obtain ⟨h1, h2⟩ := max_lt_iff.mp (lt_of_cmp_olt h)
  have hb : x ≠ ⊥ := by
    intro hx
    rw [hx, EReal.neg_bot] at h2
    exact lt_irrefl _ h2
  exact ⟨x.toReal, (EReal.coe_toReal h1.ne hb).symm⟩

/-- `all (|X| < +∞)` stated as one makes every entry of `X` a real number. -/
theorem real_of_all_finite {s : Shape} {axes : List (Fin s.rank)} (X : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi
        (cmpf (F := Ideal) .olt (Host.absf (F := Ideal) X)
          (broadcastInDim s ![] hb (constant (F := Ideal) ⟨0, ![]⟩ .f32 0x7F800000#32)))
        (constantI ⟨0, ![]⟩ 1 1#1) hr hu ix0 = 1#1) : ∀ i, IsReal (X i) := by
  intro i
  have hi := Host.reduce_andi_all _ _ hr hu ix0 h i
  exact isReal_of_abs_lt_inf (X i) hi

/-- A conjunction of two scalar truth values that is one has both conjuncts one. -/
theorem and_ix0 (x y : IVec ⟨0, ![]⟩ 1) (h : andi x y ix0 = 1#1) : x ix0 = 1#1 ∧ y ix0 = 1#1 :=
  IntOp.andi_eq_one.mp h

/-- A gather of a real array is real. -/
theorem real_gather {s si t : Shape} {w : ℕ} (d : GatherDims s si t) (x : s.Idx → EReal) (idx : IVec si w)
    (hx : ∀ i, IsReal (x i)) : ∀ j, IsReal (Host.gather d x idx j) := by
  intro j
  show IsReal (x (d.operandIdx j idx))
  exact hx _

/-- An accumulating scatter of real updates into a real operand is real. -/
theorem real_scatterAdd {s si u : Shape} {w : ℕ} (d : ScatterDims s si u) (x : FVec Ideal s .f32) (idx : IVec si w)
    (upd : FVec Ideal u .f32) (hx : ∀ i, IsReal (x i)) (hu : ∀ i, IsReal (upd i)) :
    ∀ j, IsReal (Host.scatterAdd (F := Ideal) d x idx upd j) := by
  intro j
  show IsReal (Ideal.hostScatterAdd d x idx upd j)
  unfold Ideal.hostScatterAdd
  exact (hx j).add (isReal_sum _ _ fun k _ => hu k)

/-- The zero pattern broadcast to any shape is the real number zero everywhere. -/
theorem real_bcast_zero {t : Shape} (hb : (⟨0, ![]⟩ : Shape).BroadcastsInDim t (![] : Fin 0 → Fin t.rank)) :
    ∀ j, IsReal (broadcastInDim t ![] hb (constant (F := Ideal) ⟨0, ![]⟩ .f32 0x00000000#32) j) := by
  intro j
  show IsReal (Ideal.ofBits .f32 0x00000000#32)
  rw [Ideal.ofBits_zero_f32]
  exact isReal_zero

end Cert.FiniteReal

end
-- ==== Proof.KReal.lean ====
import proofs.«148580_j42640435315163_1_alg».proof.Proof.KHost
import proofs.«148580_j42640435315163_1_alg».proof.Proof.LibFiniteReal
import proofs.«148580_j42640435315163_1_alg».proof.Proof.LibGcnStats
import Idealize.ShloMosaic.Lib.ValueIdx
import Idealize.ShloMosaic.Lib.Pipeline.Value

/-! The operations on the graph's arrays keep real arrays real.

An entry of the extended weight list is a given weight or the number one. A node's degree is zero plus a finite sum
of weights. The guarded reciprocal square root of a real degree is the reciprocal square root of a positive real
where the degree is positive and zero elsewhere. An edge's coefficient is a product of three such reals (a lookup only
re-reads entries, whatever the positions are). A layer's aggregation is, entry by entry, zero plus a finite sum of
products of a looked-up feature and a coefficient. So, from real weights and real features, every array these
operations produce consists of real numbers. -/

noncomputable section

namespace Cert.KernelIdeal.KHost

open Idealize.ShloMosaic Idealize.ShloMosaic.ValueIdx Cert.KernelIdeal Cert.KernelIdeal.Facts₀ Cert.KernelIdeal.Facts
open Cert.GcnStats Cert.FiniteReal

variable [Cert.KernelIdeal.Facts]

/-- A broadcast along any axes only re-reads entries of its operand, so it keeps a real array real. -/
theorem real_bcastInDim {s t : Shape} (dims : Fin s.rank → Fin t.rank) (h : s.BroadcastsInDim t dims)
    (x : s.Idx → EReal) (hx : ∀ i, IsReal (x i)) : ∀ j, IsReal (broadcastInDim t dims h x j) := by
  intro j
  unfold broadcastInDim
  exact hx _

/-- The extended weight list — the given weights, then a one per self loop — is real when the given weights are. -/
theorem real_wf (ew : FVec Ideal S1600000 .f32) (hew : ∀ i, IsReal (ew i)) : ∀ e, IsReal (wfK ew e) := by
  intro e
  obtain ⟨k, rfl⟩ : ∃ k : Fin 1700000, e = ix1 k := ⟨e 0, eq_ix1 e⟩
  unfold wfK
  by_cases hk : k.val < 1600000
  · rw [concatenate_pair_apply_left (0 : Fin S1700000.rank) ew _ concatenates_S1600000_S100000_S1700000_d0 (ix1 k) rfl
      (ix1 (⟨k.val, hk⟩ : Fin 1600000)) (fun b => by obtain rfl : b = 0 := Subsingleton.elim (α := Fin 1) _ _; rfl)]
    exact hew _
  · have hk' : k.val - 1600000 < 100000 := by have := k.isLt; omega
    rw [concatenate_pair_apply_right (0 : Fin S1700000.rank) ew _ concatenates_S1600000_S100000_S1700000_d0 (ix1 k) rfl rfl
      (ix1 (⟨k.val - 1600000, hk'⟩ : Fin 100000))
      (fun b hb => absurd (Subsingleton.elim (α := Fin 1) _ _) hb)
      (by show k.val - 1600000 + 1600000 = k.val; omega)]
    show IsReal (Ideal.ofBits .f32 0x3F800000#32)
    rw [ofBits_one]
    exact isReal_one

/-- A node's degree — zero plus the weights arriving at it — is real when the weights are. -/
theorem real_deg (dst : IVec S1700000 32) (wf : FVec Ideal S1700000 .f32) (hwf : ∀ e, IsReal (wf e)) :
    ∀ i, IsReal (degK dst wf i) := by
  unfold degK
  exact real_scatterAdd _ _ _ _ (real_bcast_zero _) hwf

/-- On one real number: the reciprocal square root where it is positive, zero elsewhere, is a real number. The inner
    selection hands the root the number itself where it is positive. -/
theorem isReal_guarded (x : EReal) (hx : IsReal x) :
    IsReal (Scalar.select (Ideal.cmp .ogt x (Ideal.ofBits .f32 0x00000000#32))
      (Ideal.rsqrt (Scalar.select (Ideal.cmp .ogt x (Ideal.ofBits .f32 0x00000000#32)) x
        (Ideal.ofBits .f32 0x3F800000#32)))
      (Ideal.ofBits .f32 0x00000000#32)) := by
  rw [Ideal.ofBits_zero_f32]
  by_cases h : (0 : EReal) < x
  · have h1 : Ideal.cmp .ogt x 0 = 1#1 := by
      show BitVec.ofBool (decide ((0 : EReal) < x)) = 1#1
      rw [decide_eq_true h]; rfl
    rw [h1, select_one, select_one]
    exact isReal_rsqrt_pos hx h
  · have h0 : Ideal.cmp .ogt x 0 = 0#1 := by
      show BitVec.ofBool (decide ((0 : EReal) < x)) = 0#1
      rw [decide_eq_false h]; rfl
    rw [h0, select_zero]
    exact isReal_zero

/-- The guarded reciprocal square roots of real degrees are real. -/
theorem real_dis (deg : FVec Ideal S100000 .f32) (hdeg : ∀ i, IsReal (deg i)) : ∀ i, IsReal (disK deg i) := by
  intro i
  exact isReal_guarded (deg i) (hdeg i)

/-- An edge's coefficient, a product of two looked-up factors and its weight, is real when the factors and the weights
    are. -/
theorem real_norm (dis : FVec Ideal S100000 .f32) (src dst : IVec S1700000 32) (wf : FVec Ideal S1700000 .f32)
    (hdis : ∀ i, IsReal (dis i)) (hwf : ∀ e, IsReal (wf e)) : ∀ e, IsReal (normK dis src dst wf e) := by
  intro e
  unfold normK
  rw [mulf_apply, mulf_apply]
  exact ((real_gather _ dis (wrapK src) hdis e).mul (hwf e)).mul (real_gather _ dis (wrapK dst) hdis e)

/-- Every edge's coefficient is a real number when the given weights are, whatever the edge table holds. -/
theorem real_coef (ew : FVec Ideal S1600000 .f32) (ei : IVec S2x1600000 32) (hew : ∀ i, Cert.GcnStats.IsReal (ew i)) :
    ∀ e, Cert.GcnStats.IsReal (coefK ew ei e) := by
  unfold coefK
  exact real_norm _ _ _ _ (real_dis _ (real_deg _ _ (real_wf ew hew))) (real_wf ew hew)

/-- One layer's aggregation of real features with real coefficients is real. -/
theorem real_agg (src dst : IVec S1700000 32) (nrm : FVec Ideal S1700000 .f32) (H : FVec Ideal S100000x64 .f32)
    (hn : ∀ e, Cert.GcnStats.IsReal (nrm e)) (hH : ∀ i, Cert.GcnStats.IsReal (H i)) :
    ∀ i, Cert.GcnStats.IsReal (aggK src dst nrm H i) := by
  unfold aggK
  refine real_scatterAdd _ _ _ _ (real_bcast_zero _) fun j => ?_
  rw [mulf_apply]
  exact (real_gather _ H (wrapK src) hH j).mul
    (real_bcastInDim _ _ _ (real_bcastInDim _ _ nrm hn) j)

end Cert.KernelIdeal.KHost

end
-- ==== Proof.PreReal.lean ====
import proofs.«148580_j42640435315163_1_alg».proof.Pre_finite_inputs
import proofs.«148580_j42640435315163_1_alg».proof.Proof.LibFiniteReal

/-! What the finiteness test of the inputs says: every float input is an array of real numbers.

The test is a conjunction of fourteen scalar truth values, one per float input, each of them `all (|x| < +∞)` over
that input. A conjunction that is one has every conjunct one, and `all (|x| < +∞)` stated as one makes every entry of
`x` the coercion of a real number. The two integer tables are not tested. -/

noncomputable section

namespace Cert.PreReal

open Idealize.ShloMosaic Idealize.ShloMosaic.ValueIdx Cert.GcnStats Cert.FiniteReal Cert.Pre_finite_inputs
open Cert.Pre_finite_inputs.Facts

/-- The finiteness test stated as one makes each of the fourteen float inputs real, entry by entry. -/
theorem real_of_pre [Cert.Pre_finite_inputs.Facts]
    (a0 : FVec Ideal S100000x128 .f32) (a1 : FVec Ideal S1600000 .f32) (a2 : FVec Ideal S128x64 .f32)
    (a3 : FVec Ideal S64 .f32) (a4 : FVec Ideal S64 .f32) (a5 : FVec Ideal S64 .f32) (a6 : FVec Ideal S64x64 .f32)
    (a7 : FVec Ideal S64 .f32) (a8 : FVec Ideal S64 .f32) (a9 : FVec Ideal S64 .f32) (a10 : FVec Ideal S64x64 .f32)
    (a11 : FVec Ideal S64 .f32) (a12 : FVec Ideal S64 .f32) (a13 : FVec Ideal S64 .f32)
    (a14 : IVec S2x1600000 32) (a15 : IVec S100000 32)
    (h : Cert.Pre_finite_inputs.fn (F := Ideal) a0 a1 a2 a3 a4 a5 a6 a7 a8 a9 a10 a11 a12 a13 a14 a15 = fun _ => 1#1) :
    (∀ i, Cert.GcnStats.IsReal (a0 i)) ∧ (∀ i, Cert.GcnStats.IsReal (a1 i)) ∧ (∀ i, Cert.GcnStats.IsReal (a2 i)) ∧
      (∀ i, Cert.GcnStats.IsReal (a3 i)) ∧ (∀ i, Cert.GcnStats.IsReal (a4 i)) ∧ (∀ i, Cert.GcnStats.IsReal (a5 i)) ∧
      (∀ i, Cert.GcnStats.IsReal (a6 i)) ∧ (∀ i, Cert.GcnStats.IsReal (a7 i)) ∧ (∀ i, Cert.GcnStats.IsReal (a8 i)) ∧
      (∀ i, Cert.GcnStats.IsReal (a9 i)) ∧ (∀ i, Cert.GcnStats.IsReal (a10 i)) ∧ (∀ i, Cert.GcnStats.IsReal (a11 i)) ∧
      (∀ i, Cert.GcnStats.IsReal (a12 i)) ∧ (∀ i, Cert.GcnStats.IsReal (a13 i)) := by
  have h0 := congrFun h ix0
  dsimp only [fn, fn_part1, fn_part2, fn_part3, fn_part4] at h0
  obtain ⟨h0, c13⟩ := and_ix0 _ _ h0
  obtain ⟨h0, c12⟩ := and_ix0 _ _ h0
  obtain ⟨h0, c11⟩ := and_ix0 _ _ h0
  obtain ⟨h0, c10⟩ := and_ix0 _ _ h0
  obtain ⟨h0, c9⟩ := and_ix0 _ _ h0
  obtain ⟨h0, c8⟩ := and_ix0 _ _ h0
  obtain ⟨h0, c7⟩ := and_ix0 _ _ h0
  obtain ⟨h0, c6⟩ := and_ix0 _ _ h0
  obtain ⟨h0, c5⟩ := and_ix0 _ _ h0
  obtain ⟨h0, c4⟩ := and_ix0 _ _ h0
  obtain ⟨h0, c3⟩ := and_ix0 _ _ h0
  obtain ⟨h0, c2⟩ := and_ix0 _ _ h0
  obtain ⟨c0, c1⟩ := and_ix0 _ _ h0
  exact ⟨real_of_all_finite a0 _ _ _ c0, real_of_all_finite a1 _ _ _ c1, real_of_all_finite a2 _ _ _ c2,
    real_of_all_finite a3 _ _ _ c3, real_of_all_finite a4 _ _ _ c4, real_of_all_finite a5 _ _ _ c5,
    real_of_all_finite a6 _ _ _ c6, real_of_all_finite a7 _ _ _ c7, real_of_all_finite a8 _ _ _ c8,
    real_of_all_finite a9 _ _ _ c9, real_of_all_finite a10 _ _ _ c10, real_of_all_finite a11 _ _ _ c11,
    real_of_all_finite a12 _ _ _ c12, real_of_all_finite a13 _ _ _ c13⟩

end Cert.PreReal

end
-- ==== Proof.Net.lean ====
import proofs.«148580_j42640435315163_1_alg».proof.Proof.Algebra

/-! Three layers in a row: with real inputs and parameters, an aggregation map that takes real arrays to real
arrays, the count equal to the number of rows and a positive real offset, the network built from the one-pass
variance is the network built from the two-pass variance. Each layer's output is real, which is what the next
layer's comparison needs. -/

noncomputable section

namespace Cert.GcnBn

open Idealize.ShloMosaic Idealize.ShloMosaic.ValueIdx Cert.Dense Cert.GcnStats

variable {M K N : ℕ}

/-- A vector of reals read as a one-row array is a row of reals. -/
theorem isReal_row (b : Row N) (hb : ∀ i, IsReal (b i)) : ∀ i, IsReal (row b i) := fun _ => hb _

/-- One layer on real data: the two forms agree and the result is real. -/
theorem layer_step (hM : 0 < M) (n eps : EReal) (hn : n = ((M : ℝ) : EReal)) (heps : IsReal eps) (hpos : 0 < eps)
    (agg : Mat M N → Mat M N) (hagg : ∀ H : Mat M N, (∀ i, IsReal (H i)) → ∀ i, IsReal (agg H i))
    (X : Mat M K) (W : Mat K N) (b g be : Mat 1 N) (hX : ∀ i, IsReal (X i)) (hW : ∀ i, IsReal (W i))
    (hb : ∀ i, IsReal (b i)) (hg : ∀ i, IsReal (g i)) (hbe : ∀ i, IsReal (be i)) :
    layerK n eps agg X W b g be = layerR n eps agg X W b g be ∧ ∀ i, IsReal (layerR n eps agg X W b g be i) :=
  layerK_eq_layerR hM n eps hn heps hpos agg X W b g be
    (fun i => (hagg _ (isReal_mm X W hX hW) i).add (hb _)) hg hbe

/-- Three layers on real data. -/
theorem net_eq {K1 : ℕ} (hM : 0 < M) (n eps : EReal) (hn : n = ((M : ℝ) : EReal)) (heps : IsReal eps) (hpos : 0 < eps)
    (agg : Mat M N → Mat M N) (hagg : ∀ H : Mat M N, (∀ i, IsReal (H i)) → ∀ i, IsReal (agg H i))
    (X : Mat M K1) (W1 : Mat K1 N) (b1 g1 be1 : Mat 1 N) (W2 : Mat N N) (b2 g2 be2 : Mat 1 N)
    (W3 : Mat N N) (b3 g3 be3 : Mat 1 N)
    (hX : ∀ i, IsReal (X i)) (hW1 : ∀ i, IsReal (W1 i)) (hb1 : ∀ i, IsReal (b1 i)) (hg1 : ∀ i, IsReal (g1 i))
    (hbe1 : ∀ i, IsReal (be1 i)) (hW2 : ∀ i, IsReal (W2 i)) (hb2 : ∀ i, IsReal (b2 i)) (hg2 : ∀ i, IsReal (g2 i))
    (hbe2 : ∀ i, IsReal (be2 i)) (hW3 : ∀ i, IsReal (W3 i)) (hb3 : ∀ i, IsReal (b3 i)) (hg3 : ∀ i, IsReal (g3 i))
    (hbe3 : ∀ i, IsReal (be3 i)) :
    layerK n eps agg (layerK n eps agg (layerK n eps agg X W1 b1 g1 be1) W2 b2 g2 be2) W3 b3 g3 be3
      = layerR n eps agg (layerR n eps agg (layerR n eps agg X W1 b1 g1 be1) W2 b2 g2 be2) W3 b3 g3 be3 := by
  obtain ⟨e1, r1⟩ := layer_step hM n eps hn heps hpos agg hagg X W1 b1 g1 be1 hX hW1 hb1 hg1 hbe1
  obtain ⟨e2, r2⟩ := layer_step hM n eps hn heps hpos agg hagg _ W2 b2 g2 be2 r1 hW2 hb2 hg2 hbe2
  obtain ⟨e3, _⟩ := layer_step hM n eps hn heps hpos agg hagg _ W3 b3 g3 be3 r2 hW3 hb3 hg3 hbe3
  rw [e1, e2, e3]

end Cert.GcnBn

end
-- ==== Proof.Consts.lean ====
import Idealize.ShloMosaic.PureOps.Ideal
import proofs.«148580_j42640435315163_1_alg».proof.Proof.LibGcnStats

/-! The two float words the layers share: the row count 100000 and the variance's offset, a positive real. -/

noncomputable section

namespace Cert.GcnBn

open Idealize.ShloMosaic Cert.GcnStats

/-- The pattern 0x3727C5AC: exponent field 110, significand `2^23 + 0x27C5AC = 10995116`, so the word is
    `10995116 · 2^(110 − 127 − 23)`, the float nearest to `10⁻⁵`. -/
theorem ofBits_eps : Ideal.ofBits .f32 0x3727C5AC#32 = ((10995116 / 2 ^ 40 : ℝ) : EReal) := by
  simp [Ideal.ofBits, Ideal.ieee, -EReal.coe_mul]; norm_num

theorem eps_real : IsReal (Ideal.ofBits .f32 0x3727C5AC#32) := ⟨_, ofBits_eps⟩

theorem eps_pos : (0 : EReal) < Ideal.ofBits .f32 0x3727C5AC#32 := by
  rw [ofBits_eps, ← EReal.coe_zero, EReal.coe_lt_coe_iff]; positivity

/-- The row count's word is the real number 100000. -/
theorem n_eq : Ideal.ofBits .f32 0x47C35000#32 = (((100000 : ℕ) : ℝ) : EReal) := by
  rw [ofBits_1e5]; norm_num

end Cert.GcnBn

end
-- ==== Proof.Bridge.lean ====
import proofs.«148580_j42640435315163_1_alg».proof.Defs
import proofs.«148580_j42640435315163_1_alg».proof.Proof.Gen.KernelIdeal
import proofs.«148580_j42640435315163_1_alg».proof.Proof.Gen.ReferenceIdeal
import proofs.«148580_j42640435315163_1_alg».proof.Proof.Gen.Pre_finite_inputs
import proofs.«148580_j42640435315163_1_alg».proof.Proof.KValue
import proofs.«148580_j42640435315163_1_alg».proof.Proof.KReal
import proofs.«148580_j42640435315163_1_alg».proof.Proof.PreReal
import proofs.«148580_j42640435315163_1_alg».proof.Proof.RefValue
import proofs.«148580_j42640435315163_1_alg».proof.Proof.Net
import proofs.«148580_j42640435315163_1_alg».proof.Proof.Consts

/-! The two networks are one function of the arguments.

The reference's three layers use the two-pass variance, the kernel's the one-pass variance; both aggregate with
the same host operations over the same edge list. Under the precondition every float argument is a real number,
so the edge coefficients are real, every aggregation of a real array is real, and layer by layer the two
variances agree (`net_eq`). -/

noncomputable section

namespace Cert.Proof.Bridge

open Idealize.ShloMosaic Idealize.ShloMosaic.TcCoe Idealize.SL.Sem
open Cert.Dense Cert.GcnBn Cert.GcnStats
open Cert.KernelIdeal.KHost Cert.KernelIdeal.KValue Cert.KernelIdeal.KStretch Cert.ReferenceIdeal.RefValue

/-- The reference's graph operations are the kernel program's, operation for operation. -/
theorem agg_eq (ew : FVec Ideal Cert.KernelIdeal.S1600000 .f32) (ei : IVec Cert.KernelIdeal.S2x1600000 32) :
    aggR (srcR ei) (dstR ei) (coefR ew ei) = aggK (srcK ei) (dstK ei) (coefK ew ei) := rfl

/-- Under the precondition the reference's network on the kernel's arguments is the kernel's network. -/
theorem net_eq_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    layerOf (m ((c.tc : Thread Cert.KernelIdeal.nD Cert.KernelIdeal.τ).loc Cert.KernelIdeal.main_arg1))
        (m ((c.tc : Thread Cert.KernelIdeal.nD Cert.KernelIdeal.τ).loc Cert.KernelIdeal.main_arg14))
      (layerOf (m ((c.tc : Thread Cert.KernelIdeal.nD Cert.KernelIdeal.τ).loc Cert.KernelIdeal.main_arg1))
          (m ((c.tc : Thread Cert.KernelIdeal.nD Cert.KernelIdeal.τ).loc Cert.KernelIdeal.main_arg14))
        (layerOf (m ((c.tc : Thread Cert.KernelIdeal.nD Cert.KernelIdeal.τ).loc Cert.KernelIdeal.main_arg1))
            (m ((c.tc : Thread Cert.KernelIdeal.nD Cert.KernelIdeal.τ).loc Cert.KernelIdeal.main_arg14))
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      = netK m c := by
  obtain ⟨h0, h1, h2, h3, h4, h5, h6, h7, h8, h9, h10, h11, h12, h13⟩ :=
    Cert.PreReal.real_of_pre _ _ _ _ _ _ _ _ _ _ _ _ _ _ _ _ (hpre c)
  have hagg : ∀ H : Mat 100000 64, (∀ i, IsReal (H i)) → ∀ i, IsReal (aggOf m c H i) :=
    fun H hH => real_agg _ _ _ H (real_coef _ _ h1) hH
  exact (net_eq (M := 100000) (N := 64) (K1 := 128) (by norm_num) nW epsW n_eq eps_real eps_pos (aggOf m c) hagg
    _ _ _ _ _ _ _ _ _ _ _ _ _ h0 h2 (isReal_row _ h3) (isReal_row _ h4) (isReal_row _ h5) h6 (isReal_row _ h7)
    (isReal_row _ h8) (isReal_row _ h9) h10 (isReal_row _ h11) (isReal_row _ h12) (isReal_row _ h13)).symm

end Cert.Proof.Bridge

end
-- ==== Proof.lean ====
/- The proof of `Cert.Claim` for a three-layer graph-convolution encoder: per layer a matrix product, a
   degree-normalised gather / scatter aggregation with self loops, a batch normalisation over the 100000 nodes and a
   rectifier; the result regrouped into 1000 graphs of 100 nodes, beside a mask of ones.

   The kernel's program computes each layer with three pallas_calls (the product; the column sums and sums of squares,
   accumulated over ten blocks of rows; the normalisation) and takes the variance in one pass, `E[y²] − μ²`; the
   reference takes it in two, `E[(y − μ)²]`. The two agree on real data, and the precondition makes every float
   argument real; sums re-associate freely on the extended reals, and both programs aggregate with the same host
   operations over the same edge list, so layer by layer the two programs compute one function (`Bridge.lean`,
   over `Algebra.lean` and `Net.lean`).

   The frames of the two kernel programs are the generated ones; the reference, a host program, runs by the list of
   its operations (`RefRun.lean`), and its frame is that run with the results dropped. The ideal pass rewrote nothing,
   so `preserves` is `True`. For `algebraic` the kernel program's run is read back segment by segment
   (`KRun.lean`, `KPrefix.lean`, `KLayer1–3.lean`, `KValue.lean`, over the pallas_calls read as whole-array
   functions in `RegionMatmul.lean`, `RegionStats*.lean`, `RegionNorm.lean`) and the reference's operation by
   operation (`RefValue.lean` and its siblings). -/
import proofs.«148580_j42640435315163_1_alg».proof.Defs
import proofs.«148580_j42640435315163_1_alg».proof.Proof.Gen.Kernel
import proofs.«148580_j42640435315163_1_alg».proof.Proof.Gen.Kernel.Skeleton
import proofs.«148580_j42640435315163_1_alg».proof.Proof.Gen.Kernel.Launch
import proofs.«148580_j42640435315163_1_alg».proof.Proof.Gen.Kernel.Points
import proofs.«148580_j42640435315163_1_alg».proof.Proof.Gen.Kernel.Frame
import proofs.«148580_j42640435315163_1_alg».proof.Proof.Gen.KernelIdeal
import proofs.«148580_j42640435315163_1_alg».proof.Proof.Gen.KernelIdeal.Skeleton
import proofs.«148580_j42640435315163_1_alg».proof.Proof.Gen.KernelIdeal.Launch
import proofs.«148580_j42640435315163_1_alg».proof.Proof.Gen.KernelIdeal.Points
import proofs.«148580_j42640435315163_1_alg».proof.Proof.Gen.KernelIdeal.Frame
import proofs.«148580_j42640435315163_1_alg».proof.Proof.Gen.ReferenceIdeal
import proofs.«148580_j42640435315163_1_alg».proof.Proof.Gen.Pre_finite_inputs
import proofs.«148580_j42640435315163_1_alg».proof.Proof.KRun
import proofs.«148580_j42640435315163_1_alg».proof.Proof.KValue
import proofs.«148580_j42640435315163_1_alg».proof.Proof.RefValue
import proofs.«148580_j42640435315163_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves every argument as launched: no operation writes one. -/
theorem frame_ri : Cert.frame_ReferenceIdeal := fun m ρ _ =>
  (θ_run Cert.ReferenceIdeal.defs _ _).mono
    (fun _ h c => ⟨(h c _).trans (Cert.ReferenceIdeal.RefValue.ref_arg_0 _),
      (h c _).trans (Cert.ReferenceIdeal.RefValue.ref_arg_1 _),
      (h c _).trans (Cert.ReferenceIdeal.RefValue.ref_arg_2 _),
      (h c _).trans (Cert.ReferenceIdeal.RefValue.ref_arg_3 _),
      (h c _).trans (Cert.ReferenceIdeal.RefValue.ref_arg_4 _),
      (h c _).trans (Cert.ReferenceIdeal.RefValue.ref_arg_5 _),
      (h c _).trans (Cert.ReferenceIdeal.RefValue.ref_arg_6 _),
      (h c _).trans (Cert.ReferenceIdeal.RefValue.ref_arg_7 _),
      (h c _).trans (Cert.ReferenceIdeal.RefValue.ref_arg_8 _),
      (h c _).trans (Cert.ReferenceIdeal.RefValue.ref_arg_9 _),
      (h c _).trans (Cert.ReferenceIdeal.RefValue.ref_arg_10 _),
      (h c _).trans (Cert.ReferenceIdeal.RefValue.ref_arg_11 _),
      (h c _).trans (Cert.ReferenceIdeal.RefValue.ref_arg_12 _),
      (h c _).trans (Cert.ReferenceIdeal.RefValue.ref_arg_13 _),
      (h c _).trans (Cert.ReferenceIdeal.RefValue.ref_arg_14 _),
      (h c _).trans (Cert.ReferenceIdeal.RefValue.ref_arg_15 _)⟩)
    (Cert.ReferenceIdeal.RefValue.run_main (F := Ideal) m ρ)

theorem preserves : Cert.preserves_Kernel_KernelIdeal := trivial

/-- Both programs end with the three layers of the kernel's arguments regrouped by graph, and the mask of ones. -/
theorem algebraic : Cert.algebraic_KernelIdeal_ReferenceIdeal := by
  intro m ρ m' ρ' hpre hagree
  refine ⟨fun c => shapeCast Cert.KernelIdeal.S1000x100x64 (Cert.KernelIdeal.KValue.netK m c)
      Cert.KernelIdeal.Facts₀.shapeCasts_S100000x64_S1000x100x64,
    fun _ => broadcastInDim Cert.KernelIdeal.S1000x100 ![] Cert.KernelIdeal.Facts₀.bcast_S_S1000x100
      (constant (F := Ideal) Cert.KernelIdeal.S_ .f32 0x3F800000#32), ?_, ?_⟩
  · exact (θ_run Cert.KernelIdeal.defs _ _).mono
      (fun _ h c => ⟨(h c).1.trans (Cert.KernelIdeal.KValue.out_eq m ρ c),
        (h c).2.1.trans (Cert.KernelIdeal.KValue.mask_eq m ρ c), (h c).2.2⟩)
      (Cert.KernelIdeal.KRun.run_values (F := Ideal) m ρ)
  · refine (θ_run Cert.ReferenceIdeal.defs _ _).mono (fun _ h c => ⟨?_, ?_, ?_⟩)
      (Cert.ReferenceIdeal.RefValue.run_main (F := Ideal) m' ρ')
    · refine ((h c _).trans (Cert.ReferenceIdeal.RefValue.ref_value _)).trans ?_
      obtain ⟨a0, a1, a2, a3, a4, a5, a6, a7, a8, a9, a10, a11, a12, a13, a14, a15⟩ := hagree c
      show shapeCast _ (Cert.ReferenceIdeal.RefValue.layerOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg14))
        (Cert.ReferenceIdeal.RefValue.layerOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg14))
          (Cert.ReferenceIdeal.RefValue.layerOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg14))
            (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9)))
        (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))) _ = _
      rw [a0, a1, a2, a3, a4, a5, a6, a7, a8, a9, a10, a11, a12, a13, a14]
      exact congrArg (fun X => shapeCast Cert.KernelIdeal.S1000x100x64 X
        Cert.KernelIdeal.Facts₀.shapeCasts_S100000x64_S1000x100x64) (Cert.Proof.Bridge.net_eq_of_pre m hpre c)
    · exact (h c _).trans (Cert.ReferenceIdeal.RefValue.ref_mask _)
    · exact ⟨(h c _).trans (Cert.ReferenceIdeal.RefValue.ref_arg_0 _),
        (h c _).trans (Cert.ReferenceIdeal.RefValue.ref_arg_1 _),
        (h c _).trans (Cert.ReferenceIdeal.RefValue.ref_arg_2 _),
        (h c _).trans (Cert.ReferenceIdeal.RefValue.ref_arg_3 _),
        (h c _).trans (Cert.ReferenceIdeal.RefValue.ref_arg_4 _),
        (h c _).trans (Cert.ReferenceIdeal.RefValue.ref_arg_5 _),
        (h c _).trans (Cert.ReferenceIdeal.RefValue.ref_arg_6 _),
        (h c _).trans (Cert.ReferenceIdeal.RefValue.ref_arg_7 _),
        (h c _).trans (Cert.ReferenceIdeal.RefValue.ref_arg_8 _),
        (h c _).trans (Cert.ReferenceIdeal.RefValue.ref_arg_9 _),
        (h c _).trans (Cert.ReferenceIdeal.RefValue.ref_arg_10 _),
        (h c _).trans (Cert.ReferenceIdeal.RefValue.ref_arg_11 _),
        (h c _).trans (Cert.ReferenceIdeal.RefValue.ref_arg_12 _),
        (h c _).trans (Cert.ReferenceIdeal.RefValue.ref_arg_13 _),
        (h c _).trans (Cert.ReferenceIdeal.RefValue.ref_arg_14 _),
        (h c _).trans (Cert.ReferenceIdeal.RefValue.ref_arg_15 _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
